-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x256 : Shape := ⟨2, ![64, 256]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x256 : S_.BroadcastsInDim S64x256 (![] : Fin 0 → Fin S64x256.rank)
  reducesTo_S64x256_S_d0_1 : S64x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S64x256 .f32) (main_arg9 : FVec F S256 .f32) (main_arg10 : FVec F S256x40 .f32) (main_arg11 : FVec F S40 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x40 .f32 := Host.absf main_arg10
  let main_cst_16 : FVec F S_ .f32 := constant S_ .f32 0x7F800000#32
  let main_v45 : FVec F S256x40 .f32 := broadcastInDim S256x40 ![] bcast_S_S256x40 main_cst_16
  let main_v46 : IVec S256x40 1 := cmpf .olt main_v44 main_v45
  let main_c_17 : IVec S_ 1 := constantI S_ 1 1#1
  let main_v47 : IVec S_ 1 := (fun x v => Host.reduce IntOp.andi x v reducesTo_S256x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S64 .f32) (main_arg6 : FVec F S3x64x64 .f32) (main_arg7 : FVec F S3x64 .f32) (main_arg8 : FVec F S64x256 .f32) (main_arg9 : FVec F S256 .f32) (main_arg10 : FVec F S256x40 .f32) (main_arg11 : FVec F S40 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1200000 32) (main_arg2 : FVec F S128x256 .f32) (main_arg3 : FVec F S256 .f32) (main_arg4 : FVec F S256x64 .f32) (main_arg5 : FVec F S64 .f32) (main_arg6 : FVec F S3x64x64 .f32) (main_arg7 : FVec F S3x64 .f32) (main_arg8 : FVec F S64x256 .f32) (main_arg9 : FVec F S256 .f32) (main_arg10 : FVec F S256x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1200000 : Shape := ⟨2, ![2, 1200000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x256 : Shape := ⟨2, ![64, 256]⟩
abbrev S256x40 : Shape := ⟨2, ![256, 40]⟩
abbrev S40 : Shape := ⟨1, ![40]⟩
abbrev S1x1200000 : Shape := ⟨2, ![1, 1200000]⟩
abbrev S1200000 : Shape := ⟨1, ![1200000]⟩
abbrev S1x64x64 : Shape := ⟨3, ![1, 64, 64]⟩
abbrev S64x64 : Shape := ⟨2, ![64, 64]⟩
abbrev S1x256 : Shape := ⟨2, ![1, 256]⟩
abbrev S1x64 : Shape := ⟨2, ![1, 64]⟩
abbrev S100000x64 : Shape := ⟨2, ![100000, 64]⟩
abbrev S4000x128 : Shape := ⟨2, ![4000, 128]⟩
abbrev S4000x64 : Shape := ⟨2, ![4000, 64]⟩
abbrev S4000x256 : Shape := ⟨2, ![4000, 256]⟩
abbrev S_ : Shape := ⟨0, ![]⟩
abbrev S1200000x1 : Shape := ⟨2, ![1200000, 1]⟩
abbrev S1200000x64 : Shape := ⟨2, ![1200000, 64]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 81
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S3x64x64, .f32⟩
  | .hbm, ⟨7, _⟩ => ⟨S3x64, .f32⟩
  | .hbm, ⟨8, _⟩ => ⟨S64x256, .f32⟩
  | .hbm, ⟨9, _⟩ => ⟨S256, .f32⟩
  | .hbm, ⟨10, _⟩ => ⟨S256x40, .f32⟩
  | .hbm, ⟨11, _⟩ => ⟨S40, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S1x64x64, .f32⟩
  | .hbm, ⟨17, _⟩ => ⟨S64x64, .f32⟩
  | .hbm, ⟨18, _⟩ => ⟨S1x256, .f32⟩
  | .hbm, ⟨19, _⟩ => ⟨S1x64, .f32⟩
  | .hbm, ⟨20, _⟩ => ⟨S100000x64, .bf16⟩
  | .hbm, ⟨21, _⟩ => ⟨S_, .i32⟩
  | .hbm, ⟨22, _⟩ => ⟨S1200000, .i32⟩
  | .hbm, ⟨23, _⟩ => ⟨S1200000, .i1⟩
  | .hbm, ⟨24, _⟩ => ⟨S_, .i32⟩
  | .hbm, ⟨25, _⟩ => ⟨S1200000, .i32⟩
  | .hbm, ⟨26, _⟩ => ⟨S1200000, .i32⟩
  | .hbm, ⟨27, _⟩ => ⟨S1200000, .i32⟩
  | .hbm, ⟨28, _⟩ => ⟨S1200000x1, .i32⟩
  | .hbm, ⟨29, _⟩ => ⟨S1200000x64, .bf16⟩
  | .hbm, ⟨30, _⟩ => ⟨S1200000x64, .f32⟩
  | .hbm, ⟨31, _⟩ => ⟨S_, .f32⟩
  | .hbm, ⟨32, _⟩ => ⟨S100000x64, .f32⟩
  | .hbm, ⟨33, _⟩ => ⟨S1200000x1, .i32⟩
  | .hbm, ⟨34, _⟩ => ⟨S100000x64, .f32⟩
  | .hbm, ⟨35, _⟩ => ⟨S1x64, .f32⟩
  | .hbm, ⟨36, _⟩ => ⟨S64, .f32⟩
  | .hbm, ⟨37, _⟩ => ⟨S1x64x64, .f32⟩
  | .hbm, ⟨38, _⟩ => ⟨S64x64, .f32⟩
  | .hbm, ⟨39, _⟩ => ⟨S1x64, .f32⟩
  | .hbm, ⟨40, _⟩ => ⟨S100000x64, .bf16⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .bf16⟩
  | .hbm, ⟨50, _⟩ => ⟨S1200000x64, .f32⟩
  | .hbm, ⟨51, _⟩ => ⟨S_, .f32⟩
  | .hbm, ⟨52, _⟩ => ⟨S100000x64, .f32⟩
  | .hbm, ⟨53, _⟩ => ⟨S1200000x1, .i32⟩
  | .hbm, ⟨54, _⟩ => ⟨S100000x64, .f32⟩
  | .hbm, ⟨55, _⟩ => ⟨S1x64, .f32⟩
  | .hbm, ⟨56, _⟩ => ⟨S64, .f32⟩
  | .hbm, ⟨57, _⟩ => ⟨S1x64x64, .f32⟩
  | .hbm, ⟨58, _⟩ => ⟨S64x64, .f32⟩
  | .hbm, ⟨59, _⟩ => ⟨S1x64, .f32⟩
  | .hbm, ⟨60, _⟩ => ⟨S100000x64, .bf16⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000x64, .bf16⟩
  | .hbm, ⟨70, _⟩ => ⟨S1200000x64, .f32⟩
  | .hbm, ⟨71, _⟩ => ⟨S_, .f32⟩
  | .hbm, ⟨72, _⟩ => ⟨S100000x64, .f32⟩
  | .hbm, ⟨73, _⟩ => ⟨S1200000x1, .i32⟩
  | .hbm, ⟨74, _⟩ => ⟨S100000x64, .f32⟩
  | .hbm, ⟨75, _⟩ => ⟨S1x64, .f32⟩
  | .hbm, ⟨76, _⟩ => ⟨S64, .f32⟩
  | .hbm, ⟨77, _⟩ => ⟨S1x64, .f32⟩
  | .hbm, ⟨78, _⟩ => ⟨S1x256, .f32⟩
  | .hbm, ⟨79, _⟩ => ⟨S1x40, .f32⟩
  | .hbm, ⟨80, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S64x64, .f32⟩
  | .local _ .vmem, ⟨7, _⟩ => ⟨S4000x64, .bf16⟩
  | .local _ .vmem, ⟨8, _⟩ => ⟨S4000x64, .bf16⟩
  | .local _ .vmem, ⟨9, _⟩ => ⟨S4000x64, .f32⟩
  | .local _ .vmem, ⟨10, _⟩ => ⟨S4000x64, .f32⟩
  | .local _ .vmem, ⟨11, _⟩ => ⟨S1x64, .f32⟩
  | .local _ .vmem, ⟨12, _⟩ => ⟨S64x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S64x64, .f32⟩
  | .local _ .vmem, ⟨19, _⟩ => ⟨S4000x64, .bf16⟩
  | .local _ .vmem, ⟨20, _⟩ => ⟨S4000x64, .bf16⟩
  | .local _ .vmem, ⟨21, _⟩ => ⟨S4000x64, .f32⟩
  | .local _ .vmem, ⟨22, _⟩ => ⟨S4000x64, .f32⟩
  | .local _ .vmem, ⟨23, _⟩ => ⟨S1x64, .f32⟩
  | .local _ .vmem, ⟨24, _⟩ => ⟨S64x256, .f32⟩
  | .local _ .vmem, ⟨25, _⟩ => ⟨S1x256, .f32⟩
  | .local _ .vmem, ⟨26, _⟩ => ⟨S256x40, .f32⟩
  | .local _ .vmem, ⟨27, _⟩ => ⟨S1x40, .f32⟩
  | .local _ .vmem, ⟨28, _⟩ => ⟨S4000x40, .f32⟩
  | .local _ .vmem, ⟨29, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_4 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x40 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  slices_S3x64x64_S1x64x64_0_0_0 : S3x64x64.Slices ![0, 0, 0] S1x64x64
  shapeCasts_S1x64x64_S64x64 : S1x64x64.ShapeCasts S64x64
  shapeCasts_S256_S1x256 : S256.ShapeCasts S1x256
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  shapeCasts_S4000x64_S4000x64 : S4000x64.ShapeCasts S4000x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S40_S1x40 : S40.ShapeCasts S1x40
  inb_S64x256_S64x256_0_0 : ∀ a, (![0, 0] : Fin 2 → Nat) a + S64x256.size a ≤ S64x256.size a
  h_S64x256 : 0 < S64x256.numel
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  dot_S4000x128_S128x256_S4000x256_1_0_0_1_n_n_wf : DotDims.WF S4000x128 S128x256 S4000x256 [1] [0] [0] [1] [] []
  dot_S4000x256_S256x64_S4000x64_1_0_0_1_n_n_wf : DotDims.WF S4000x256 S256x64 S4000x64 [1] [0] [0] [1] [] []
  dot_S4000x64_S64x64_S4000x64_1_0_0_1_n_n_wf : DotDims.WF S4000x64 S64x64 S4000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x256_S4000x256_1_0_0_1_n_n_wf : DotDims.WF S4000x64 S64x256 S4000x256 [1] [0] [0] [1] [] []
  dot_S4000x256_S256x40_S4000x40_1_0_0_1_n_n_wf : DotDims.WF S4000x256 S256x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .bf16 = 32 ∨ (Rect.block (s := S100000x64) S4000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .bf16 = 32 ∨ (Rect.block (s := S100000x64) S4000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .bf16 = 32 ∨ (Rect.block (s := S100000x64) S4000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x256.size a ≤ S64x256.size a
  hwx3_2 : ∀ i : grid3.Coords, EltTy.bits .f32 = 32 ∨ (Rect.block (s := S64x256) S64x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x40.size a ≤ S256x40.size a
  hwx3_4 : ∀ i : grid3.Coords, EltTy.bits .f32 = 32 ∨ (Rect.block (s := S256x40) S256x40.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x40.size a ≤ S1x40.size a
  hwx3_5 : ∀ i : grid3.Coords, EltTy.bits .f32 = 32 ∨ (Rect.block (s := S1x40) S1x40.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x40.size a ≤ S100000x40.size a
  hwx3_6 : ∀ i : grid3.Coords, EltTy.bits .f32 = 32 ∨ (Rect.block (s := S100000x40) S4000x40.size (cc3_transform_6 i) (hinb3_6 i)).WholeWords (EltTy.packing .f32)

variable [Facts₀]

def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x40_S4000x40_1_0_0_1_n_n : DotDims S4000x256 S256x40 S4000x40 where
  lhsContracting := [1]
  rhsContracting := [0]
  lhsNonContracting := [0]
  rhsNonContracting := [1]
  lhsBatch := []
  rhsBatch := []
  wf := dot_S4000x256_S256x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S256x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S4000x40.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x256 : Shape := ⟨2, ![64, 256]⟩
abbrev S256x40 : Shape := ⟨2, ![256, 40]⟩
abbrev S40 : Shape := ⟨1, ![40]⟩
abbrev S1x1200000 : Shape := ⟨2, ![1, 1200000]⟩
abbrev S1200000 : Shape := ⟨1, ![1200000]⟩
abbrev S100000x256 : Shape := ⟨2, ![100000, 256]⟩
abbrev S1x256 : Shape := ⟨2, ![1, 256]⟩
abbrev S_ : Shape := ⟨0, ![]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S1200000x1 : Shape := ⟨2, ![1200000, 1]⟩
abbrev S1200000x64 : Shape := ⟨2, ![1200000, 64]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1200000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S3x64x64, .f32⟩
  | .hbm, ⟨7, _⟩ => ⟨S3x64, .f32⟩
  | .hbm, ⟨8, _⟩ => ⟨S64x256, .f32⟩
  | .hbm, ⟨9, _⟩ => ⟨S256, .f32⟩
  | .hbm, ⟨10, _⟩ => ⟨S256x40, .f32⟩
  | .hbm, ⟨11, _⟩ => ⟨S40, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S_, .f32⟩
  | .hbm, ⟨21, _⟩ => ⟨S100000x256, .f32⟩
  | .hbm, ⟨22, _⟩ => ⟨S100000x256, .f32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .hbm, ⟨27, _⟩ => ⟨S1x64x64, .f32⟩
  | .hbm, ⟨28, _⟩ => ⟨S64x64, .f32⟩
  | .hbm, ⟨29, _⟩ => ⟨S100000x64, .f32⟩
  | .hbm, ⟨30, _⟩ => ⟨S_, .i32⟩
  | .hbm, ⟨31, _⟩ => ⟨S1200000, .i32⟩
  | .hbm, ⟨32, _⟩ => ⟨S1200000, .i1⟩
  | .hbm, ⟨33, _⟩ => ⟨S_, .i32⟩
  | .hbm, ⟨34, _⟩ => ⟨S1200000, .i32⟩
  | .hbm, ⟨35, _⟩ => ⟨S1200000, .i32⟩
  | .hbm, ⟨36, _⟩ => ⟨S1200000, .i32⟩
  | .hbm, ⟨37, _⟩ => ⟨S1200000x1, .i32⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S1x64x64, .f32⟩
  | .hbm, ⟨52, _⟩ => ⟨S64x64, .f32⟩
  | .hbm, ⟨53, _⟩ => ⟨S100000x64, .f32⟩
  | .hbm, ⟨54, _⟩ => ⟨S_, .i32⟩
  | .hbm, ⟨55, _⟩ => ⟨S1200000, .i32⟩
  | .hbm, ⟨56, _⟩ => ⟨S1200000, .i1⟩
  | .hbm, ⟨57, _⟩ => ⟨S_, .i32⟩
  | .hbm, ⟨58, _⟩ => ⟨S1200000, .i32⟩
  | .hbm, ⟨59, _⟩ => ⟨S1200000, .i32⟩
  | .hbm, ⟨60, _⟩ => ⟨S1200000, .i32⟩
  | .hbm, ⟨61, _⟩ => ⟨S1200000x1, .i32⟩
  | .hbm, ⟨62, _⟩ => ⟨S1200000x64, .f32⟩
  | .hbm, ⟨63, _⟩ => ⟨S_, .f32⟩
  | .hbm, ⟨64, _⟩ => ⟨S100000x64, .f32⟩
  | .hbm, ⟨65, _⟩ => ⟨S1200000x1, .i32⟩
  | .hbm, ⟨66, _⟩ => ⟨S100000x64, .f32⟩
  | .hbm, ⟨67, _⟩ => ⟨S1x64, .f32⟩
  | .hbm, ⟨68, _⟩ => ⟨S64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S1x64x64, .f32⟩
  | .hbm, ⟨76, _⟩ => ⟨S64x64, .f32⟩
  | .hbm, ⟨77, _⟩ => ⟨S100000x64, .f32⟩
  | .hbm, ⟨78, _⟩ => ⟨S_, .i32⟩
  | .hbm, ⟨79, _⟩ => ⟨S1200000, .i32⟩
  | .hbm, ⟨80, _⟩ => ⟨S1200000, .i1⟩
  | .hbm, ⟨81, _⟩ => ⟨S_, .i32⟩
  | .hbm, ⟨82, _⟩ => ⟨S1200000, .i32⟩
  | .hbm, ⟨83, _⟩ => ⟨S1200000, .i32⟩
  | .hbm, ⟨84, _⟩ => ⟨S1200000, .i32⟩
  | .hbm, ⟨85, _⟩ => ⟨S1200000x1, .i32⟩
  | .hbm, ⟨86, _⟩ => ⟨S1200000x64, .f32⟩
  | .hbm, ⟨87, _⟩ => ⟨S_, .f32⟩
  | .hbm, ⟨88, _⟩ => ⟨S100000x64, .f32⟩
  | .hbm, ⟨89, _⟩ => ⟨S1200000x1, .i32⟩
  | .hbm, ⟨90, _⟩ => ⟨S100000x64, .f32⟩
  | .hbm, ⟨91, _⟩ => ⟨S1x64, .f32⟩
  | .hbm, ⟨92, _⟩ => ⟨S64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S100000x256, .f32⟩
  | .hbm, ⟨100, _⟩ => ⟨S1x256, .f32⟩
  | .hbm, ⟨101, _⟩ => ⟨S100000x256, .f32⟩
  | .hbm, ⟨102, _⟩ => ⟨S100000x256, .f32⟩
  | .hbm, ⟨103, _⟩ => ⟨S_, .f32⟩
  | .hbm, ⟨104, _⟩ => ⟨S100000x256, .f32⟩
  | .hbm, ⟨105, _⟩ => ⟨S100000x256, .f32⟩
  | .hbm, ⟨106, _⟩ => ⟨S100000x40, .f32⟩
  | .hbm, ⟨107, _⟩ => ⟨S1x40, .f32⟩
  | .hbm, ⟨108, _⟩ => ⟨S100000x40, .f32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x40, .f32⟩
  | .hbm, ⟨117, _⟩ => ⟨S100000x40, .f32⟩
  | .hbm, ⟨118, _⟩ => ⟨S100000x40, .f32⟩
  | .hbm, ⟨119, _⟩ => ⟨S_, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_1 : Ref sig .tc := ⟨.hbm, 54, rfl⟩
abbrev main_v35 : Ref sig .tc := ⟨.hbm, 55, rfl⟩
abbrev main_v36 : Ref sig .tc := ⟨.hbm, 56, rfl⟩
abbrev main_c_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_cst : Ref sig .tc := ⟨.hbm, 72, rfl⟩
abbrev main_call2_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_4 : Ref sig .tc := ⟨.hbm, 78, rfl⟩
abbrev main_v54 : Ref sig .tc := ⟨.hbm, 79, rfl⟩
abbrev main_v55 : Ref sig .tc := ⟨.hbm, 80, rfl⟩
abbrev main_c_5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call3_cst : Ref sig .tc := ⟨.hbm, 96, rfl⟩
abbrev main_call3_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call4_cst : Ref sig .tc := ⟨.hbm, 103, rfl⟩
abbrev main_call4_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call5_cst : Ref sig .tc := ⟨.hbm, 110, rfl⟩
abbrev main_call5_v0 : Ref sig .tc := ⟨.hbm, 111, rfl⟩
abbrev main_call5_cst_0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_v6 : Ref sig .tc := ⟨.hbm, 118, rfl⟩
abbrev main_call5_cst_1 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_v79 : Ref sig .tc := ⟨.hbm, 124, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x256_S100000x256_1_0_0_1_n_n_wf : DotDims.WF S100000x64 S64x256 S100000x256 [1] [0] [0] [1] [] []
  dot_S100000x256_S256x40_S100000x40_1_0_0_1_n_n_wf : DotDims.WF S100000x256 S256x40 S100000x40 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.KRun.lean ====
/-
  The kernel program's run with its result named.

  @main of the kernel program is four regions among stretches of host operations. The generated frame follows the
  buffers' contents through them as a fold `W0, W1, …, W8`: a stretch of host operations rewrites the buffers it writes, a
  region leaves each of its arrays at what its write-backs leave and every other buffer as it found it. Its run ends in
  the state "every unscoped buffer at `W8`". Read at the result buffer, beside the twelve arguments, this gives: every
  weakly fair execution terminates, the result buffer ends at `W8` of it, and the arguments end as launched.
-/
import proofs.«156270_j22093311771370_2_alg».proof.Proof.Gen.KernelIdeal.Frame

set_option maxRecDepth 16384

noncomputable section

namespace Cert.KernelIdeal.GnnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W8` of it, and the twelve argument arrays end as launched. -/
theorem run : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.GnnRun

end
-- ==== Proof.RowOps.lean ====
/-
  Row-wise layers on the extended reals.

  A dense layer sends a matrix X : [a, n] to X·W + r, where W : [n, b] and the one-row matrix r : [1, b] is added to every
  row; a rectifier takes the maximum with the zero word entry by entry; a row-wise log-softmax subtracts from every entry
  its row's maximum and then the logarithm of the row's sum of exponentials of the shifted entries. Each of these maps
  sends row p of its input to row p of its output and looks at no other row. So restricting the rows first (taking any
  family of rows `f : Fin a → Fin A` of an [A, ·] matrix) and applying the layer afterwards is the same as applying the
  layer and restricting afterwards: the lemmas `*_sel`. The three compositions a message-passing network is made of are
  stated over them: `enc` (two dense layers with a rectifier between, then a plain product), `comb` (bias, rectifier,
  product) and `dec` (bias, rectifier, two dense layers with a rectifier between, log-softmax).

  The float constants stay words: `Ideal.ofBits .f32 0x00000000#32` is the zero the rectifier compares with,
  `Ideal.ofBits .f32 0xFF800000#32` the value the row maximum starts from.
-/
import Idealize.ShloMosaic.PureOps.Ideal.Laws
import Idealize.ShloMosaic.Lib.ValueIdx

noncomputable section

open scoped BigOperators

namespace Cert.Gnn

open Idealize.ShloMosaic Idealize.ShloMosaic.ValueIdx

/-- An [a, b] matrix of extended reals. -/
abbrev Mat (a b : ℕ) := (⟨2, ![a, b]⟩ : Shape).Idx → EReal

/-- A matrix given entry by entry. -/
def ofFn {a b : ℕ} (f : Fin a → Fin b → EReal) : Mat a b := fun i => f (i 0) (i 1)

theorem ofFn_ix2 {a b : ℕ} (f : Fin a → Fin b → EReal) (p : Fin a) (q : Fin b) : ofFn f (ix2 p q) = f p q := rfl

/-- The product X·W: entry (p, q) is the sum over k of X (p, k) · W (k, q). -/
def mm {a n b : ℕ} (x : Mat a n) (w : Mat n b) : Mat a b := ofFn fun p q => ∑ k : Fin n, x (ix2 p k) * w (ix2 k q)

/-- The one row r added to every row of X. -/
def addRow {a b : ℕ} (x : Mat a b) (r : Mat 1 b) : Mat a b := ofFn fun p q => x (ix2 p q) + r (ix2 (0 : Fin 1) q)

/-- The rectifier: the maximum with the zero word, entry by entry. -/
def relu {a b : ℕ} (x : Mat a b) : Mat a b := ofFn fun p q => max (x (ix2 p q)) (Ideal.ofBits .f32 0x00000000#32)

/-- Row p's maximum, folded from the word of −∞. -/
def rowMax {a b : ℕ} (z : Mat a b) (p : Fin a) : EReal :=
  (Finset.univ : Finset (Fin b)).fold max (Ideal.ofBits .f32 0xFF800000#32) (fun q => z (ix2 p q))

/-- Row p's sum of exponentials of the entries shifted by the row's maximum. -/
def rowExpSum {a b : ℕ} (z : Mat a b) (p : Fin a) : EReal :=
  ∑ q : Fin b, Ideal.exp (z (ix2 p q) - rowMax z p)

/-- The row-wise log-softmax: (z − max) − log Σ exp (z − max), every row by itself. -/
def logSoftmax {a b : ℕ} (z : Mat a b) : Mat a b :=
  ofFn fun p q => (z (ix2 p q) - rowMax z p) - Ideal.log (rowExpSum z p)

/-- Two dense layers with a rectifier between them, then a product with a third matrix. -/
def enc {a n h d : ℕ} (x : Mat a n) (w0 : Mat n h) (r0 : Mat 1 h) (w1 : Mat h d) (r1 : Mat 1 d) (g : Mat d d) : Mat a d :=
  mm (addRow (mm (relu (addRow (mm x w0) r0)) w1) r1) g

/-- A bias row, the rectifier, a product. -/
def comb {a d : ℕ} (x : Mat a d) (r : Mat 1 d) (g : Mat d d) : Mat a d := mm (relu (addRow x r)) g

/-- A bias row and the rectifier, two dense layers with a rectifier between them, the row-wise log-softmax. -/
def dec {a d h c : ℕ} (x : Mat a d) (r : Mat 1 d) (w0 : Mat d h) (r0 : Mat 1 h) (w1 : Mat h c) (r1 : Mat 1 c) : Mat a c :=
  logSoftmax (addRow (mm (relu (addRow (mm (relu (addRow x r)) w0) r0)) w1) r1)

/-! ## Rows chosen first or last -/

/-- The rows `f 0, f 1, …` of an [A, b] matrix, as an [a, b] matrix. -/
def sel {A a b : ℕ} (f : Fin a → Fin A) (x : Mat A b) : Mat a b := ofFn fun p q => x (ix2 (f p) q)

theorem sel_ix2 {A a b : ℕ} (f : Fin a → Fin A) (x : Mat A b) (p : Fin a) (q : Fin b) : sel f x (ix2 p q) = x (ix2 (f p) q) := rfl

theorem mm_sel {A a n b : ℕ} (f : Fin a → Fin A) (x : Mat A n) (w : Mat n b) : mm (sel f x) w = sel f (mm x w) := rfl

theorem addRow_sel {A a b : ℕ} (f : Fin a → Fin A) (x : Mat A b) (r : Mat 1 b) : addRow (sel f x) r = sel f (addRow x r) := rfl

theorem relu_sel {A a b : ℕ} (f : Fin a → Fin A) (x : Mat A b) : relu (sel f x) = sel f (relu x) := rfl

theorem rowMax_sel {A a b : ℕ} (f : Fin a → Fin A) (z : Mat A b) (p : Fin a) : rowMax (sel f z) p = rowMax z (f p) := rfl

theorem rowExpSum_sel {A a b : ℕ} (f : Fin a → Fin A) (z : Mat A b) (p : Fin a) : rowExpSum (sel f z) p = rowExpSum z (f p) := rfl

theorem logSoftmax_sel {A a b : ℕ} (f : Fin a → Fin A) (z : Mat A b) : logSoftmax (sel f z) = sel f (logSoftmax z) := rfl

/-- The encoder of chosen rows is the chosen rows of the encoder. -/
theorem enc_sel {A a n h d : ℕ} (f : Fin a → Fin A) (x : Mat A n) (w0 : Mat n h) (r0 : Mat 1 h) (w1 : Mat h d) (r1 : Mat 1 d)
    (g : Mat d d) : enc (sel f x) w0 r0 w1 r1 g = sel f (enc x w0 r0 w1 r1 g) := by
  unfold enc
  rw [mm_sel, addRow_sel, relu_sel, mm_sel, addRow_sel, mm_sel]

theorem comb_sel {A a d : ℕ} (f : Fin a → Fin A) (x : Mat A d) (r : Mat 1 d) (g : Mat d d) :
    comb (sel f x) r g = sel f (comb x r g) := by
  unfold comb
  rw [addRow_sel, relu_sel, mm_sel]

theorem dec_sel {A a d h c : ℕ} (f : Fin a → Fin A) (x : Mat A d) (r : Mat 1 d) (w0 : Mat d h) (r0 : Mat 1 h) (w1 : Mat h c)
    (r1 : Mat 1 c) : dec (sel f x) r w0 r0 w1 r1 = sel f (dec x r w0 r0 w1 r1) := by
  unfold dec
  rw [addRow_sel, relu_sel, mm_sel, addRow_sel, relu_sel, mm_sel, addRow_sel, logSoftmax_sel]

end Cert.Gnn

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelOps.lean ====
/-
  The vector operations of the kernel bodies and the host's matrix product, read at the ideal instance as the row-wise
  layers of RowOps.

  A matrix product into the zero accumulator, and the host's dot_general, with the left operand's second axis
  contracted against the right operand's first, is the product `mm`. A change of float format is the identity. A one-row
  matrix broadcast over the rows and added is `addRow`. The maximum with a splat of the zero word is `relu`. And the
  kernel's spelling of the log-softmax — the maximum along each row, kept as a column and broadcast back, subtracted; the
  exponentials summed along each row, the logarithm of the sums kept as a column, broadcast back and subtracted — is
  `logSoftmax`: a row's lane maximum is the fold of max over the row from the word of −∞, a row's lane sum the sum over
  the row, a vector stood up as a column and spread over the columns reads at (p, q) the vector at p.
-/
import proofs.«156270_j22093311771370_2_alg».proof.Proof.RowOps
import proofs.«156270_j22093311771370_2_alg».proof.Proof.LibMatmulAt
import proofs.«156270_j22093311771370_2_alg».proof.Proof.LibColBroadcast
import proofs.«156270_j22093311771370_2_alg».proof.Proof.LibColumnCast
import Idealize.ShloMosaic.Lib.ValueLayout
import Idealize.ShloMosaic.Lib.Pipeline.Value

noncomputable section

open scoped BigOperators

namespace Cert.Gnn

open Idealize.ShloMosaic Idealize.ShloMosaic.ValueIdx Idealize.ShloMosaic.MatmulAt

variable {a n b : ℕ}

/-! ## Products -/

/-- A `tpu.matmul` of an [a, n] by an [n, b] operand into the zero accumulator is the product. -/
theorem matmul_eq_mm {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂) :
    matmul D prec l r (constant ⟨2, ![a, b]⟩ .f32 0x00000000#32) = mm l r := by
  funext i
  obtain ⟨p, q, rfl⟩ : ∃ (p : Fin a) (q : Fin b), i = ix2 p q := ⟨i 0, i 1, eq_ix2 i⟩
  exact matmul_zero_ix2 D hr hs hl0 hl1 hr0 hr1 prec l r p q

/-- The host's `dot_general` of an [a, n] by an [n, b] operand is the product. -/
theorem dotGeneral_eq_mm {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂) :
    Host.dotGeneral D prec l r = mm l r := by
  funext i
  obtain ⟨p, q, rfl⟩ : ∃ (p : Fin a) (q : Fin b), i = ix2 p q := ⟨i 0, i 1, eq_ix2 i⟩
  exact dotGeneral_ix2 D hr hs hl0 hl1 hr0 hr1 prec l r p q

/-! ## Formats, bias rows, the rectifier -/

/-- Narrowing the float format changes no extended real. -/
theorem truncf_id {s : Shape} {φ ψ : FTy} (x : FVec Ideal s φ) (h : ψ.bits < φ.bits) : (truncf ψ x h : FVec Ideal s ψ) = x := rfl

/-- Widening the float format changes no extended real. -/
theorem extf_id {s : Shape} {φ ψ : FTy} (x : FVec Ideal s φ) (h : φ.bits < ψ.bits) : (extf ψ x h : FVec Ideal s ψ) = x := rfl

/-- A one-row matrix, cast to its own shape, broadcast over the rows and added. -/
theorem addf_broadcastRow (v : FVec Ideal ⟨2, ![a, b]⟩ .f32) (r : FVec Ideal ⟨2, ![1, b]⟩ .f32)
    (hc : (⟨2, ![1, b]⟩ : Shape).ShapeCasts ⟨2, ![1, b]⟩) (hb : (⟨2, ![1, b]⟩ : Shape).Broadcasts ⟨2, ![a, b]⟩) :
    addf v (broadcastTo ⟨2, ![a, b]⟩ (shapeCast ⟨2, ![1, b]⟩ r hc) hb) = addRow v r := by
  funext i
  obtain ⟨p, q, rfl⟩ : ∃ (p : Fin a) (q : Fin b), i = ix2 p q := ⟨i 0, i 1, eq_ix2 i⟩
  rw [addf_apply, broadcastTo_1b_ab_apply, shapeCast_self]
  rfl

/-- The maximum with a splat of the zero word. -/
theorem maximumf_zero (v : FVec Ideal ⟨2, ![a, b]⟩ .f32) :
    maximumf v (broadcast ⟨2, ![a, b]⟩ (Scalar.ofBits (F := Ideal) .f32 0x00000000#32)) = relu v := by
  funext i
  obtain ⟨p, q, rfl⟩ : ∃ (p : Fin a) (q : Fin b), i = ix2 p q := ⟨i 0, i 1, eq_ix2 i⟩
  rfl

/-! ## The log-softmax as the kernel spells it -/

/-- Index `p` of the row-reduced shape with the column `k` put back is `(p, k)`. -/
theorem lift1_ix2 (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane maximum along the rows, from the word of −∞, is the row's maximum. -/
theorem laneMax_eq (z : FVec Ideal ⟨2, ![a, b]⟩ .f32) (h : (⟨2, ![a, b]⟩ : Shape).Reduces [1] (⟨1, ![a]⟩ : Shape))
    (hφ : FKind.Formats .f32) (hacc : (0xFF800000#32 : BitVec FTy.f32.bits) = FKind.maximumf.neutral .f32 hφ) (p : Fin a) :
    multiReduction .maximumf [1] ⟨1, ![a]⟩ z 0xFF800000#32 h hφ hacc (ix1 p) = rowMax z p := by
  rw [Ideal.multiReduction_maximumf_single]
  have hf : (z ∘ h.lift (ix1 p)) = fun k : Fin b => z (ix2 p k) := funext fun k => congrArg z (lift1_ix2 h p k)
  exact congrArg (fun f => Finset.fold max (Ideal.ofBits .f32 0xFF800000#32) f (Finset.univ : Finset (Fin b))) hf

/-- A lane sum along the rows is the sum over the row. -/
theorem laneSum_eq (e : FVec Ideal ⟨2, ![a, b]⟩ .f32) (h : (⟨2, ![a, b]⟩ : Shape).Reduces [1] (⟨1, ![a]⟩ : Shape))
    (hφ : FKind.Formats .f32) (hacc : (0x00000000#32 : BitVec FTy.f32.bits) = FKind.add.neutral .f32 hφ) (p : Fin a) :
    multiReduction .add [1] ⟨1, ![a]⟩ e 0x00000000#32 h hφ hacc (ix1 p) = ∑ q : Fin b, e (ix2 p q) := by
  rw [Ideal.multiReduction_add_single]
  exact Finset.sum_congr rfl fun k _ => congrArg e (lift1_ix2 h p k)

/-- A vector stood up as a column and spread over the columns reads, at (p, q), the vector at p. -/
theorem column_spread (m : FVec Ideal ⟨1, ![a]⟩ .f32) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ m hc) hb (ix2 p q) = m (ix1 p) := by
  rw [Cert.LibColBroadcast.broadcastTo_a1_ab_apply, Cert.LibColumnCast.shapeCast_a_a1_apply]

/-- The same with the logarithm taken on the column. -/
theorem column_log_spread (m : FVec Ideal ⟨1, ![a]⟩ .f32) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (log (shapeCast ⟨2, ![a, 1]⟩ m hc)) hb (ix2 p q) = Ideal.log (m (ix1 p)) := by
  rw [Cert.LibColBroadcast.broadcastTo_a1_ab_apply]
  show Ideal.log (shapeCast ⟨2, ![a, 1]⟩ m hc (ix2 p (0 : Fin 1))) = _
  rw [Cert.LibColumnCast.shapeCast_a_a1_apply]

/-- The entries shifted by their row's lane maximum. -/
theorem shifted_apply (z : FVec Ideal ⟨2, ![a, b]⟩ .f32) (h : (⟨2, ![a, b]⟩ : Shape).Reduces [1] (⟨1, ![a]⟩ : Shape))
    (hφ : FKind.Formats .f32) (hmax : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩) (p : Fin a) (q : Fin b) :
    subf z (broadcastTo ⟨2, ![a, b]⟩ (shapeCast ⟨2, ![a, 1]⟩ (multiReduction .maximumf [1] ⟨1, ![a]⟩ z 0xFF800000#32 h hφ hmax) hc) hb) (ix2 p q)
      = z (ix2 p q) - rowMax z p := by
  rw [subf_apply, column_spread, laneMax_eq]

/-- The kernel's log-softmax: shift by the lane maximum, subtract the logarithm of the lane sum of exponentials. -/
theorem logSoftmax_lanes (z : FVec Ideal ⟨2, ![a, b]⟩ .f32) (h : (⟨2, ![a, b]⟩ : Shape).Reduces [1] (⟨1, ![a]⟩ : Shape))
    (hφ : FKind.Formats .f32) (hmax : (0xFF800000#32 : BitVec FTy.f32.bits) = FKind.maximumf.neutral .f32 hφ)
    (hadd : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩) :
    subf (subf z (broadcastTo ⟨2, ![a, b]⟩ (shapeCast ⟨2, ![a, 1]⟩ (multiReduction .maximumf [1] ⟨1, ![a]⟩ z 0xFF800000#32 h hφ hmax) hc) hb))
      (broadcastTo ⟨2, ![a, b]⟩ (log (shapeCast ⟨2, ![a, 1]⟩
        (multiReduction .add [1] ⟨1, ![a]⟩
          (exp (subf z (broadcastTo ⟨2, ![a, b]⟩ (shapeCast ⟨2, ![a, 1]⟩ (multiReduction .maximumf [1] ⟨1, ![a]⟩ z 0xFF800000#32 h hφ hmax) hc) hb)))
          0x00000000#32 h hφ hadd) hc)) hb)
      = logSoftmax z := by
  funext i
  obtain ⟨p, q, rfl⟩ : ∃ (p : Fin a) (q : Fin b), i = ix2 p q := ⟨i 0, i 1, eq_ix2 i⟩
  rw [subf_apply, shifted_apply, column_log_spread, laneSum_eq]
  show _ = (z (ix2 p q) - rowMax z p) - Ideal.log (∑ q' : Fin b, Ideal.exp (z (ix2 p q') - rowMax z p))
  refine congrArg (fun s => (z (ix2 p q) - rowMax z p) - Ideal.log s) (Finset.sum_congr rfl fun q' _ => ?_)
  show Ideal.exp (subf z _ (ix2 p q')) = _
  rw [shifted_apply]

end Cert.Gnn

end
-- ==== Proof.Pay.lean ====
/-
  The four kernel bodies' arithmetic, at the ideal instance, as row-wise layers.

  Each body loads its blocks whole, computes, and stores one block. Read on the extended reals, where a change of float
  format is the identity and a matrix product into the zero accumulator is the plain sum of products, the first body's
  stored value is `enc` of its six loaded blocks (two dense layers with a rectifier between, then the product with the
  layer's weights), the second and third bodies' is `comb` (bias row, rectifier, product), the fourth's is `dec` (bias row
  and rectifier, two dense layers with a rectifier between, the log-softmax along the rows).

  For each of the five matrix-product records the bodies use, the four facts that say where its operand indices sit:
  the left index reads the result's row and the contracted position, the right index the contracted position and the
  result's column.
-/
import proofs.«156270_j22093311771370_2_alg».proof.Proof.Gen.KernelIdeal.Skeleton
import proofs.«156270_j22093311771370_2_alg».proof.Proof.KernelOps

noncomputable section

namespace Cert.KernelIdeal.GnnPay

open Cert.KernelIdeal Cert.KernelIdeal.Gen Idealize.ShloMosaic Idealize.ShloMosaic.ValueIdx

/-! ## The product records -/

theorem lhs0_d1 (i : S4000x256.Idx) (q : dot_S4000x128_S128x256_S4000x256_1_0_0_1_n_n.contr.Idx) : (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs1_d1 (i : S4000x256.Idx) (q : dot_S4000x128_S128x256_S4000x256_1_0_0_1_n_n.contr.Idx) : (dot_S4000x128_S128x256_S4000x256_1_0_0_1_n_n.lhsIdx i q 1).val = (q ⟨0, by decide⟩).val :=
  dot_S4000x128_S128x256_S4000x256_1_0_0_1_n_n.lhsIdx_val_of_single rfl i q
theorem rhs0_d1 (i : S4000x256.Idx) (q : dot_S4000x128_S128x256_S4000x256_1_0_0_1_n_n.contr.Idx) : (dot_S4000x128_S128x256_S4000x256_1_0_0_1_n_n.rhsIdx i q 0).val = (q ⟨0, by decide⟩).val :=
  dot_S4000x128_S128x256_S4000x256_1_0_0_1_n_n.rhsIdx_val_of_single rfl i q
theorem rhs1_d1 (i : S4000x256.Idx) (q : dot_S4000x128_S128x256_S4000x256_1_0_0_1_n_n.contr.Idx) : (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl
/-- The product of this record, into the zero accumulator, is `mm`. -/
theorem mm_d1 {φ₁ φ₂ : FTy} (l : FVec Ideal S4000x128 φ₁) (r : FVec Ideal S128x256 φ₂) :
    matmul dot_S4000x128_S128x256_S4000x256_1_0_0_1_n_n none l r (constant S4000x256 .f32 0x00000000#32) = Gnn.mm l r :=
  Gnn.matmul_eq_mm dot_S4000x128_S128x256_S4000x256_1_0_0_1_n_n rfl rfl lhs0_d1 lhs1_d1 rhs0_d1 rhs1_d1 none l r

theorem lhs0_d2 (i : S4000x64.Idx) (q : dot_S4000x256_S256x64_S4000x64_1_0_0_1_n_n.contr.Idx) : (dot_S4000x256_S256x64_S4000x64_1_0_0_1_n_n.lhsIdx i q 0).val = (i 0).val := by
  unfold DotDims.lhsIdx
  rw [dif_neg (show ¬(0 : Fin S4000x256.rank) ∈ dot_S4000x256_S256x64_S4000x64_1_0_0_1_n_n.lhsBatch by decide), dif_pos (show (0 : Fin S4000x256.rank) ∈ dot_S4000x256_S256x64_S4000x64_1_0_0_1_n_n.lhsNonContracting by decide)]
  rfl
theorem lhs1_d2 (i : S4000x64.Idx) (q : dot_S4000x256_S256x64_S4000x64_1_0_0_1_n_n.contr.Idx) : (dot_S4000x256_S256x64_S4000x64_1_0_0_1_n_n.lhsIdx i q 1).val = (q ⟨0, by decide⟩).val :=
  dot_S4000x256_S256x64_S4000x64_1_0_0_1_n_n.lhsIdx_val_of_single rfl i q
theorem rhs0_d2 (i : S4000x64.Idx) (q : dot_S4000x256_S256x64_S4000x64_1_0_0_1_n_n.contr.Idx) : (dot_S4000x256_S256x64_S4000x64_1_0_0_1_n_n.rhsIdx i q 0).val = (q ⟨0, by decide⟩).val :=
  dot_S4000x256_S256x64_S4000x64_1_0_0_1_n_n.rhsIdx_val_of_single rfl i q
theorem rhs1_d2 (i : S4000x64.Idx) (q : dot_S4000x256_S256x64_S4000x64_1_0_0_1_n_n.contr.Idx) : (dot_S4000x256_S256x64_S4000x64_1_0_0_1_n_n.rhsIdx i q 1).val = (i 1).val := by
  unfold DotDims.rhsIdx
  rw [dif_neg (show ¬(1 : Fin S256x64.rank) ∈ dot_S4000x256_S256x64_S4000x64_1_0_0_1_n_n.rhsBatch by decide), dif_pos (show (1 : Fin S256x64.rank) ∈ dot_S4000x256_S256x64_S4000x64_1_0_0_1_n_n.rhsNonContracting by decide)]
  rfl
/-- The product of this record, into the zero accumulator, is `mm`. -/
theorem mm_d2 {φ₁ φ₂ : FTy} (l : FVec Ideal S4000x256 φ₁) (r : FVec Ideal S256x64 φ₂) :
    matmul dot_S4000x256_S256x64_S4000x64_1_0_0_1_n_n none l r (constant S4000x64 .f32 0x00000000#32) = Gnn.mm l r :=
  Gnn.matmul_eq_mm dot_S4000x256_S256x64_S4000x64_1_0_0_1_n_n rfl rfl lhs0_d2 lhs1_d2 rhs0_d2 rhs1_d2 none l r

theorem lhs0_d3 (i : S4000x64.Idx) (q : dot_S4000x64_S64x64_S4000x64_1_0_0_1_n_n.contr.Idx) : (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs1_d3 (i : S4000x64.Idx) (q : dot_S4000x64_S64x64_S4000x64_1_0_0_1_n_n.contr.Idx) : (dot_S4000x64_S64x64_S4000x64_1_0_0_1_n_n.lhsIdx i q 1).val = (q ⟨0, by decide⟩).val :=
  dot_S4000x64_S64x64_S4000x64_1_0_0_1_n_n.lhsIdx_val_of_single rfl i q
theorem rhs0_d3 (i : S4000x64.Idx) (q : dot_S4000x64_S64x64_S4000x64_1_0_0_1_n_n.contr.Idx) : (dot_S4000x64_S64x64_S4000x64_1_0_0_1_n_n.rhsIdx i q 0).val = (q ⟨0, by decide⟩).val :=
  dot_S4000x64_S64x64_S4000x64_1_0_0_1_n_n.rhsIdx_val_of_single rfl i q
theorem rhs1_d3 (i : S4000x64.Idx) (q : dot_S4000x64_S64x64_S4000x64_1_0_0_1_n_n.contr.Idx) : (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl
/-- The product of this record, into the zero accumulator, is `mm`. -/
theorem mm_d3 {φ₁ φ₂ : FTy} (l : FVec Ideal S4000x64 φ₁) (r : FVec Ideal S64x64 φ₂) :
    matmul dot_S4000x64_S64x64_S4000x64_1_0_0_1_n_n none l r (constant S4000x64 .f32 0x00000000#32) = Gnn.mm l r :=
  Gnn.matmul_eq_mm dot_S4000x64_S64x64_S4000x64_1_0_0_1_n_n rfl rfl lhs0_d3 lhs1_d3 rhs0_d3 rhs1_d3 none l r

theorem lhs0_d4 (i : S4000x256.Idx) (q : dot_S4000x64_S64x256_S4000x256_1_0_0_1_n_n.contr.Idx) : (dot_S4000x64_S64x256_S4000x256_1_0_0_1_n_n.lhsIdx i q 0).val = (i 0).val := by
  unfold DotDims.lhsIdx
  rw [dif_neg (show ¬(0 : Fin S4000x64.rank) ∈ dot_S4000x64_S64x256_S4000x256_1_0_0_1_n_n.lhsBatch by decide), dif_pos (show (0 : Fin S4000x64.rank) ∈ dot_S4000x64_S64x256_S4000x256_1_0_0_1_n_n.lhsNonContracting by decide)]
  rfl
theorem lhs1_d4 (i : S4000x256.Idx) (q : dot_S4000x64_S64x256_S4000x256_1_0_0_1_n_n.contr.Idx) : (dot_S4000x64_S64x256_S4000x256_1_0_0_1_n_n.lhsIdx i q 1).val = (q ⟨0, by decide⟩).val :=
  dot_S4000x64_S64x256_S4000x256_1_0_0_1_n_n.lhsIdx_val_of_single rfl i q
theorem rhs0_d4 (i : S4000x256.Idx) (q : dot_S4000x64_S64x256_S4000x256_1_0_0_1_n_n.contr.Idx) : (dot_S4000x64_S64x256_S4000x256_1_0_0_1_n_n.rhsIdx i q 0).val = (q ⟨0, by decide⟩).val :=
  dot_S4000x64_S64x256_S4000x256_1_0_0_1_n_n.rhsIdx_val_of_single rfl i q
theorem rhs1_d4 (i : S4000x256.Idx) (q : dot_S4000x64_S64x256_S4000x256_1_0_0_1_n_n.contr.Idx) : (dot_S4000x64_S64x256_S4000x256_1_0_0_1_n_n.rhsIdx i q 1).val = (i 1).val := by
  unfold DotDims.rhsIdx
  rw [dif_neg (show ¬(1 : Fin S64x256.rank) ∈ dot_S4000x64_S64x256_S4000x256_1_0_0_1_n_n.rhsBatch by decide), dif_pos (show (1 : Fin S64x256.rank) ∈ dot_S4000x64_S64x256_S4000x256_1_0_0_1_n_n.rhsNonContracting by decide)]
  rfl
/-- The product of this record, into the zero accumulator, is `mm`. -/
theorem mm_d4 {φ₁ φ₂ : FTy} (l : FVec Ideal S4000x64 φ₁) (r : FVec Ideal S64x256 φ₂) :
    matmul dot_S4000x64_S64x256_S4000x256_1_0_0_1_n_n none l r (constant S4000x256 .f32 0x00000000#32) = Gnn.mm l r :=
  Gnn.matmul_eq_mm dot_S4000x64_S64x256_S4000x256_1_0_0_1_n_n rfl rfl lhs0_d4 lhs1_d4 rhs0_d4 rhs1_d4 none l r

theorem lhs0_d5 (i : S4000x40.Idx) (q : dot_S4000x256_S256x40_S4000x40_1_0_0_1_n_n.contr.Idx) : (dot_S4000x256_S256x40_S4000x40_1_0_0_1_n_n.lhsIdx i q 0).val = (i 0).val := by
  unfold DotDims.lhsIdx
  rw [dif_neg (show ¬(0 : Fin S4000x256.rank) ∈ dot_S4000x256_S256x40_S4000x40_1_0_0_1_n_n.lhsBatch by decide), dif_pos (show (0 : Fin S4000x256.rank) ∈ dot_S4000x256_S256x40_S4000x40_1_0_0_1_n_n.lhsNonContracting by decide)]
  rfl
theorem lhs1_d5 (i : S4000x40.Idx) (q : dot_S4000x256_S256x40_S4000x40_1_0_0_1_n_n.contr.Idx) : (dot_S4000x256_S256x40_S4000x40_1_0_0_1_n_n.lhsIdx i q 1).val = (q ⟨0, by decide⟩).val :=
  dot_S4000x256_S256x40_S4000x40_1_0_0_1_n_n.lhsIdx_val_of_single rfl i q
theorem rhs0_d5 (i : S4000x40.Idx) (q : dot_S4000x256_S256x40_S4000x40_1_0_0_1_n_n.contr.Idx) : (dot_S4000x256_S256x40_S4000x40_1_0_0_1_n_n.rhsIdx i q 0).val = (q ⟨0, by decide⟩).val :=
  dot_S4000x256_S256x40_S4000x40_1_0_0_1_n_n.rhsIdx_val_of_single rfl i q
theorem rhs1_d5 (i : S4000x40.Idx) (q : dot_S4000x256_S256x40_S4000x40_1_0_0_1_n_n.contr.Idx) : (dot_S4000x256_S256x40_S4000x40_1_0_0_1_n_n.rhsIdx i q 1).val = (i 1).val := by
  unfold DotDims.rhsIdx
  rw [dif_neg (show ¬(1 : Fin S256x40.rank) ∈ dot_S4000x256_S256x40_S4000x40_1_0_0_1_n_n.rhsBatch by decide), dif_pos (show (1 : Fin S256x40.rank) ∈ dot_S4000x256_S256x40_S4000x40_1_0_0_1_n_n.rhsNonContracting by decide)]
  rfl
/-- The product of this record, into the zero accumulator, is `mm`. -/
theorem mm_d5 {φ₁ φ₂ : FTy} (l : FVec Ideal S4000x256 φ₁) (r : FVec Ideal S256x40 φ₂) :
    matmul dot_S4000x256_S256x40_S4000x40_1_0_0_1_n_n none l r (constant S4000x40 .f32 0x00000000#32) = Gnn.mm l r :=
  Gnn.matmul_eq_mm dot_S4000x256_S256x40_S4000x40_1_0_0_1_n_n rfl rfl lhs0_d5 lhs1_d5 rhs0_d5 rhs1_d5 none l r

/-! ## The bodies -/

/-- The encoder body: two dense layers with a rectifier between them, then the product with the layer's weights. -/
theorem pay0_eq (x0 : FVec Ideal S4000x128 .f32) (x1 : FVec Ideal S128x256 .f32) (x2 : FVec Ideal S1x256 .f32)
    (x3 : FVec Ideal S256x64 .f32) (x4 : FVec Ideal S1x64 .f32) (x5 : FVec Ideal S64x64 .f32) :
    k0_pay1 (F := Ideal) x0 x1 x2 x3 x4 x5 = Gnn.enc x0 x1 x2 x3 x4 x5 := by
  unfold k0_pay1 Gnn.enc
  dsimp only
  rw [mm_d1, Gnn.addf_broadcastRow, Gnn.maximumf_zero, mm_d2, Gnn.addf_broadcastRow, shapeCast_self, mm_d3]
  rfl

/-- The second body: bias row, rectifier, product. -/
theorem pay1_eq (x0 : FVec Ideal S4000x64 .f32) (x1 : FVec Ideal S1x64 .f32) (x2 : FVec Ideal S64x64 .f32) :
    k1_pay1 (F := Ideal) x0 x1 x2 = Gnn.comb x0 x1 x2 := by
  unfold k1_pay1 Gnn.comb
  dsimp only
  rw [shapeCast_self x0, Gnn.addf_broadcastRow, Gnn.maximumf_zero, shapeCast_self x2, mm_d3]
  rfl

/-- The third body: the same. -/
theorem pay2_eq (x0 : FVec Ideal S4000x64 .f32) (x1 : FVec Ideal S1x64 .f32) (x2 : FVec Ideal S64x64 .f32) :
    k2_pay1 (F := Ideal) x0 x1 x2 = Gnn.comb x0 x1 x2 := by
  unfold k2_pay1 Gnn.comb
  dsimp only
  rw [shapeCast_self x0, Gnn.addf_broadcastRow, Gnn.maximumf_zero, shapeCast_self x2, mm_d3]
  rfl

/-- The decoder body: bias row and rectifier, two dense layers with a rectifier between, the log-softmax. -/
theorem pay3_eq (x0 : FVec Ideal S4000x64 .f32) (x1 : FVec Ideal S1x64 .f32) (x2 : FVec Ideal S64x256 .f32)
    (x3 : FVec Ideal S1x256 .f32) (x4 : FVec Ideal S256x40 .f32) (x5 : FVec Ideal S1x40 .f32) :
    k3_pay1 (F := Ideal) x0 x1 x2 x3 x4 x5 = Gnn.dec x0 x1 x2 x3 x4 x5 := by
  unfold k3_pay1 Gnn.dec
  dsimp only
  refine (Gnn.logSoftmax_lanes _ reduces_S4000x40_S4000 _ _ _ shapeCasts_S4000_S4000x1 broadcasts_S4000x1_S4000x40).trans ?_
  rw [shapeCast_self x0, Gnn.addf_broadcastRow, Gnn.maximumf_zero, mm_d4, Gnn.addf_broadcastRow,
    Gnn.maximumf_zero, mm_d5, Gnn.addf_broadcastRow]
  rfl

end Cert.KernelIdeal.GnnPay

end
-- ==== Proof.Blocks.lean ====
/-
  From blocks to arrays: what each of the four regions leaves in its output array.

  Every region runs its body at twenty-five grid points. At point `t` the first operand's block is rows `4000 t` to
  `4000 t + 3999` of its array, every other operand's block is its whole array, and the result's block is the same rows of
  the output array. The body computes a row-wise layer of its blocks, and a row-wise layer of chosen rows is the chosen
  rows of the layer (RowOps): so what point `t` writes back is block `t` of the layer applied to the WHOLE arrays. The
  twenty-five blocks tile the 100000 rows (row `r` lies in block `r / 4000`), hence the output array ends holding that
  layer of the arrays the region was entered with — whatever those contents `V` are.
-/
import proofs.«156270_j22093311771370_2_alg».proof.Proof.Gen.KernelIdeal.Frame
import proofs.«156270_j22093311771370_2_alg».proof.Proof.Pay

set_option maxRecDepth 16384

noncomputable section

namespace Cert.KernelIdeal.GnnBlocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Rows `4000 t … 4000 t + 3999` of a 100000-row array, for a block number `t < 25`. -/
def rowsAt (t : ℕ) (ht : t < 25) : Fin 4000 → Fin 100000 := fun p => ⟨t * 4000 + p.val, by have := p.isLt; omega⟩

/-! ## Region 0 -/

/-- The printed index maps over the grid: the row-blocked windows sit at block `t` of the rows, every other window at its one block. -/
theorem idx0 : ∀ t : Fin cfg0.N, t.val < 25
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- What the region's output array ends holding: the layer of the arrays the region is entered with. -/
def G0 (c : Dev nD) : S100000x64.Idx → EReal :=
  Gnn.enc (V c main_arg0 : S100000x128.Idx → EReal) (V c main_arg2 : S128x256.Idx → EReal) (V c main_v6 : S1x256.Idx → EReal) (V c main_arg4 : S256x64.Idx → EReal) (V c main_v7 : S1x64.Idx → EReal) (V c main_v5 : S64x64.Idx → EReal)

/-- Window 0's block at point `t` is rows `4000 t … 4000 t + 3999` of its array. -/
theorem iblk0_0 (c : Dev nD) (t : Fin cfg0.N) :
    (iblk0 V c 0 t : S4000x128.Idx → EReal) = Gnn.sel (rowsAt t.val (idx0 t).1) (V c main_arg0 : S100000x128.Idx → EReal) := by
  funext j
  obtain ⟨p, q, rfl⟩ : ∃ (p : Fin 4000) (q : Fin 128), j = ix2 p q := ⟨j 0, j 1, eq_ix2 j⟩
  obtain ⟨e0, e1, e2, e3, e4, e5, e6, e7, e8, e9, e10, e11, e12, e13, e14⟩ := idx0 t
  show V c main_arg0 (((cfg0.win 0).blk t).view.emb (ix2 p q)) = V c main_arg0 (ix2 (rowsAt t.val _ p) q)
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * q.val = q.val; omega

/-- Window 1's one block is its whole array. -/
theorem iblk0_1 (c : Dev nD) (t : Fin cfg0.N) :
    (iblk0 V c 1 t : S128x256.Idx → EReal) = (V c main_arg2 : S128x256.Idx → EReal) := by
  funext j
  obtain ⟨p, q, rfl⟩ : ∃ (p : Fin 128) (q : Fin 256), j = ix2 p q := ⟨j 0, j 1, eq_ix2 j⟩
  obtain ⟨e0, e1, e2, e3, e4, e5, e6, e7, e8, e9, e10, e11, e12, e13, e14⟩ := idx0 t
  show V c main_arg2 (((cfg0.win 1).blk t).view.emb (ix2 p q)) = V c main_arg2 (ix2 p q)
  refine congrArg _ (funext fun a => Fin.ext ?_)
  match a with
  | ⟨0, _⟩ => show win0_1.index t (0 : Fin 2) * 128 + 1 * p.val = p.val; omega
  | ⟨1, _⟩ => show win0_1.index t (1 : Fin 2) * 256 + 1 * q.val = q.val; omega

/-- Window 2's one block is its whole array. -/
theorem iblk0_2 (c : Dev nD) (t : Fin cfg0.N) :
    (iblk0 V c 2 t : S1x256.Idx → EReal) = (V c main_v6 : S1x256.Idx → EReal) := by
  funext j
  obtain ⟨p, q, rfl⟩ : ∃ (p : Fin 1) (q : Fin 256), j = ix2 p q := ⟨j 0, j 1, eq_ix2 j⟩
  obtain ⟨e0, e1, e2, e3, e4, e5, e6, e7, e8, e9, e10, e11, e12, e13, e14⟩ := idx0 t
  show V c main_v6 (((cfg0.win 2).blk t).view.emb (ix2 p q)) = V c main_v6 (ix2 p q)
  refine congrArg _ (funext fun a => Fin.ext ?_)
  match a with
  | ⟨0, _⟩ => show win0_2.index t (0 : Fin 2) * 1 + 1 * p.val = p.val; omega
  | ⟨1, _⟩ => show win0_2.index t (1 : Fin 2) * 256 + 1 * q.val = q.val; omega

/-- Window 3's one block is its whole array. -/
theorem iblk0_3 (c : Dev nD) (t : Fin cfg0.N) :
    (iblk0 V c 3 t : S256x64.Idx → EReal) = (V c main_arg4 : S256x64.Idx → EReal) := by
  funext j
  obtain ⟨p, q, rfl⟩ : ∃ (p : Fin 256) (q : Fin 64), j = ix2 p q := ⟨j 0, j 1, eq_ix2 j⟩
  obtain ⟨e0, e1, e2, e3, e4, e5, e6, e7, e8, e9, e10, e11, e12, e13, e14⟩ := idx0 t
  show V c main_arg4 (((cfg0.win 3).blk t).view.emb (ix2 p q)) = V c main_arg4 (ix2 p q)
  refine congrArg _ (funext fun a => Fin.ext ?_)
  match a with
  | ⟨0, _⟩ => show win0_3.index t (0 : Fin 2) * 256 + 1 * p.val = p.val; omega
  | ⟨1, _⟩ => show win0_3.index t (1 : Fin 2) * 64 + 1 * q.val = q.val; omega

/-- Window 4's one block is its whole array. -/
theorem iblk0_4 (c : Dev nD) (t : Fin cfg0.N) :
    (iblk0 V c 4 t : S1x64.Idx → EReal) = (V c main_v7 : S1x64.Idx → EReal) := by
  funext j
  obtain ⟨p, q, rfl⟩ : ∃ (p : Fin 1) (q : Fin 64), j = ix2 p q := ⟨j 0, j 1, eq_ix2 j⟩
  obtain ⟨e0, e1, e2, e3, e4, e5, e6, e7, e8, e9, e10, e11, e12, e13, e14⟩ := idx0 t
  show V c main_v7 (((cfg0.win 4).blk t).view.emb (ix2 p q)) = V c main_v7 (ix2 p q)
  refine congrArg _ (funext fun a => Fin.ext ?_)
  match a with
  | ⟨0, _⟩ => show win0_4.index t (0 : Fin 2) * 1 + 1 * p.val = p.val; omega
  | ⟨1, _⟩ => show win0_4.index t (1 : Fin 2) * 64 + 1 * q.val = q.val; omega

/-- Window 5's one block is its whole array. -/
theorem iblk0_5 (c : Dev nD) (t : Fin cfg0.N) :
    (iblk0 V c 5 t : S64x64.Idx → EReal) = (V c main_v5 : S64x64.Idx → EReal) := by
  funext j
  obtain ⟨p, q, rfl⟩ : ∃ (p : Fin 64) (q : Fin 64), j = ix2 p q := ⟨j 0, j 1, eq_ix2 j⟩
  obtain ⟨e0, e1, e2, e3, e4, e5, e6, e7, e8, e9, e10, e11, e12, e13, e14⟩ := idx0 t
  show V c main_v5 (((cfg0.win 5).blk t).view.emb (ix2 p q)) = V c main_v5 (ix2 p q)
  refine congrArg _ (funext fun a => Fin.ext ?_)
  match a with
  | ⟨0, _⟩ => show win0_5.index t (0 : Fin 2) * 64 + 1 * p.val = p.val; omega
  | ⟨1, _⟩ => show win0_5.index t (1 : Fin 2) * 64 + 1 * q.val = q.val; omega

/-- What point `t` writes back is block `t` of `G0`: the body's layer of rows `4000 t …` of the first window's array is
    those rows of the layer of the whole array. -/
theorem flushed0 (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x256) hz, View.ld_unit_zero (S := S1x256) hz, View.ld_unit_zero (S := S256x64) hz, View.ld_unit_zero (S := S1x64) hz, View.ld_unit_zero (S := S64x64) hz]
  obtain ⟨e0, e1, e2, e3, e4, e5, e6, e7, e8, e9, e10, e11, e12, e13, e14⟩ := idx0 t
  funext j
  show k0_pay1 (F := Ideal) (iblk0 V c 0 t) (iblk0 V c 1 t) (iblk0 V c 2 t) (iblk0 V c 3 t) (iblk0 V c 4 t) (iblk0 V c 5 t) j = G0 V c (((cfg0.win 6).blk t).view.emb j)
  refine (congrFun (GnnPay.pay0_eq _ _ _ _ _ _) j).trans ?_
  rw [iblk0_0, iblk0_1, iblk0_2, iblk0_3, iblk0_4, iblk0_5, Gnn.enc_sel]
  show G0 V c (ix2 (rowsAt t.val _ (j 0)) (j 1)) = _
  refine congrArg _ (funext fun a => Fin.ext ?_)
  match a with
  | ⟨0, _⟩ => show t.val * 4000 + (j 0).val = win0_6.index t (0 : Fin 2) * 4000 + 1 * (j 0).val; omega
  | ⟨1, _⟩ => show (j 1).val = win0_6.index t (1 : Fin 2) * 64 + 1 * (j 1).val; omega

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v8).slice (win0_6.rect t)).set ↔ _
  rw [View.set_slice_whole, Rect.mem_set_unit]
  exact Iff.rfl

/-- The twenty-five blocks tile the rows: row `r` lies in the block of point `r / 4000`. -/
theorem cover0 (i : S100000x64.Idx) : ∃ t : Fin cfg0.N, (cfg0.win 6).flush t = true ∧ i ∈ ((cfg0.win 6).blk t).view.set := by
  have h0 : (i 0).val < 100000 := (i 0).isLt
  have h1 : (i 1).val < 64 := (i 1).isLt
  let t : Fin cfg0.N := ⟨(i 0).val / 4000, by show (i 0).val / 4000 < grid0.N; rw [N_0]; omega⟩
  have ht : t.val = (i 0).val / 4000 := rfl
  obtain ⟨e0, e1, e2, e3, e4, e5, e6, e7, e8, e9, e10, e11, e12, e13, e14⟩ := idx0 t
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 64 ≤ (i 1).val ∧ (i 1).val < win0_6.index t (1 : Fin 2) * 64 + 64; omega

/-- The region's output array after the region. -/
theorem final0 (c : Dev nD) : (dat0 (F := Ideal) V c).arrAt 6 cfg0.N = G0 V c :=
  (dat0 (F := Ideal) V c).arrAt_eq_of_cover 6 (G0 V c) (fun t _ => flushed0 V c t) (cover0)

/-! ## Region 1 -/

/-- The printed index maps over the grid: the row-blocked windows sit at block `t` of the rows, every other window at its one block. -/
theorem idx1 : ∀ t : Fin cfg1.N, t.val < 25
    ∧ win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What the region's output array ends holding: the layer of the arrays the region is entered with. -/
def G1 (c : Dev nD) : S100000x64.Idx → EReal :=
  Gnn.comb (V c main_v19 : S100000x64.Idx → EReal) (V c main_v24 : S1x64.Idx → EReal) (V c main_v23 : S64x64.Idx → EReal)

/-- Window 0's block at point `t` is rows `4000 t … 4000 t + 3999` of its array. -/
theorem iblk1_0 (c : Dev nD) (t : Fin cfg1.N) :
    (iblk1 V c 0 t : S4000x64.Idx → EReal) = Gnn.sel (rowsAt t.val (idx1 t).1) (V c main_v19 : S100000x64.Idx → EReal) := by
  funext j
  obtain ⟨p, q, rfl⟩ : ∃ (p : Fin 4000) (q : Fin 64), j = ix2 p q := ⟨j 0, j 1, eq_ix2 j⟩
  obtain ⟨e0, e1, e2, e3, e4, e5, e6, e7, e8⟩ := idx1 t
  show V c main_v19 (((cfg1.win 0).blk t).view.emb (ix2 p q)) = V c main_v19 (ix2 (rowsAt t.val _ p) q)
  refine congrArg _ (funext fun a => Fin.ext ?_)
  match a with
  | ⟨0, _⟩ => show win1_0.index t (0 : Fin 2) * 4000 + 1 * p.val = t.val * 4000 + p.val; omega
  | ⟨1, _⟩ => show win1_0.index t (1 : Fin 2) * 64 + 1 * q.val = q.val; omega

/-- Window 1's one block is its whole array. -/
theorem iblk1_1 (c : Dev nD) (t : Fin cfg1.N) :
    (iblk1 V c 1 t : S1x64.Idx → EReal) = (V c main_v24 : S1x64.Idx → EReal) := by
  funext j
  obtain ⟨p, q, rfl⟩ : ∃ (p : Fin 1) (q : Fin 64), j = ix2 p q := ⟨j 0, j 1, eq_ix2 j⟩
  obtain ⟨e0, e1, e2, e3, e4, e5, e6, e7, e8⟩ := idx1 t
  show V c main_v24 (((cfg1.win 1).blk t).view.emb (ix2 p q)) = V c main_v24 (ix2 p q)
  refine congrArg _ (funext fun a => Fin.ext ?_)
  match a with
  | ⟨0, _⟩ => show win1_1.index t (0 : Fin 2) * 1 + 1 * p.val = p.val; omega
  | ⟨1, _⟩ => show win1_1.index t (1 : Fin 2) * 64 + 1 * q.val = q.val; omega

/-- Window 2's one block is its whole array. -/
theorem iblk1_2 (c : Dev nD) (t : Fin cfg1.N) :
    (iblk1 V c 2 t : S64x64.Idx → EReal) = (V c main_v23 : S64x64.Idx → EReal) := by
  funext j
  obtain ⟨p, q, rfl⟩ : ∃ (p : Fin 64) (q : Fin 64), j = ix2 p q := ⟨j 0, j 1, eq_ix2 j⟩
  obtain ⟨e0, e1, e2, e3, e4, e5, e6, e7, e8⟩ := idx1 t
  show V c main_v23 (((cfg1.win 2).blk t).view.emb (ix2 p q)) = V c main_v23 (ix2 p q)
  refine congrArg _ (funext fun a => Fin.ext ?_)
  match a with
  | ⟨0, _⟩ => show win1_2.index t (0 : Fin 2) * 64 + 1 * p.val = p.val; omega
  | ⟨1, _⟩ => show win1_2.index t (1 : Fin 2) * 64 + 1 * q.val = q.val; omega

/-- What point `t` writes back is block `t` of `G1`: the body's layer of rows `4000 t …` of the first window's array is
    those rows of the layer of the whole array. -/
theorem flushed1 (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S4000x64) hz, View.ld_unit_zero (S := S1x64) hz, View.ld_unit_zero (S := S64x64) hz]
  obtain ⟨e0, e1, e2, e3, e4, e5, e6, e7, e8⟩ := idx1 t
  funext j
  show k1_pay1 (F := Ideal) (iblk1 V c 0 t) (iblk1 V c 1 t) (iblk1 V c 2 t) j = G1 V c (((cfg1.win 3).blk t).view.emb j)
  refine (congrFun (GnnPay.pay1_eq _ _ _) j).trans ?_
  rw [iblk1_0, iblk1_1, iblk1_2, Gnn.comb_sel]
  show G1 V c (ix2 (rowsAt t.val _ (j 0)) (j 1)) = _
  refine congrArg _ (funext fun a => Fin.ext ?_)
  match a with
  | ⟨0, _⟩ => show t.val * 4000 + (j 0).val = win1_3.index t (0 : Fin 2) * 4000 + 1 * (j 0).val; omega
  | ⟨1, _⟩ => show (j 1).val = win1_3.index t (1 : Fin 2) * 64 + 1 * (j 1).val; omega

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v25).slice (win1_3.rect t)).set ↔ _
  rw [View.set_slice_whole, Rect.mem_set_unit]
  exact Iff.rfl

/-- The twenty-five blocks tile the rows: row `r` lies in the block of point `r / 4000`. -/
theorem cover1 (i : S100000x64.Idx) : ∃ t : Fin cfg1.N, (cfg1.win 3).flush t = true ∧ i ∈ ((cfg1.win 3).blk t).view.set := by
  have h0 : (i 0).val < 100000 := (i 0).isLt
  have h1 : (i 1).val < 64 := (i 1).isLt
  let t : Fin cfg1.N := ⟨(i 0).val / 4000, by show (i 0).val / 4000 < grid1.N; rw [N_1]; omega⟩
  have ht : t.val = (i 0).val / 4000 := rfl
  obtain ⟨e0, e1, e2, e3, e4, e5, e6, e7, e8⟩ := idx1 t
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega

/-- The region's output array after the region. -/
theorem final1 (c : Dev nD) : (dat1 (F := Ideal) V c).arrAt 3 cfg1.N = G1 V c :=
  (dat1 (F := Ideal) V c).arrAt_eq_of_cover 3 (G1 V c) (fun t _ => flushed1 V c t) (cover1)

/-! ## Region 2 -/

/-- The printed index maps over the grid: the row-blocked windows sit at block `t` of the rows, every other window at its one block. -/
theorem idx2 : ∀ t : Fin cfg2.N, t.val < 25
    ∧ win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What the region's output array ends holding: the layer of the arrays the region is entered with. -/
def G2 (c : Dev nD) : S100000x64.Idx → EReal :=
  Gnn.comb (V c main_v36 : S100000x64.Idx → EReal) (V c main_v41 : S1x64.Idx → EReal) (V c main_v40 : S64x64.Idx → EReal)

/-- Window 0's block at point `t` is rows `4000 t … 4000 t + 3999` of its array. -/
theorem iblk2_0 (c : Dev nD) (t : Fin cfg2.N) :
    (iblk2 V c 0 t : S4000x64.Idx → EReal) = Gnn.sel (rowsAt t.val (idx2 t).1) (V c main_v36 : S100000x64.Idx → EReal) := by
  funext j
  obtain ⟨p, q, rfl⟩ : ∃ (p : Fin 4000) (q : Fin 64), j = ix2 p q := ⟨j 0, j 1, eq_ix2 j⟩
  obtain ⟨e0, e1, e2, e3, e4, e5, e6, e7, e8⟩ := idx2 t
  show V c main_v36 (((cfg2.win 0).blk t).view.emb (ix2 p q)) = V c main_v36 (ix2 (rowsAt t.val _ p) q)
  refine congrArg _ (funext fun a => Fin.ext ?_)
  match a with
  | ⟨0, _⟩ => show win2_0.index t (0 : Fin 2) * 4000 + 1 * p.val = t.val * 4000 + p.val; omega
  | ⟨1, _⟩ => show win2_0.index t (1 : Fin 2) * 64 + 1 * q.val = q.val; omega

/-- Window 1's one block is its whole array. -/
theorem iblk2_1 (c : Dev nD) (t : Fin cfg2.N) :
    (iblk2 V c 1 t : S1x64.Idx → EReal) = (V c main_v41 : S1x64.Idx → EReal) := by
  funext j
  obtain ⟨p, q, rfl⟩ : ∃ (p : Fin 1) (q : Fin 64), j = ix2 p q := ⟨j 0, j 1, eq_ix2 j⟩
  obtain ⟨e0, e1, e2, e3, e4, e5, e6, e7, e8⟩ := idx2 t
  show V c main_v41 (((cfg2.win 1).blk t).view.emb (ix2 p q)) = V c main_v41 (ix2 p q)
  refine congrArg _ (funext fun a => Fin.ext ?_)
  match a with
  | ⟨0, _⟩ => show win2_1.index t (0 : Fin 2) * 1 + 1 * p.val = p.val; omega
  | ⟨1, _⟩ => show win2_1.index t (1 : Fin 2) * 64 + 1 * q.val = q.val; omega

/-- Window 2's one block is its whole array. -/
theorem iblk2_2 (c : Dev nD) (t : Fin cfg2.N) :
    (iblk2 V c 2 t : S64x64.Idx → EReal) = (V c main_v40 : S64x64.Idx → EReal) := by
  funext j
  obtain ⟨p, q, rfl⟩ : ∃ (p : Fin 64) (q : Fin 64), j = ix2 p q := ⟨j 0, j 1, eq_ix2 j⟩
  obtain ⟨e0, e1, e2, e3, e4, e5, e6, e7, e8⟩ := idx2 t
  show V c main_v40 (((cfg2.win 2).blk t).view.emb (ix2 p q)) = V c main_v40 (ix2 p q)
  refine congrArg _ (funext fun a => Fin.ext ?_)
  match a with
  | ⟨0, _⟩ => show win2_2.index t (0 : Fin 2) * 64 + 1 * p.val = p.val; omega
  | ⟨1, _⟩ => show win2_2.index t (1 : Fin 2) * 64 + 1 * q.val = q.val; omega

/-- What point `t` writes back is block `t` of `G2`: the body's layer of rows `4000 t …` of the first window's array is
    those rows of the layer of the whole array. -/
theorem flushed2 (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S4000x64) hz, View.ld_unit_zero (S := S1x64) hz, View.ld_unit_zero (S := S64x64) hz]
  obtain ⟨e0, e1, e2, e3, e4, e5, e6, e7, e8⟩ := idx2 t
  funext j
  show k2_pay1 (F := Ideal) (iblk2 V c 0 t) (iblk2 V c 1 t) (iblk2 V c 2 t) j = G2 V c (((cfg2.win 3).blk t).view.emb j)
  refine (congrFun (GnnPay.pay2_eq _ _ _) j).trans ?_
  rw [iblk2_0, iblk2_1, iblk2_2, Gnn.comb_sel]
  show G2 V c (ix2 (rowsAt t.val _ (j 0)) (j 1)) = _
  refine congrArg _ (funext fun a => Fin.ext ?_)
  match a with
  | ⟨0, _⟩ => show t.val * 4000 + (j 0).val = win2_3.index t (0 : Fin 2) * 4000 + 1 * (j 0).val; omega
  | ⟨1, _⟩ => show (j 1).val = win2_3.index t (1 : Fin 2) * 64 + 1 * (j 1).val; omega

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v42).slice (win2_3.rect t)).set ↔ _
  rw [View.set_slice_whole, Rect.mem_set_unit]
  exact Iff.rfl

/-- The twenty-five blocks tile the rows: row `r` lies in the block of point `r / 4000`. -/
theorem cover2 (i : S100000x64.Idx) : ∃ t : Fin cfg2.N, (cfg2.win 3).flush t = true ∧ i ∈ ((cfg2.win 3).blk t).view.set := by
  have h0 : (i 0).val < 100000 := (i 0).isLt
  have h1 : (i 1).val < 64 := (i 1).isLt
  let t : Fin cfg2.N := ⟨(i 0).val / 4000, by show (i 0).val / 4000 < grid2.N; rw [N_2]; omega⟩
  have ht : t.val = (i 0).val / 4000 := rfl
  obtain ⟨e0, e1, e2, e3, e4, e5, e6, e7, e8⟩ := idx2 t
  refine ⟨t, flush2_3 t, ?_⟩
  rw [mem_blk2]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 64 ≤ (i 1).val ∧ (i 1).val < win2_3.index t (1 : Fin 2) * 64 + 64; omega

/-- The region's output array after the region. -/
theorem final2 (c : Dev nD) : (dat2 (F := Ideal) V c).arrAt 3 cfg2.N = G2 V c :=
  (dat2 (F := Ideal) V c).arrAt_eq_of_cover 3 (G2 V c) (fun t _ => flushed2 V c t) (cover2)

/-! ## Region 3 -/

/-- The printed index maps over the grid: the row-blocked windows sit at block `t` of the rows, every other window at its one block. -/
theorem idx3 : ∀ t : Fin cfg3.N, t.val < 25
    ∧ win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- What the region's output array ends holding: the layer of the arrays the region is entered with. -/
def G3 (c : Dev nD) : S100000x40.Idx → EReal :=
  Gnn.dec (V c main_v53 : S100000x64.Idx → EReal) (V c main_v56 : S1x64.Idx → EReal) (V c main_arg8 : S64x256.Idx → EReal) (V c main_v57 : S1x256.Idx → EReal) (V c main_arg10 : S256x40.Idx → EReal) (V c main_v58 : S1x40.Idx → EReal)

/-- Window 0's block at point `t` is rows `4000 t … 4000 t + 3999` of its array. -/
theorem iblk3_0 (c : Dev nD) (t : Fin cfg3.N) :
    (iblk3 V c 0 t : S4000x64.Idx → EReal) = Gnn.sel (rowsAt t.val (idx3 t).1) (V c main_v53 : S100000x64.Idx → EReal) := by
  funext j
  obtain ⟨p, q, rfl⟩ : ∃ (p : Fin 4000) (q : Fin 64), j = ix2 p q := ⟨j 0, j 1, eq_ix2 j⟩
  obtain ⟨e0, e1, e2, e3, e4, e5, e6, e7, e8, e9, e10, e11, e12, e13, e14⟩ := idx3 t
  show V c main_v53 (((cfg3.win 0).blk t).view.emb (ix2 p q)) = V c main_v53 (ix2 (rowsAt t.val _ p) q)
  refine congrArg _ (funext fun a => Fin.ext ?_)
  match a with
  | ⟨0, _⟩ => show win3_0.index t (0 : Fin 2) * 4000 + 1 * p.val = t.val * 4000 + p.val; omega
  | ⟨1, _⟩ => show win3_0.index t (1 : Fin 2) * 64 + 1 * q.val = q.val; omega

/-- Window 1's one block is its whole array. -/
theorem iblk3_1 (c : Dev nD) (t : Fin cfg3.N) :
    (iblk3 V c 1 t : S1x64.Idx → EReal) = (V c main_v56 : S1x64.Idx → EReal) := by
  funext j
  obtain ⟨p, q, rfl⟩ : ∃ (p : Fin 1) (q : Fin 64), j = ix2 p q := ⟨j 0, j 1, eq_ix2 j⟩
  obtain ⟨e0, e1, e2, e3, e4, e5, e6, e7, e8, e9, e10, e11, e12, e13, e14⟩ := idx3 t
  show V c main_v56 (((cfg3.win 1).blk t).view.emb (ix2 p q)) = V c main_v56 (ix2 p q)
  refine congrArg _ (funext fun a => Fin.ext ?_)
  match a with
  | ⟨0, _⟩ => show win3_1.index t (0 : Fin 2) * 1 + 1 * p.val = p.val; omega
  | ⟨1, _⟩ => show win3_1.index t (1 : Fin 2) * 64 + 1 * q.val = q.val; omega

/-- Window 2's one block is its whole array. -/
theorem iblk3_2 (c : Dev nD) (t : Fin cfg3.N) :
    (iblk3 V c 2 t : S64x256.Idx → EReal) = (V c main_arg8 : S64x256.Idx → EReal) := by
  funext j
  obtain ⟨p, q, rfl⟩ : ∃ (p : Fin 64) (q : Fin 256), j = ix2 p q := ⟨j 0, j 1, eq_ix2 j⟩
  obtain ⟨e0, e1, e2, e3, e4, e5, e6, e7, e8, e9, e10, e11, e12, e13, e14⟩ := idx3 t
  show V c main_arg8 (((cfg3.win 2).blk t).view.emb (ix2 p q)) = V c main_arg8 (ix2 p q)
  refine congrArg _ (funext fun a => Fin.ext ?_)
  match a with
  | ⟨0, _⟩ => show win3_2.index t (0 : Fin 2) * 64 + 1 * p.val = p.val; omega
  | ⟨1, _⟩ => show win3_2.index t (1 : Fin 2) * 256 + 1 * q.val = q.val; omega

/-- Window 3's one block is its whole array. -/
theorem iblk3_3 (c : Dev nD) (t : Fin cfg3.N) :
    (iblk3 V c 3 t : S1x256.Idx → EReal) = (V c main_v57 : S1x256.Idx → EReal) := by
  funext j
  obtain ⟨p, q, rfl⟩ : ∃ (p : Fin 1) (q : Fin 256), j = ix2 p q := ⟨j 0, j 1, eq_ix2 j⟩
  obtain ⟨e0, e1, e2, e3, e4, e5, e6, e7, e8, e9, e10, e11, e12, e13, e14⟩ := idx3 t
  show V c main_v57 (((cfg3.win 3).blk t).view.emb (ix2 p q)) = V c main_v57 (ix2 p q)
  refine congrArg _ (funext fun a => Fin.ext ?_)
  match a with
  | ⟨0, _⟩ => show win3_3.index t (0 : Fin 2) * 1 + 1 * p.val = p.val; omega
  | ⟨1, _⟩ => show win3_3.index t (1 : Fin 2) * 256 + 1 * q.val = q.val; omega

/-- Window 4's one block is its whole array. -/
theorem iblk3_4 (c : Dev nD) (t : Fin cfg3.N) :
    (iblk3 V c 4 t : S256x40.Idx → EReal) = (V c main_arg10 : S256x40.Idx → EReal) := by
  funext j
  obtain ⟨p, q, rfl⟩ : ∃ (p : Fin 256) (q : Fin 40), j = ix2 p q := ⟨j 0, j 1, eq_ix2 j⟩
  obtain ⟨e0, e1, e2, e3, e4, e5, e6, e7, e8, e9, e10, e11, e12, e13, e14⟩ := idx3 t
  show V c main_arg10 (((cfg3.win 4).blk t).view.emb (ix2 p q)) = V c main_arg10 (ix2 p q)
  refine congrArg _ (funext fun a => Fin.ext ?_)
  match a with
  | ⟨0, _⟩ => show win3_4.index t (0 : Fin 2) * 256 + 1 * p.val = p.val; omega
  | ⟨1, _⟩ => show win3_4.index t (1 : Fin 2) * 40 + 1 * q.val = q.val; omega

/-- Window 5's one block is its whole array. -/
theorem iblk3_5 (c : Dev nD) (t : Fin cfg3.N) :
    (iblk3 V c 5 t : S1x40.Idx → EReal) = (V c main_v58 : S1x40.Idx → EReal) := by
  funext j
  obtain ⟨p, q, rfl⟩ : ∃ (p : Fin 1) (q : Fin 40), j = ix2 p q := ⟨j 0, j 1, eq_ix2 j⟩
  obtain ⟨e0, e1, e2, e3, e4, e5, e6, e7, e8, e9, e10, e11, e12, e13, e14⟩ := idx3 t
  show V c main_v58 (((cfg3.win 5).blk t).view.emb (ix2 p q)) = V c main_v58 (ix2 p q)
  refine congrArg _ (funext fun a => Fin.ext ?_)
  match a with
  | ⟨0, _⟩ => show win3_5.index t (0 : Fin 2) * 1 + 1 * p.val = p.val; omega
  | ⟨1, _⟩ => show win3_5.index t (1 : Fin 2) * 40 + 1 * q.val = q.val; omega

/-- What point `t` writes back is block `t` of `G3`: the body's layer of rows `4000 t …` of the first window's array is
    those rows of the layer of the whole array. -/
theorem flushed3 (c : Dev nD) (t : Fin cfg3.N) :
    (dat3 (F := Ideal) V c).flushed 6 t = ((cfg3.win 6).blk t).view.read (Elt Ideal) (G3 V c) := by
  show (cfg3.win 6).cut (grid3.coords t) ((dat3 V c).after 6 t) = _
  rw [after3_6]
  unfold out3_6
  rw [View.canon_unit_zero hz]
  simp only [View.ld_unit_zero (S := S4000x64) hz, View.ld_unit_zero (S := S1x64) hz, View.ld_unit_zero (S := S64x256) hz, View.ld_unit_zero (S := S1x256) hz, View.ld_unit_zero (S := S256x40) hz, View.ld_unit_zero (S := S1x40) hz]
  obtain ⟨e0, e1, e2, e3, e4, e5, e6, e7, e8, e9, e10, e11, e12, e13, e14⟩ := idx3 t
  funext j
  show k3_pay1 (F := Ideal) (iblk3 V c 0 t) (iblk3 V c 1 t) (iblk3 V c 2 t) (iblk3 V c 3 t) (iblk3 V c 4 t) (iblk3 V c 5 t) j = G3 V c (((cfg3.win 6).blk t).view.emb j)
  refine (congrFun (GnnPay.pay3_eq _ _ _ _ _ _) j).trans ?_
  rw [iblk3_0, iblk3_1, iblk3_2, iblk3_3, iblk3_4, iblk3_5, Gnn.dec_sel]
  show G3 V c (ix2 (rowsAt t.val _ (j 0)) (j 1)) = _
  refine congrArg _ (funext fun a => Fin.ext ?_)
  match a with
  | ⟨0, _⟩ => show t.val * 4000 + (j 0).val = win3_6.index t (0 : Fin 2) * 4000 + 1 * (j 0).val; omega
  | ⟨1, _⟩ => show (j 1).val = win3_6.index t (1 : Fin 2) * 40 + 1 * (j 1).val; omega

/-- An index of the output array is in point `t`'s block iff each coordinate is in the block's range on its axis. -/
theorem mem_blk3 (t : Fin cfg3.N) (i : S100000x40.Idx) :
    i ∈ ((cfg3.win 6).blk t).view.set ↔ ∀ a : Fin 2, win3_6.index t a * S4000x40.size a ≤ (i a).val ∧ (i a).val < win3_6.index t a * S4000x40.size a + S4000x40.size a := by
  show i ∈ ((View.whole main_v59).slice (win3_6.rect t)).set ↔ _
  rw [View.set_slice_whole, Rect.mem_set_unit]
  exact Iff.rfl

/-- The twenty-five blocks tile the rows: row `r` lies in the block of point `r / 4000`. -/
theorem cover3 (i : S100000x40.Idx) : ∃ t : Fin cfg3.N, (cfg3.win 6).flush t = true ∧ i ∈ ((cfg3.win 6).blk t).view.set := by
  have h0 : (i 0).val < 100000 := (i 0).isLt
  have h1 : (i 1).val < 40 := (i 1).isLt
  let t : Fin cfg3.N := ⟨(i 0).val / 4000, by show (i 0).val / 4000 < grid3.N; rw [N_3]; omega⟩
  have ht : t.val = (i 0).val / 4000 := rfl
  obtain ⟨e0, e1, e2, e3, e4, e5, e6, e7, e8, e9, e10, e11, e12, e13, e14⟩ := idx3 t
  refine ⟨t, flush3_6 t, ?_⟩
  rw [mem_blk3]
  intro a
  match a with
  | ⟨0, _⟩ => show win3_6.index t (0 : Fin 2) * 4000 ≤ (i 0).val ∧ (i 0).val < win3_6.index t (0 : Fin 2) * 4000 + 4000; omega
  | ⟨1, _⟩ => show win3_6.index t (1 : Fin 2) * 40 ≤ (i 1).val ∧ (i 1).val < win3_6.index t (1 : Fin 2) * 40 + 40; omega

/-- The region's output array after the region. -/
theorem final3 (c : Dev nD) : (dat3 (F := Ideal) V c).arrAt 6 cfg3.N = G3 V c :=
  (dat3 (F := Ideal) V c).arrAt_eq_of_cover 6 (G3 V c) (fun t _ => flushed3 V c t) (cover3)

end Cert.KernelIdeal.GnnBlocks

end
-- ==== Proof.LibBcastRowCol.lean ====
/-
  Rows and columns repeated by `broadcast_in_dim`, read at an entry.

  The host lays a vector down as one row (`dims = [1]`) or stands it up as one column (`dims = [0]`) and then repeats the
  row down the rows or the column along the lanes (`dims = [0, 1]`). Read at (p, q):
  * `vecRow_apply`     an [n] vector as a [1, n] row reads, at (0, k), the vector at k;
  * `vecRows_apply`    that row repeated to [m, n] reads, at (p, k), the vector at k;
  * `vecCol_apply`     an [m] vector as an [m, 1] column reads, at (p, 0), the vector at p;
  * `colSpread_apply`  an [m, 1] column repeated to [m, n] reads, at (p, q), the column at (p, 0).
  Companions of the library's `broadcastInDim_oneRow_apply` (a [1, n] row repeated to [m, n]).
-/
import Idealize.ShloMosaic.Lib.Pipeline.Value
import Idealize.ShloMosaic.Lib.ValueIdx
import Idealize.ShloMosaic.Lib.KernelVsHost

namespace Cert.LibBcastRowCol

open Idealize.ShloMosaic Idealize.ShloMosaic.ValueIdx

variable {α : Type}

/-- A vector laid down as one row reads, at (0, k), the vector at k. -/
theorem vecRow_apply {n : ℕ} (h : (⟨1, ![n]⟩ : Shape).BroadcastsInDim ⟨2, ![1, n]⟩ ![1])
    (b : (⟨1, ![n]⟩ : Shape).Idx → α) (k : Fin n) : broadcastInDim ⟨2, ![1, n]⟩ ![1] h b (ix2 (0 : Fin 1) k) = b (ix1 k) := by
  refine broadcastInDim_apply ![1] h b (ix2 (0 : Fin 1) k) (ix1 k) ?_
  intro a
  fin_cases a
  show k.val = if n = 1 then 0 else k.val
  split_ifs with hn
  · have := k.isLt; omega
  · rfl

/-- A vector repeated down the rows reads, at (p, k), the vector at k. -/
theorem vecRows_apply {m n : ℕ} (h : (⟨1, ![n]⟩ : Shape).BroadcastsInDim ⟨2, ![1, n]⟩ ![1])
    (h' : (⟨2, ![1, n]⟩ : Shape).BroadcastsInDim ⟨2, ![m, n]⟩ ![0, 1]) (b : (⟨1, ![n]⟩ : Shape).Idx → α) (p : Fin m) (k : Fin n) :
    broadcastInDim ⟨2, ![m, n]⟩ ![0, 1] h' (broadcastInDim ⟨2, ![1, n]⟩ ![1] h b) (ix2 p k) = b (ix1 k) := by
  rw [broadcastInDim_oneRow_apply, vecRow_apply]

/-- A per-row value stood up as a column reads, at (p, 0), the value of row p. -/
theorem vecCol_apply {m : ℕ} (h : (⟨1, ![m]⟩ : Shape).BroadcastsInDim ⟨2, ![m, 1]⟩ ![0])
    (u : (⟨1, ![m]⟩ : Shape).Idx → α) (p : Fin m) : broadcastInDim ⟨2, ![m, 1]⟩ ![0] h u (ix2 p (0 : Fin 1)) = u (ix1 p) := by
  refine broadcastInDim_apply ![0] h u (ix2 p (0 : Fin 1)) (ix1 p) ?_
  intro a
  fin_cases a
  show p.val = if m = 1 then 0 else p.val
  split_ifs with hm
  · have := p.isLt; omega
  · rfl

/-- A column repeated along the rows reads, at (p, q), the column at row p. -/
theorem colSpread_apply {m n : ℕ} (h : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] h v (ix2 p q) = v (ix2 p (0 : Fin 1)) := by
  refine broadcastInDim_apply ![0, 1] h v (ix2 p q) (ix2 p (0 : Fin 1)) ?_
  intro a
  fin_cases a
  · show p.val = if m = 1 then 0 else p.val
    split_ifs with hm
    · have := p.isLt; omega
    · rfl
  · show (0 : ℕ) = if (1 : ℕ) = 1 then 0 else _
    simp

end Cert.LibBcastRowCol
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.HostOps.lean ====
/-
  The host's spellings, read at the ideal instance as the row-wise layers of RowOps.

  The host adds a bias by laying the bias vector down as one row and repeating the row down the rows; it rectifies
  against a scalar zero splat over the matrix; and it spells the log-softmax with reductions along the classes: the
  row maxima (a reduce with the maximum from −∞, once more bounded below by a splat of −∞, which changes nothing),
  stood up as a column and repeated along the classes, subtracted; the exponentials summed along the classes from zero;
  the logarithm of the sums, stood up and repeated, subtracted. Entry by entry these are `addRow` of the bias as a
  one-row matrix (`rowOf`), `relu` and `logSoftmax`. A vector reshaped to one row is `rowOf` of it as well.
-/
import proofs.«156270_j22093311771370_2_alg».proof.Proof.KernelOps
import proofs.«156270_j22093311771370_2_alg».proof.Proof.LibBcastRowCol
import proofs.«156270_j22093311771370_2_alg».proof.Proof.LibHostRead
import Idealize.ShloMosaic.Lib.IdealHost

noncomputable section

open scoped BigOperators

namespace Cert.Gnn

open Idealize.ShloMosaic Idealize.ShloMosaic.ValueIdx Idealize.ShloMosaic.HostRead

variable {a n b : ℕ}

/-- A vector as a one-row matrix. -/
def rowOf (v : (⟨1, ![n]⟩ : Shape).Idx → EReal) : Mat 1 n := ofFn fun _ q => v (ix1 q)

/-- A vector reshaped to one row. -/
theorem shapeCast_row (v : FVec Ideal ⟨1, ![n]⟩ .f32) (h : (⟨1, ![n]⟩ : Shape).ShapeCasts ⟨2, ![1, n]⟩) :
    shapeCast ⟨2, ![1, n]⟩ v h = rowOf v := by
  funext i
  obtain ⟨u, k, rfl⟩ : ∃ (u : Fin 1) (k : Fin n), i = ix2 u k := ⟨i 0, i 1, eq_ix2 i⟩
  rw [shapeCast_a_1a_apply]
  rfl

/-- A vector laid down as one row by the host. -/
theorem bid_row (v : FVec Ideal ⟨1, ![n]⟩ .f32) (h : (⟨1, ![n]⟩ : Shape).BroadcastsInDim ⟨2, ![1, n]⟩ ![1]) :
    broadcastInDim ⟨2, ![1, n]⟩ ![1] h v = rowOf v := by
  funext i
  obtain ⟨u, k, rfl⟩ : ∃ (u : Fin 1) (k : Fin n), i = ix2 u k := ⟨i 0, i 1, eq_ix2 i⟩
  have hu : u = 0 := Fin.ext (by omega)
  subst hu
  rw [Cert.LibBcastRowCol.vecRow_apply]
  rfl

/-- The bias vector repeated down the rows and added. -/
theorem addf_bidRow (v : FVec Ideal ⟨2, ![a, b]⟩ .f32) (bv : FVec Ideal ⟨1, ![b]⟩ .f32)
    (h : (⟨1, ![b]⟩ : Shape).BroadcastsInDim ⟨2, ![1, b]⟩ ![1]) (h' : (⟨2, ![1, b]⟩ : Shape).BroadcastsInDim ⟨2, ![a, b]⟩ ![0, 1]) :
    addf v (broadcastInDim ⟨2, ![a, b]⟩ ![0, 1] h' (broadcastInDim ⟨2, ![1, b]⟩ ![1] h bv)) = addRow v (rowOf bv) := by
  funext i
  obtain ⟨p, q, rfl⟩ : ∃ (p : Fin a) (q : Fin b), i = ix2 p q := ⟨i 0, i 1, eq_ix2 i⟩
  rw [addf_apply, Cert.LibBcastRowCol.vecRows_apply]
  rfl

/-- The maximum with a scalar zero splat over the matrix. -/
theorem maximumf_bidZero (v : FVec Ideal ⟨2, ![a, b]⟩ .f32) (h : (⟨0, ![]⟩ : Shape).BroadcastsInDim ⟨2, ![a, b]⟩ ![]) :
    maximumf v (broadcastInDim ⟨2, ![a, b]⟩ ![] h (constant (F := Ideal) ⟨0, ![]⟩ .f32 0x00000000#32)) = relu v := by
  funext i
  obtain ⟨p, q, rfl⟩ : ∃ (p : Fin a) (q : Fin b), i = ix2 p q := ⟨i 0, i 1, eq_ix2 i⟩
  rw [maximumf_apply, splat_at]
  rfl

/-! ## The log-softmax as the host spells it -/

/-- The maximum of −∞ and y is y. -/
theorem negInf_max (y : EReal) : max (Ideal.ofBits .f32 0xFF800000#32) y = y := by
  simp [Ideal.ofBits, Ideal.ieee]

/-- The host's reduce with the maximum along the rows, from −∞, is the row's maximum. -/
theorem hostRowMax_eq (z : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf z (constant (F := Ideal) ⟨0, ![]⟩ .f32 0xFF800000#32) h' hu (ix1 p) = rowMax z p := by
  rw [Host.reduce_eq_fold_single FloatOps.maximumf z _ h' h hu]
  have hf : (z ∘ h.lift (ix1 p)) = fun k : Fin b => z (ix2 p k) := funext fun k => congrArg z (lift1_ix2 h p k)
  exact congrArg (fun f => Finset.fold max (Ideal.ofBits .f32 0xFF800000#32) f (Finset.univ : Finset (Fin b))) hf

/-- The host's sum along the rows, from the zero word, is the sum over the row. -/
theorem hostRowSum_eq (e : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd e (constant (F := Ideal) ⟨0, ![]⟩ .f32 0x00000000#32) h' hu (ix1 p) = ∑ q : Fin b, e (ix2 p q) := by
  rw [hostReduceAdd_apply, Ideal.hostReduceAdd_single h' h]
  show Ideal.ofBits .f32 0x00000000#32 + _ = _
  rw [Ideal.ofBits_zero_f32, zero_add]
  exact Finset.sum_congr rfl fun k _ => congrArg e (lift1_ix2 h p k)

/-- The entries shifted by their row's maximum, as the host forms them. -/
theorem hostShifted_apply (z : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (hb0 : (⟨0, ![]⟩ : Shape).BroadcastsInDim ⟨1, ![a]⟩ ![]) (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (q : Fin b) :
    subf z (broadcastInDim (s := ⟨2, ![a, 1]⟩) ⟨2, ![a, b]⟩ ![0, 1] hb2 (broadcastInDim (s := ⟨1, ![a]⟩) ⟨2, ![a, 1]⟩ ![0] hb1
      (maximumf (broadcastInDim (s := ⟨0, ![]⟩) ⟨1, ![a]⟩ ![] hb0 (constant (F := Ideal) ⟨0, ![]⟩ .f32 0xFF800000#32))
        (Host.reduce FloatOps.maximumf z (constant (F := Ideal) ⟨0, ![]⟩ .f32 0xFF800000#32) h' hu)))) (ix2 p q)
      = z (ix2 p q) - rowMax z p := by
  rw [subf_apply, Cert.LibBcastRowCol.colSpread_apply, Cert.LibBcastRowCol.vecCol_apply, maximumf_apply, splat_at,
    hostRowMax_eq z h' h hu, negInf_max]

/-- The host's log-softmax along the rows. -/
theorem logSoftmax_host (z : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (hb0 : (⟨0, ![]⟩ : Shape).BroadcastsInDim ⟨1, ![a]⟩ ![]) (hb1 : (⟨1, ![a]⟩ : Shape).BroadcastsInDim ⟨2, ![a, 1]⟩ ![0])
    (hb2 : (⟨2, ![a, 1]⟩ : Shape).BroadcastsInDim ⟨2, ![a, b]⟩ ![0, 1]) :
    subf (subf z (broadcastInDim (s := ⟨2, ![a, 1]⟩) ⟨2, ![a, b]⟩ ![0, 1] hb2 (broadcastInDim (s := ⟨1, ![a]⟩) ⟨2, ![a, 1]⟩ ![0] hb1
        (maximumf (broadcastInDim (s := ⟨0, ![]⟩) ⟨1, ![a]⟩ ![] hb0 (constant (F := Ideal) ⟨0, ![]⟩ .f32 0xFF800000#32))
          (Host.reduce FloatOps.maximumf z (constant (F := Ideal) ⟨0, ![]⟩ .f32 0xFF800000#32) h' hu)))))
      (broadcastInDim (s := ⟨2, ![a, 1]⟩) ⟨2, ![a, b]⟩ ![0, 1] hb2 (Host.log (broadcastInDim (s := ⟨1, ![a]⟩) ⟨2, ![a, 1]⟩ ![0] hb1
        (Host.reduceAdd
          (Host.exp (subf z (broadcastInDim (s := ⟨2, ![a, 1]⟩) ⟨2, ![a, b]⟩ ![0, 1] hb2 (broadcastInDim (s := ⟨1, ![a]⟩) ⟨2, ![a, 1]⟩ ![0] hb1
            (maximumf (broadcastInDim (s := ⟨0, ![]⟩) ⟨1, ![a]⟩ ![] hb0 (constant (F := Ideal) ⟨0, ![]⟩ .f32 0xFF800000#32))
              (Host.reduce FloatOps.maximumf z (constant (F := Ideal) ⟨0, ![]⟩ .f32 0xFF800000#32) h' hu))))))
          (constant (F := Ideal) ⟨0, ![]⟩ .f32 0x00000000#32) h' hu))))
      = logSoftmax z := by
  funext i
  obtain ⟨p, q, rfl⟩ : ∃ (p : Fin a) (q : Fin b), i = ix2 p q := ⟨i 0, i 1, eq_ix2 i⟩
  rw [subf_apply, hostShifted_apply z h' h hu, Cert.LibBcastRowCol.colSpread_apply]
  show _ - Ideal.log (broadcastInDim (s := ⟨1, ![a]⟩) ⟨2, ![a, 1]⟩ ![0] hb1 _ (ix2 p (0 : Fin 1))) = _
  rw [Cert.LibBcastRowCol.vecCol_apply, hostRowSum_eq _ h' h hu]
  show _ = (z (ix2 p q) - rowMax z p) - Ideal.log (∑ q' : Fin b, Ideal.exp (z (ix2 p q') - rowMax z p))
  refine congrArg (fun s => (z (ix2 p q) - rowMax z p) - Ideal.log s) (Finset.sum_congr rfl fun q' _ => ?_)
  show Ideal.exp (subf z _ (ix2 p q')) = _
  rw [hostShifted_apply z h' h hu]

end Cert.Gnn

end
-- ==== Proof.Net.lean ====
/-
  The network both programs compute.

  From the node features x : [100000, 128] and the edge list ei : [2, 1200000] (row 0 the sources, row 1 the targets):
  the encoder's two dense layers with a rectifier between and the product with the first layer's weights (`enc0`); then,
  three times, the neighbourhood sum `agg` — every edge carries its source's row to its target, the rows arriving at a node
  are added up from zero, a negative source index counted from the end as jnp does —, each followed by that layer's bias
  and rectifier and the next product (`layer1`, `layer2`), the last by the decoder's two dense layers (`logits`) and the
  log-softmax over the 40 classes (`net`). The neighbourhood sum is the host's gather and scatter-add on both sides; it is
  stated once here and never opened. The weights of layer k are slab k of the [3, 64, 64] array, its bias row k of the
  [3, 64] array.
-/
import proofs.«156270_j22093311771370_2_alg».proof.Proof.Gen.ReferenceIdeal
import proofs.«156270_j22093311771370_2_alg».proof.Proof.HostOps

noncomputable section

namespace Cert.Gnn

open Idealize.ShloMosaic Idealize.ShloMosaic.ValueIdx Cert.ReferenceIdeal Cert.ReferenceIdeal.Gen

/-- The edges' sources: row 0 of the edge list. -/
def edgeSrc (ei : IVec S2x1200000 32) : IVec S1200000 32 :=
  shapeCast S1200000 (extractStridedSlice S1x1200000 ![0, 0] ei slices_S2x1200000_S1x1200000_0_0) shapeCasts_S1x1200000_S1200000

/-- The edges' targets: row 1 of the edge list. -/
def edgeDst (ei : IVec S2x1200000 32) : IVec S1200000 32 :=
  shapeCast S1200000 (extractStridedSlice S1x1200000 ![1, 0] ei slices_S2x1200000_S1x1200000_1_0) shapeCasts_S1x1200000_S1200000

/-- Layer k's weights: slab k of the stacked [3, 64, 64] weights. -/
def slab0 (gw : FVec Ideal S3x64x64 .f32) : FVec Ideal S64x64 .f32 :=
  shapeCast S64x64 (extractStridedSlice S1x64x64 ![0, 0, 0] gw slices_S3x64x64_S1x64x64_0_0_0) shapeCasts_S1x64x64_S64x64
def slab1 (gw : FVec Ideal S3x64x64 .f32) : FVec Ideal S64x64 .f32 :=
  shapeCast S64x64 (extractStridedSlice S1x64x64 ![1, 0, 0] gw slices_S3x64x64_S1x64x64_1_0_0) shapeCasts_S1x64x64_S64x64
def slab2 (gw : FVec Ideal S3x64x64 .f32) : FVec Ideal S64x64 .f32 :=
  shapeCast S64x64 (extractStridedSlice S1x64x64 ![2, 0, 0] gw slices_S3x64x64_S1x64x64_2_0_0) shapeCasts_S1x64x64_S64x64

/-- Layer k's bias: row k of the stacked [3, 64] biases. -/
def biasVec0 (gb : FVec Ideal S3x64 .f32) : FVec Ideal S64 .f32 :=
  shapeCast S64 (extractStridedSlice S1x64 ![0, 0] gb slices_S3x64_S1x64_0_0) shapeCasts_S1x64_S64
def biasVec1 (gb : FVec Ideal S3x64 .f32) : FVec Ideal S64 .f32 :=
  shapeCast S64 (extractStridedSlice S1x64 ![1, 0] gb slices_S3x64_S1x64_1_0) shapeCasts_S1x64_S64
def biasVec2 (gb : FVec Ideal S3x64 .f32) : FVec Ideal S64 .f32 :=
  shapeCast S64 (extractStridedSlice S1x64 ![2, 0] gb slices_S3x64_S1x64_2_0) shapeCasts_S1x64_S64

/-- The neighbourhood sum: gather each edge's source row (a negative index first moved up by the node count), then add
    the gathered rows into their targets' rows, from an all-zero array. -/
def agg (h : FVec Ideal S100000x64 .f32) (ei : IVec S2x1200000 32) : FVec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 (edgeDst ei))
    (Host.gather gather_S100000x64_S1200000x1_S1200000x64_1_0_n_n_0_1_164 h
      (broadcastInDim S1200000x1 ![0] bcast_S1200000_S1200000x1_0
        (select (cmpi .slt (edgeSrc ei) (broadcastInDim S1200000 ![] bcast_S_S1200000 (constantI S_ 32 0#32)))
          (addi (edgeSrc ei) (broadcastInDim S1200000 ![] bcast_S_S1200000 (constantI S_ 32 100000#32)))
          (edgeSrc ei))))

/-- The encoder and the first layer's product. -/
def enc0 (x : FVec Ideal S100000x128 .f32) (w0 : FVec Ideal S128x256 .f32) (b0 : FVec Ideal S256 .f32)
    (w1 : FVec Ideal S256x64 .f32) (b1 : FVec Ideal S64 .f32) (gw : FVec Ideal S3x64x64 .f32) : FVec Ideal S100000x64 .f32 :=
  enc x w0 (rowOf b0) w1 (rowOf b1) (slab0 gw)

/-- After the first neighbourhood sum: bias 0, rectifier, the second layer's product. -/
def layer1 (x : FVec Ideal S100000x128 .f32) (ei : IVec S2x1200000 32) (w0 : FVec Ideal S128x256 .f32) (b0 : FVec Ideal S256 .f32)
    (w1 : FVec Ideal S256x64 .f32) (b1 : FVec Ideal S64 .f32) (gw : FVec Ideal S3x64x64 .f32) (gb : FVec Ideal S3x64 .f32) :
    FVec Ideal S100000x64 .f32 :=
  comb (agg (enc0 x w0 b0 w1 b1 gw) ei) (rowOf (biasVec0 gb)) (slab1 gw)

/-- After the second neighbourhood sum: bias 1, rectifier, the third layer's product. -/
def layer2 (x : FVec Ideal S100000x128 .f32) (ei : IVec S2x1200000 32) (w0 : FVec Ideal S128x256 .f32) (b0 : FVec Ideal S256 .f32)
    (w1 : FVec Ideal S256x64 .f32) (b1 : FVec Ideal S64 .f32) (gw : FVec Ideal S3x64x64 .f32) (gb : FVec Ideal S3x64 .f32) :
    FVec Ideal S100000x64 .f32 :=
  comb (agg (layer1 x ei w0 b0 w1 b1 gw gb) ei) (rowOf (biasVec1 gb)) (slab2 gw)

/-- After the third neighbourhood sum: bias 2 and rectifier, the decoder's two dense layers. -/
def logits (x : FVec Ideal S100000x128 .f32) (ei : IVec S2x1200000 32) (w0 : FVec Ideal S128x256 .f32) (b0 : FVec Ideal S256 .f32)
    (w1 : FVec Ideal S256x64 .f32) (b1 : FVec Ideal S64 .f32) (gw : FVec Ideal S3x64x64 .f32) (gb : FVec Ideal S3x64 .f32)
    (dw0 : FVec Ideal S64x256 .f32) (db0 : FVec Ideal S256 .f32) (dw1 : FVec Ideal S256x40 .f32) (db1 : FVec Ideal S40 .f32) :
    FVec Ideal S100000x40 .f32 :=
  addRow (mm (relu (addRow (mm (relu (addRow (agg (layer2 x ei w0 b0 w1 b1 gw gb) ei) (rowOf (biasVec2 gb)))) dw0) (rowOf db0))) dw1)
    (rowOf db1)

/-- The whole network: the log-softmax of the logits. -/
def net (x : FVec Ideal S100000x128 .f32) (ei : IVec S2x1200000 32) (w0 : FVec Ideal S128x256 .f32) (b0 : FVec Ideal S256 .f32)
    (w1 : FVec Ideal S256x64 .f32) (b1 : FVec Ideal S64 .f32) (gw : FVec Ideal S3x64x64 .f32) (gb : FVec Ideal S3x64 .f32)
    (dw0 : FVec Ideal S64x256 .f32) (db0 : FVec Ideal S256 .f32) (dw1 : FVec Ideal S256x40 .f32) (db1 : FVec Ideal S40 .f32) :
    FVec Ideal S100000x40 .f32 :=
  logSoftmax (logits x ei w0 b0 w1 b1 gw gb dw0 db0 dw1 db1)

/-- The network is the decoder layer of the third neighbourhood sum. -/
theorem net_eq_dec (x : FVec Ideal S100000x128 .f32) (ei : IVec S2x1200000 32) (w0 : FVec Ideal S128x256 .f32) (b0 : FVec Ideal S256 .f32)
    (w1 : FVec Ideal S256x64 .f32) (b1 : FVec Ideal S64 .f32) (gw : FVec Ideal S3x64x64 .f32) (gb : FVec Ideal S3x64 .f32)
    (dw0 : FVec Ideal S64x256 .f32) (db0 : FVec Ideal S256 .f32) (dw1 : FVec Ideal S256x40 .f32) (db1 : FVec Ideal S40 .f32) :
    net x ei w0 b0 w1 b1 gw gb dw0 db0 dw1 db1
      = dec (agg (layer2 x ei w0 b0 w1 b1 gw gb) ei) (rowOf (biasVec2 gb)) dw0 (rowOf db0) dw1 (rowOf db1) := rfl

end Cert.Gnn

end
-- ==== Proof.KFold.lean ====
/-
  The kernel program's buffers, boundary by boundary, in terms of the launch memory.

  The generated frame follows the buffers through @main as the fold `W1, …, W8`. Here each buffer a later segment reads is
  written as a function of the launch memory `m`. A stretch of host operations is read off the contents before it,
  operation by operation; a region's output array is the region's layer of the arrays it is entered with (Blocks), every
  other buffer as the region found it. The edge endpoints, the stacked weights and biases and the decoder's parameters
  are written by nothing after they are formed, so they are carried from boundary to boundary unchanged. At the last
  boundary the result buffer holds the network of Net.
-/
import proofs.«156270_j22093311771370_2_alg».proof.Proof.Blocks
import proofs.«156270_j22093311771370_2_alg».proof.Proof.Net

set_option maxRecDepth 16384

noncomputable section

namespace Cert.KernelIdeal.GnnFold

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## After the first stretch (the edge endpoints, the first layer's weights, the encoder's bias rows) -/

theorem K1_main_arg0 (c : Dev nD) : W1 m ρ c (Proc.devRef .tc main_arg0) = (m ((c : Thread nD τ).loc main_arg0) : FVec Ideal S100000x128 .f32) := by
  refine Eq.trans ?_ ((rfl : W0 m ρ c (Proc.devRef .tc main_arg0) = (m ((c : Thread nD τ).loc main_arg0) : FVec Ideal S100000x128 .f32)))
  show StableHlo.after hostOps0 (W0 m ρ c) (Proc.devRef .tc main_arg0) = W0 m ρ c (Proc.devRef .tc main_arg0)
  dsimp only [hostOps0]
  after_results <;> rfl

theorem K1_main_arg2 (c : Dev nD) : W1 m ρ c (Proc.devRef .tc main_arg2) = (m ((c : Thread nD τ).loc main_arg2) : FVec Ideal S128x256 .f32) := by
  refine Eq.trans ?_ ((rfl : W0 m ρ c (Proc.devRef .tc main_arg2) = (m ((c : Thread nD τ).loc main_arg2) : FVec Ideal S128x256 .f32)))
  show StableHlo.after hostOps0 (W0 m ρ c) (Proc.devRef .tc main_arg2) = W0 m ρ c (Proc.devRef .tc main_arg2)
  dsimp only [hostOps0]
  after_results <;> rfl

theorem K1_main_arg4 (c : Dev nD) : W1 m ρ c (Proc.devRef .tc main_arg4) = (m ((c : Thread nD τ).loc main_arg4) : FVec Ideal S256x64 .f32) := by
  refine Eq.trans ?_ ((rfl : W0 m ρ c (Proc.devRef .tc main_arg4) = (m ((c : Thread nD τ).loc main_arg4) : FVec Ideal S256x64 .f32)))
  show StableHlo.after hostOps0 (W0 m ρ c) (Proc.devRef .tc main_arg4) = W0 m ρ c (Proc.devRef .tc main_arg4)
  dsimp only [hostOps0]
  after_results <;> rfl

theorem K1_main_arg6 (c : Dev nD) : W1 m ρ c (Proc.devRef .tc main_arg6) = (m ((c : Thread nD τ).loc main_arg6) : FVec Ideal S3x64x64 .f32) := by
  refine Eq.trans ?_ ((rfl : W0 m ρ c (Proc.devRef .tc main_arg6) = (m ((c : Thread nD τ).loc main_arg6) : FVec Ideal S3x64x64 .f32)))
  show StableHlo.after hostOps0 (W0 m ρ c) (Proc.devRef .tc main_arg6) = W0 m ρ c (Proc.devRef .tc main_arg6)
  dsimp only [hostOps0]
  after_results <;> rfl

theorem K1_main_arg7 (c : Dev nD) : W1 m ρ c (Proc.devRef .tc main_arg7) = (m ((c : Thread nD τ).loc main_arg7) : FVec Ideal S3x64 .f32) := by
  refine Eq.trans ?_ ((rfl : W0 m ρ c (Proc.devRef .tc main_arg7) = (m ((c : Thread nD τ).loc main_arg7) : FVec Ideal S3x64 .f32)))
  show StableHlo.after hostOps0 (W0 m ρ c) (Proc.devRef .tc main_arg7) = W0 m ρ c (Proc.devRef .tc main_arg7)
  dsimp only [hostOps0]
  after_results <;> rfl

theorem K1_main_arg8 (c : Dev nD) : W1 m ρ c (Proc.devRef .tc main_arg8) = (m ((c : Thread nD τ).loc main_arg8) : FVec Ideal S64x256 .f32) := by
  refine Eq.trans ?_ ((rfl : W0 m ρ c (Proc.devRef .tc main_arg8) = (m ((c : Thread nD τ).loc main_arg8) : FVec Ideal S64x256 .f32)))
  show StableHlo.after hostOps0 (W0 m ρ c) (Proc.devRef .tc main_arg8) = W0 m ρ c (Proc.devRef .tc main_arg8)
  dsimp only [hostOps0]
  after_results <;> rfl

theorem K1_main_arg9 (c : Dev nD) : W1 m ρ c (Proc.devRef .tc main_arg9) = (m ((c : Thread nD τ).loc main_arg9) : FVec Ideal S256 .f32) := by
  refine Eq.trans ?_ ((rfl : W0 m ρ c (Proc.devRef .tc main_arg9) = (m ((c : Thread nD τ).loc main_arg9) : FVec Ideal S256 .f32)))
  show StableHlo.after hostOps0 (W0 m ρ c) (Proc.devRef .tc main_arg9) = W0 m ρ c (Proc.devRef .tc main_arg9)
  dsimp only [hostOps0]
  after_results <;> rfl

theorem K1_main_arg10 (c : Dev nD) : W1 m ρ c (Proc.devRef .tc main_arg10) = (m ((c : Thread nD τ).loc main_arg10) : FVec Ideal S256x40 .f32) := by
  refine Eq.trans ?_ ((rfl : W0 m ρ c (Proc.devRef .tc main_arg10) = (m ((c : Thread nD τ).loc main_arg10) : FVec Ideal S256x40 .f32)))
  show StableHlo.after hostOps0 (W0 m ρ c) (Proc.devRef .tc main_arg10) = W0 m ρ c (Proc.devRef .tc main_arg10)
  dsimp only [hostOps0]
  after_results <;> rfl

theorem K1_main_arg11 (c : Dev nD) : W1 m ρ c (Proc.devRef .tc main_arg11) = (m ((c : Thread nD τ).loc main_arg11) : FVec Ideal S40 .f32) := by
  refine Eq.trans ?_ ((rfl : W0 m ρ c (Proc.devRef .tc main_arg11) = (m ((c : Thread nD τ).loc main_arg11) : FVec Ideal S40 .f32)))
  show StableHlo.after hostOps0 (W0 m ρ c) (Proc.devRef .tc main_arg11) = W0 m ρ c (Proc.devRef .tc main_arg11)
  dsimp only [hostOps0]
  after_results <;> rfl

theorem K1_main_v1 (c : Dev nD) : W1 m ρ c (Proc.devRef .tc main_v1) = Gnn.edgeSrc (m ((c : Thread nD τ).loc main_arg1) : IVec S2x1200000 32) := by
  show StableHlo.after hostOps0 (W0 m ρ c) (Proc.devRef .tc main_v1) = _
  dsimp only [hostOps0]
  after_results
  rfl

theorem K1_main_v3 (c : Dev nD) : W1 m ρ c (Proc.devRef .tc main_v3) = Gnn.edgeDst (m ((c : Thread nD τ).loc main_arg1) : IVec S2x1200000 32) := by
  show StableHlo.after hostOps0 (W0 m ρ c) (Proc.devRef .tc main_v3) = _
  dsimp only [hostOps0]
  after_results
  rfl

theorem K1_main_v5 (c : Dev nD) : W1 m ρ c (Proc.devRef .tc main_v5) = Gnn.slab0 (m ((c : Thread nD τ).loc main_arg6) : FVec Ideal S3x64x64 .f32) := by
  show StableHlo.after hostOps0 (W0 m ρ c) (Proc.devRef .tc main_v5) = _
  dsimp only [hostOps0]
  after_results
  rfl

theorem K1_main_v6 (c : Dev nD) : W1 m ρ c (Proc.devRef .tc main_v6) = Gnn.rowOf (m ((c : Thread nD τ).loc main_arg3) : FVec Ideal S256 .f32) := by
  show StableHlo.after hostOps0 (W0 m ρ c) (Proc.devRef .tc main_v6) = _
  dsimp only [hostOps0]
  after_results
  exact Gnn.shapeCast_row _ _

theorem K1_main_v7 (c : Dev nD) : W1 m ρ c (Proc.devRef .tc main_v7) = Gnn.rowOf (m ((c : Thread nD τ).loc main_arg5) : FVec Ideal S64 .f32) := by
  show StableHlo.after hostOps0 (W0 m ρ c) (Proc.devRef .tc main_v7) = _
  dsimp only [hostOps0]
  after_results
  exact Gnn.shapeCast_row _ _

/-! ## After region 0 (the encoder and the first product) -/

theorem K2_main_v8 (c : Dev nD) : W2 m ρ c (Proc.devRef .tc main_v8) = Gnn.enc0 (m ((c : Thread nD τ).loc main_arg0) : FVec Ideal S100000x128 .f32) (m ((c : Thread nD τ).loc main_arg2) : FVec Ideal S128x256 .f32) (m ((c : Thread nD τ).loc main_arg3) : FVec Ideal S256 .f32) (m ((c : Thread nD τ).loc main_arg4) : FVec Ideal S256x64 .f32) (m ((c : Thread nD τ).loc main_arg5) : FVec Ideal S64 .f32) (m ((c : Thread nD τ).loc main_arg6) : FVec Ideal S3x64x64 .f32) := by
  refine (W2_arr m ρ c 6).trans ((GnnBlocks.final0 (V1 m ρ) c).trans ?_)
  show Gnn.enc (W1 m ρ c (Proc.devRef .tc main_arg0) : S100000x128.Idx → EReal) (W1 m ρ c (Proc.devRef .tc main_arg2) : S128x256.Idx → EReal) (W1 m ρ c (Proc.devRef .tc main_v6) : S1x256.Idx → EReal) (W1 m ρ c (Proc.devRef .tc main_arg4) : S256x64.Idx → EReal) (W1 m ρ c (Proc.devRef .tc main_v7) : S1x64.Idx → EReal) (W1 m ρ c (Proc.devRef .tc main_v5) : S64x64.Idx → EReal) = _
  rw [K1_main_arg0 m ρ c, K1_main_arg2 m ρ c, K1_main_v6 m ρ c, K1_main_arg4 m ρ c, K1_main_v7 m ρ c, K1_main_v5 m ρ c]
  rfl

theorem K2_main_v1 (c : Dev nD) : W2 m ρ c (Proc.devRef .tc main_v1) = Gnn.edgeSrc (m ((c : Thread nD τ).loc main_arg1) : IVec S2x1200000 32) :=
  (W2_of_ne m ρ c main_v1 (by decide)).trans (K1_main_v1 m ρ c)

theorem K2_main_v3 (c : Dev nD) : W2 m ρ c (Proc.devRef .tc main_v3) = Gnn.edgeDst (m ((c : Thread nD τ).loc main_arg1) : IVec S2x1200000 32) :=
  (W2_of_ne m ρ c main_v3 (by decide)).trans (K1_main_v3 m ρ c)

theorem K2_main_arg6 (c : Dev nD) : W2 m ρ c (Proc.devRef .tc main_arg6) = (m ((c : Thread nD τ).loc main_arg6) : FVec Ideal S3x64x64 .f32) :=
  (W2_of_ne m ρ c main_arg6 (by decide)).trans (K1_main_arg6 m ρ c)

theorem K2_main_arg7 (c : Dev nD) : W2 m ρ c (Proc.devRef .tc main_arg7) = (m ((c : Thread nD τ).loc main_arg7) : FVec Ideal S3x64 .f32) :=
  (W2_of_ne m ρ c main_arg7 (by decide)).trans (K1_main_arg7 m ρ c)

theorem K2_main_arg8 (c : Dev nD) : W2 m ρ c (Proc.devRef .tc main_arg8) = (m ((c : Thread nD τ).loc main_arg8) : FVec Ideal S64x256 .f32) :=
  (W2_of_ne m ρ c main_arg8 (by decide)).trans (K1_main_arg8 m ρ c)

theorem K2_main_arg9 (c : Dev nD) : W2 m ρ c (Proc.devRef .tc main_arg9) = (m ((c : Thread nD τ).loc main_arg9) : FVec Ideal S256 .f32) :=
  (W2_of_ne m ρ c main_arg9 (by decide)).trans (K1_main_arg9 m ρ c)

theorem K2_main_arg10 (c : Dev nD) : W2 m ρ c (Proc.devRef .tc main_arg10) = (m ((c : Thread nD τ).loc main_arg10) : FVec Ideal S256x40 .f32) :=
  (W2_of_ne m ρ c main_arg10 (by decide)).trans (K1_main_arg10 m ρ c)

theorem K2_main_arg11 (c : Dev nD) : W2 m ρ c (Proc.devRef .tc main_arg11) = (m ((c : Thread nD τ).loc main_arg11) : FVec Ideal S40 .f32) :=
  (W2_of_ne m ρ c main_arg11 (by decide)).trans (K1_main_arg11 m ρ c)

/-! ## After the second stretch (the first neighbourhood sum, bias 0, the second layer's weights) -/

theorem K3_main_v1 (c : Dev nD) : W3 m ρ c (Proc.devRef .tc main_v1) = Gnn.edgeSrc (m ((c : Thread nD τ).loc main_arg1) : IVec S2x1200000 32) := by
  refine Eq.trans ?_ (K2_main_v1 m ρ c)
  show StableHlo.after hostOps1 (W2 m ρ c) (Proc.devRef .tc main_v1) = W2 m ρ c (Proc.devRef .tc main_v1)
  dsimp only [hostOps1]
  after_results <;> rfl

theorem K3_main_v3 (c : Dev nD) : W3 m ρ c (Proc.devRef .tc main_v3) = Gnn.edgeDst (m ((c : Thread nD τ).loc main_arg1) : IVec S2x1200000 32) := by
  refine Eq.trans ?_ (K2_main_v3 m ρ c)
  show StableHlo.after hostOps1 (W2 m ρ c) (Proc.devRef .tc main_v3) = W2 m ρ c (Proc.devRef .tc main_v3)
  dsimp only [hostOps1]
  after_results <;> rfl

theorem K3_main_arg6 (c : Dev nD) : W3 m ρ c (Proc.devRef .tc main_arg6) = (m ((c : Thread nD τ).loc main_arg6) : FVec Ideal S3x64x64 .f32) := by
  refine Eq.trans ?_ (K2_main_arg6 m ρ c)
  show StableHlo.after hostOps1 (W2 m ρ c) (Proc.devRef .tc main_arg6) = W2 m ρ c (Proc.devRef .tc main_arg6)
  dsimp only [hostOps1]
  after_results <;> rfl

theorem K3_main_arg7 (c : Dev nD) : W3 m ρ c (Proc.devRef .tc main_arg7) = (m ((c : Thread nD τ).loc main_arg7) : FVec Ideal S3x64 .f32) := by
  refine Eq.trans ?_ (K2_main_arg7 m ρ c)
  show StableHlo.after hostOps1 (W2 m ρ c) (Proc.devRef .tc main_arg7) = W2 m ρ c (Proc.devRef .tc main_arg7)
  dsimp only [hostOps1]
  after_results <;> rfl

theorem K3_main_arg8 (c : Dev nD) : W3 m ρ c (Proc.devRef .tc main_arg8) = (m ((c : Thread nD τ).loc main_arg8) : FVec Ideal S64x256 .f32) := by
  refine Eq.trans ?_ (K2_main_arg8 m ρ c)
  show StableHlo.after hostOps1 (W2 m ρ c) (Proc.devRef .tc main_arg8) = W2 m ρ c (Proc.devRef .tc main_arg8)
  dsimp only [hostOps1]
  after_results <;> rfl

theorem K3_main_arg9 (c : Dev nD) : W3 m ρ c (Proc.devRef .tc main_arg9) = (m ((c : Thread nD τ).loc main_arg9) : FVec Ideal S256 .f32) := by
  refine Eq.trans ?_ (K2_main_arg9 m ρ c)
  show StableHlo.after hostOps1 (W2 m ρ c) (Proc.devRef .tc main_arg9) = W2 m ρ c (Proc.devRef .tc main_arg9)
  dsimp only [hostOps1]
  after_results <;> rfl

theorem K3_main_arg10 (c : Dev nD) : W3 m ρ c (Proc.devRef .tc main_arg10) = (m ((c : Thread nD τ).loc main_arg10) : FVec Ideal S256x40 .f32) := by
  refine Eq.trans ?_ (K2_main_arg10 m ρ c)
  show StableHlo.after hostOps1 (W2 m ρ c) (Proc.devRef .tc main_arg10) = W2 m ρ c (Proc.devRef .tc main_arg10)
  dsimp only [hostOps1]
  after_results <;> rfl

theorem K3_main_arg11 (c : Dev nD) : W3 m ρ c (Proc.devRef .tc main_arg11) = (m ((c : Thread nD τ).loc main_arg11) : FVec Ideal S40 .f32) := by
  refine Eq.trans ?_ (K2_main_arg11 m ρ c)
  show StableHlo.after hostOps1 (W2 m ρ c) (Proc.devRef .tc main_arg11) = W2 m ρ c (Proc.devRef .tc main_arg11)
  dsimp only [hostOps1]
  after_results <;> rfl

set_option maxHeartbeats 8000000 in
theorem K3_main_v19 (c : Dev nD) : W3 m ρ c (Proc.devRef .tc main_v19) = Gnn.agg (Gnn.enc0 (m ((c : Thread nD τ).loc main_arg0) : FVec Ideal S100000x128 .f32) (m ((c : Thread nD τ).loc main_arg2) : FVec Ideal S128x256 .f32) (m ((c : Thread nD τ).loc main_arg3) : FVec Ideal S256 .f32) (m ((c : Thread nD τ).loc main_arg4) : FVec Ideal S256x64 .f32) (m ((c : Thread nD τ).loc main_arg5) : FVec Ideal S64 .f32) (m ((c : Thread nD τ).loc main_arg6) : FVec Ideal S3x64x64 .f32)) (m ((c : Thread nD τ).loc main_arg1) : IVec S2x1200000 32) := by
  show StableHlo.after hostOps1 (W2 m ρ c) (Proc.devRef .tc main_v19) = _
  dsimp only [hostOps1]
  after_results_simp
  rw [K2_main_v8 m ρ c, K2_main_v1 m ρ c, K2_main_v3 m ρ c, Gnn.extf_id]
  rfl

theorem K3_main_v24 (c : Dev nD) : W3 m ρ c (Proc.devRef .tc main_v24) = Gnn.rowOf (Gnn.biasVec0 (m ((c : Thread nD τ).loc main_arg7) : FVec Ideal S3x64 .f32)) := by
  show StableHlo.after hostOps1 (W2 m ρ c) (Proc.devRef .tc main_v24) = _
  dsimp only [hostOps1]
  after_results
  rw [K2_main_arg7 m ρ c]
  exact Gnn.shapeCast_row _ _

theorem K3_main_v23 (c : Dev nD) : W3 m ρ c (Proc.devRef .tc main_v23) = Gnn.slab1 (m ((c : Thread nD τ).loc main_arg6) : FVec Ideal S3x64x64 .f32) := by
  show StableHlo.after hostOps1 (W2 m ρ c) (Proc.devRef .tc main_v23) = _
  dsimp only [hostOps1]
  after_results
  rw [K2_main_arg6 m ρ c]
  rfl

/-! ## After region 1 -/

theorem K4_main_v25 (c : Dev nD) : W4 m ρ c (Proc.devRef .tc main_v25) = Gnn.layer1 (m ((c : Thread nD τ).loc main_arg0) : FVec Ideal S100000x128 .f32) (m ((c : Thread nD τ).loc main_arg1) : IVec S2x1200000 32) (m ((c : Thread nD τ).loc main_arg2) : FVec Ideal S128x256 .f32) (m ((c : Thread nD τ).loc main_arg3) : FVec Ideal S256 .f32) (m ((c : Thread nD τ).loc main_arg4) : FVec Ideal S256x64 .f32) (m ((c : Thread nD τ).loc main_arg5) : FVec Ideal S64 .f32) (m ((c : Thread nD τ).loc main_arg6) : FVec Ideal S3x64x64 .f32) (m ((c : Thread nD τ).loc main_arg7) : FVec Ideal S3x64 .f32) := by
  refine (W4_arr m ρ c 3).trans ((GnnBlocks.final1 (V3 m ρ) c).trans ?_)
  show Gnn.comb (W3 m ρ c (Proc.devRef .tc main_v19) : S100000x64.Idx → EReal) (W3 m ρ c (Proc.devRef .tc main_v24) : S1x64.Idx → EReal) (W3 m ρ c (Proc.devRef .tc main_v23) : S64x64.Idx → EReal) = _
  rw [K3_main_v19 m ρ c, K3_main_v24 m ρ c, K3_main_v23 m ρ c]
  rfl

theorem K4_main_v1 (c : Dev nD) : W4 m ρ c (Proc.devRef .tc main_v1) = Gnn.edgeSrc (m ((c : Thread nD τ).loc main_arg1) : IVec S2x1200000 32) :=
  (W4_of_ne m ρ c main_v1 (by decide)).trans (K3_main_v1 m ρ c)

theorem K4_main_v3 (c : Dev nD) : W4 m ρ c (Proc.devRef .tc main_v3) = Gnn.edgeDst (m ((c : Thread nD τ).loc main_arg1) : IVec S2x1200000 32) :=
  (W4_of_ne m ρ c main_v3 (by decide)).trans (K3_main_v3 m ρ c)

theorem K4_main_arg6 (c : Dev nD) : W4 m ρ c (Proc.devRef .tc main_arg6) = (m ((c : Thread nD τ).loc main_arg6) : FVec Ideal S3x64x64 .f32) :=
  (W4_of_ne m ρ c main_arg6 (by decide)).trans (K3_main_arg6 m ρ c)

theorem K4_main_arg7 (c : Dev nD) : W4 m ρ c (Proc.devRef .tc main_arg7) = (m ((c : Thread nD τ).loc main_arg7) : FVec Ideal S3x64 .f32) :=
  (W4_of_ne m ρ c main_arg7 (by decide)).trans (K3_main_arg7 m ρ c)

theorem K4_main_arg8 (c : Dev nD) : W4 m ρ c (Proc.devRef .tc main_arg8) = (m ((c : Thread nD τ).loc main_arg8) : FVec Ideal S64x256 .f32) :=
  (W4_of_ne m ρ c main_arg8 (by decide)).trans (K3_main_arg8 m ρ c)

theorem K4_main_arg9 (c : Dev nD) : W4 m ρ c (Proc.devRef .tc main_arg9) = (m ((c : Thread nD τ).loc main_arg9) : FVec Ideal S256 .f32) :=
  (W4_of_ne m ρ c main_arg9 (by decide)).trans (K3_main_arg9 m ρ c)

theorem K4_main_arg10 (c : Dev nD) : W4 m ρ c (Proc.devRef .tc main_arg10) = (m ((c : Thread nD τ).loc main_arg10) : FVec Ideal S256x40 .f32) :=
  (W4_of_ne m ρ c main_arg10 (by decide)).trans (K3_main_arg10 m ρ c)

theorem K4_main_arg11 (c : Dev nD) : W4 m ρ c (Proc.devRef .tc main_arg11) = (m ((c : Thread nD τ).loc main_arg11) : FVec Ideal S40 .f32) :=
  (W4_of_ne m ρ c main_arg11 (by decide)).trans (K3_main_arg11 m ρ c)

/-! ## After the third stretch (the second neighbourhood sum, bias 1, the third layer's weights) -/

theorem K5_main_v1 (c : Dev nD) : W5 m ρ c (Proc.devRef .tc main_v1) = Gnn.edgeSrc (m ((c : Thread nD τ).loc main_arg1) : IVec S2x1200000 32) := by
  refine Eq.trans ?_ (K4_main_v1 m ρ c)
  show StableHlo.after hostOps2 (W4 m ρ c) (Proc.devRef .tc main_v1) = W4 m ρ c (Proc.devRef .tc main_v1)
  dsimp only [hostOps2]
  after_results <;> rfl

theorem K5_main_v3 (c : Dev nD) : W5 m ρ c (Proc.devRef .tc main_v3) = Gnn.edgeDst (m ((c : Thread nD τ).loc main_arg1) : IVec S2x1200000 32) := by
  refine Eq.trans ?_ (K4_main_v3 m ρ c)
  show StableHlo.after hostOps2 (W4 m ρ c) (Proc.devRef .tc main_v3) = W4 m ρ c (Proc.devRef .tc main_v3)
  dsimp only [hostOps2]
  after_results <;> rfl

theorem K5_main_arg7 (c : Dev nD) : W5 m ρ c (Proc.devRef .tc main_arg7) = (m ((c : Thread nD τ).loc main_arg7) : FVec Ideal S3x64 .f32) := by
  refine Eq.trans ?_ (K4_main_arg7 m ρ c)
  show StableHlo.after hostOps2 (W4 m ρ c) (Proc.devRef .tc main_arg7) = W4 m ρ c (Proc.devRef .tc main_arg7)
  dsimp only [hostOps2]
  after_results <;> rfl

theorem K5_main_arg8 (c : Dev nD) : W5 m ρ c (Proc.devRef .tc main_arg8) = (m ((c : Thread nD τ).loc main_arg8) : FVec Ideal S64x256 .f32) := by
  refine Eq.trans ?_ (K4_main_arg8 m ρ c)
  show StableHlo.after hostOps2 (W4 m ρ c) (Proc.devRef .tc main_arg8) = W4 m ρ c (Proc.devRef .tc main_arg8)
  dsimp only [hostOps2]
  after_results <;> rfl

theorem K5_main_arg9 (c : Dev nD) : W5 m ρ c (Proc.devRef .tc main_arg9) = (m ((c : Thread nD τ).loc main_arg9) : FVec Ideal S256 .f32) := by
  refine Eq.trans ?_ (K4_main_arg9 m ρ c)
  show StableHlo.after hostOps2 (W4 m ρ c) (Proc.devRef .tc main_arg9) = W4 m ρ c (Proc.devRef .tc main_arg9)
  dsimp only [hostOps2]
  after_results <;> rfl

theorem K5_main_arg10 (c : Dev nD) : W5 m ρ c (Proc.devRef .tc main_arg10) = (m ((c : Thread nD τ).loc main_arg10) : FVec Ideal S256x40 .f32) := by
  refine Eq.trans ?_ (K4_main_arg10 m ρ c)
  show StableHlo.after hostOps2 (W4 m ρ c) (Proc.devRef .tc main_arg10) = W4 m ρ c (Proc.devRef .tc main_arg10)
  dsimp only [hostOps2]
  after_results <;> rfl

theorem K5_main_arg11 (c : Dev nD) : W5 m ρ c (Proc.devRef .tc main_arg11) = (m ((c : Thread nD τ).loc main_arg11) : FVec Ideal S40 .f32) := by
  refine Eq.trans ?_ (K4_main_arg11 m ρ c)
  show StableHlo.after hostOps2 (W4 m ρ c) (Proc.devRef .tc main_arg11) = W4 m ρ c (Proc.devRef .tc main_arg11)
  dsimp only [hostOps2]
  after_results <;> rfl

set_option maxHeartbeats 8000000 in
theorem K5_main_v36 (c : Dev nD) : W5 m ρ c (Proc.devRef .tc main_v36) = Gnn.agg (Gnn.layer1 (m ((c : Thread nD τ).loc main_arg0) : FVec Ideal S100000x128 .f32) (m ((c : Thread nD τ).loc main_arg1) : IVec S2x1200000 32) (m ((c : Thread nD τ).loc main_arg2) : FVec Ideal S128x256 .f32) (m ((c : Thread nD τ).loc main_arg3) : FVec Ideal S256 .f32) (m ((c : Thread nD τ).loc main_arg4) : FVec Ideal S256x64 .f32) (m ((c : Thread nD τ).loc main_arg5) : FVec Ideal S64 .f32) (m ((c : Thread nD τ).loc main_arg6) : FVec Ideal S3x64x64 .f32) (m ((c : Thread nD τ).loc main_arg7) : FVec Ideal S3x64 .f32)) (m ((c : Thread nD τ).loc main_arg1) : IVec S2x1200000 32) := by
  show StableHlo.after hostOps2 (W4 m ρ c) (Proc.devRef .tc main_v36) = _
  dsimp only [hostOps2]
  after_results_simp
  rw [K4_main_v25 m ρ c, K4_main_v1 m ρ c, K4_main_v3 m ρ c, Gnn.extf_id]
  rfl

theorem K5_main_v41 (c : Dev nD) : W5 m ρ c (Proc.devRef .tc main_v41) = Gnn.rowOf (Gnn.biasVec1 (m ((c : Thread nD τ).loc main_arg7) : FVec Ideal S3x64 .f32)) := by
  show StableHlo.after hostOps2 (W4 m ρ c) (Proc.devRef .tc main_v41) = _
  dsimp only [hostOps2]
  after_results
  rw [K4_main_arg7 m ρ c]
  exact Gnn.shapeCast_row _ _

theorem K5_main_v40 (c : Dev nD) : W5 m ρ c (Proc.devRef .tc main_v40) = Gnn.slab2 (m ((c : Thread nD τ).loc main_arg6) : FVec Ideal S3x64x64 .f32) := by
  show StableHlo.after hostOps2 (W4 m ρ c) (Proc.devRef .tc main_v40) = _
  dsimp only [hostOps2]
  after_results
  rw [K4_main_arg6 m ρ c]
  rfl

/-! ## After region 2 -/

theorem K6_main_v42 (c : Dev nD) : W6 m ρ c (Proc.devRef .tc main_v42) = Gnn.layer2 (m ((c : Thread nD τ).loc main_arg0) : FVec Ideal S100000x128 .f32) (m ((c : Thread nD τ).loc main_arg1) : IVec S2x1200000 32) (m ((c : Thread nD τ).loc main_arg2) : FVec Ideal S128x256 .f32) (m ((c : Thread nD τ).loc main_arg3) : FVec Ideal S256 .f32) (m ((c : Thread nD τ).loc main_arg4) : FVec Ideal S256x64 .f32) (m ((c : Thread nD τ).loc main_arg5) : FVec Ideal S64 .f32) (m ((c : Thread nD τ).loc main_arg6) : FVec Ideal S3x64x64 .f32) (m ((c : Thread nD τ).loc main_arg7) : FVec Ideal S3x64 .f32) := by
  refine (W6_arr m ρ c 3).trans ((GnnBlocks.final2 (V5 m ρ) c).trans ?_)
  show Gnn.comb (W5 m ρ c (Proc.devRef .tc main_v36) : S100000x64.Idx → EReal) (W5 m ρ c (Proc.devRef .tc main_v41) : S1x64.Idx → EReal) (W5 m ρ c (Proc.devRef .tc main_v40) : S64x64.Idx → EReal) = _
  rw [K5_main_v36 m ρ c, K5_main_v41 m ρ c, K5_main_v40 m ρ c]
  rfl

theorem K6_main_v1 (c : Dev nD) : W6 m ρ c (Proc.devRef .tc main_v1) = Gnn.edgeSrc (m ((c : Thread nD τ).loc main_arg1) : IVec S2x1200000 32) :=
  (W6_of_ne m ρ c main_v1 (by decide)).trans (K5_main_v1 m ρ c)

theorem K6_main_v3 (c : Dev nD) : W6 m ρ c (Proc.devRef .tc main_v3) = Gnn.edgeDst (m ((c : Thread nD τ).loc main_arg1) : IVec S2x1200000 32) :=
  (W6_of_ne m ρ c main_v3 (by decide)).trans (K5_main_v3 m ρ c)

theorem K6_main_arg7 (c : Dev nD) : W6 m ρ c (Proc.devRef .tc main_arg7) = (m ((c : Thread nD τ).loc main_arg7) : FVec Ideal S3x64 .f32) :=
  (W6_of_ne m ρ c main_arg7 (by decide)).trans (K5_main_arg7 m ρ c)

theorem K6_main_arg8 (c : Dev nD) : W6 m ρ c (Proc.devRef .tc main_arg8) = (m ((c : Thread nD τ).loc main_arg8) : FVec Ideal S64x256 .f32) :=
  (W6_of_ne m ρ c main_arg8 (by decide)).trans (K5_main_arg8 m ρ c)

theorem K6_main_arg9 (c : Dev nD) : W6 m ρ c (Proc.devRef .tc main_arg9) = (m ((c : Thread nD τ).loc main_arg9) : FVec Ideal S256 .f32) :=
  (W6_of_ne m ρ c main_arg9 (by decide)).trans (K5_main_arg9 m ρ c)

theorem K6_main_arg10 (c : Dev nD) : W6 m ρ c (Proc.devRef .tc main_arg10) = (m ((c : Thread nD τ).loc main_arg10) : FVec Ideal S256x40 .f32) :=
  (W6_of_ne m ρ c main_arg10 (by decide)).trans (K5_main_arg10 m ρ c)

theorem K6_main_arg11 (c : Dev nD) : W6 m ρ c (Proc.devRef .tc main_arg11) = (m ((c : Thread nD τ).loc main_arg11) : FVec Ideal S40 .f32) :=
  (W6_of_ne m ρ c main_arg11 (by decide)).trans (K5_main_arg11 m ρ c)

/-! ## After the fourth stretch (the third neighbourhood sum, bias 2, the decoder's bias rows) -/

theorem K7_main_arg8 (c : Dev nD) : W7 m ρ c (Proc.devRef .tc main_arg8) = (m ((c : Thread nD τ).loc main_arg8) : FVec Ideal S64x256 .f32) := by
  refine Eq.trans ?_ (K6_main_arg8 m ρ c)
  show StableHlo.after hostOps3 (W6 m ρ c) (Proc.devRef .tc main_arg8) = W6 m ρ c (Proc.devRef .tc main_arg8)
  dsimp only [hostOps3]
  after_results <;> rfl

theorem K7_main_arg10 (c : Dev nD) : W7 m ρ c (Proc.devRef .tc main_arg10) = (m ((c : Thread nD τ).loc main_arg10) : FVec Ideal S256x40 .f32) := by
  refine Eq.trans ?_ (K6_main_arg10 m ρ c)
  show StableHlo.after hostOps3 (W6 m ρ c) (Proc.devRef .tc main_arg10) = W6 m ρ c (Proc.devRef .tc main_arg10)
  dsimp only [hostOps3]
  after_results <;> rfl

set_option maxHeartbeats 8000000 in
theorem K7_main_v53 (c : Dev nD) : W7 m ρ c (Proc.devRef .tc main_v53) = Gnn.agg (Gnn.layer2 (m ((c : Thread nD τ).loc main_arg0) : FVec Ideal S100000x128 .f32) (m ((c : Thread nD τ).loc main_arg1) : IVec S2x1200000 32) (m ((c : Thread nD τ).loc main_arg2) : FVec Ideal S128x256 .f32) (m ((c : Thread nD τ).loc main_arg3) : FVec Ideal S256 .f32) (m ((c : Thread nD τ).loc main_arg4) : FVec Ideal S256x64 .f32) (m ((c : Thread nD τ).loc main_arg5) : FVec Ideal S64 .f32) (m ((c : Thread nD τ).loc main_arg6) : FVec Ideal S3x64x64 .f32) (m ((c : Thread nD τ).loc main_arg7) : FVec Ideal S3x64 .f32)) (m ((c : Thread nD τ).loc main_arg1) : IVec S2x1200000 32) := by
  show StableHlo.after hostOps3 (W6 m ρ c) (Proc.devRef .tc main_v53) = _
  dsimp only [hostOps3]
  after_results_simp
  rw [K6_main_v42 m ρ c, K6_main_v1 m ρ c, K6_main_v3 m ρ c, Gnn.extf_id]
  rfl

theorem K7_main_v56 (c : Dev nD) : W7 m ρ c (Proc.devRef .tc main_v56) = Gnn.rowOf (Gnn.biasVec2 (m ((c : Thread nD τ).loc main_arg7) : FVec Ideal S3x64 .f32)) := by
  show StableHlo.after hostOps3 (W6 m ρ c) (Proc.devRef .tc main_v56) = _
  dsimp only [hostOps3]
  after_results
  rw [K6_main_arg7 m ρ c]
  exact Gnn.shapeCast_row _ _

theorem K7_main_v57 (c : Dev nD) : W7 m ρ c (Proc.devRef .tc main_v57) = Gnn.rowOf (m ((c : Thread nD τ).loc main_arg9) : FVec Ideal S256 .f32) := by
  show StableHlo.after hostOps3 (W6 m ρ c) (Proc.devRef .tc main_v57) = _
  dsimp only [hostOps3]
  after_results
  rw [K6_main_arg9 m ρ c]
  exact Gnn.shapeCast_row _ _

theorem K7_main_v58 (c : Dev nD) : W7 m ρ c (Proc.devRef .tc main_v58) = Gnn.rowOf (m ((c : Thread nD τ).loc main_arg11) : FVec Ideal S40 .f32) := by
  show StableHlo.after hostOps3 (W6 m ρ c) (Proc.devRef .tc main_v58) = _
  dsimp only [hostOps3]
  after_results
  rw [K6_main_arg11 m ρ c]
  exact Gnn.shapeCast_row _ _

/-! ## After region 3: the result -/

/-- The result buffer at the last boundary is the network of the launch memory's argument arrays. -/
theorem K8_main_v59 (c : Dev nD) : W8 m ρ c (Proc.devRef .tc main_v59) = Gnn.net (m ((c : Thread nD τ).loc main_arg0) : FVec Ideal S100000x128 .f32) (m ((c : Thread nD τ).loc main_arg1) : IVec S2x1200000 32) (m ((c : Thread nD τ).loc main_arg2) : FVec Ideal S128x256 .f32) (m ((c : Thread nD τ).loc main_arg3) : FVec Ideal S256 .f32) (m ((c : Thread nD τ).loc main_arg4) : FVec Ideal S256x64 .f32) (m ((c : Thread nD τ).loc main_arg5) : FVec Ideal S64 .f32) (m ((c : Thread nD τ).loc main_arg6) : FVec Ideal S3x64x64 .f32) (m ((c : Thread nD τ).loc main_arg7) : FVec Ideal S3x64 .f32) (m ((c : Thread nD τ).loc main_arg8) : FVec Ideal S64x256 .f32) (m ((c : Thread nD τ).loc main_arg9) : FVec Ideal S256 .f32) (m ((c : Thread nD τ).loc main_arg10) : FVec Ideal S256x40 .f32) (m ((c : Thread nD τ).loc main_arg11) : FVec Ideal S40 .f32) := by
  refine (W8_arr m ρ c 6).trans ((GnnBlocks.final3 (V7 m ρ) c).trans ?_)
  show Gnn.dec (W7 m ρ c (Proc.devRef .tc main_v53) : S100000x64.Idx → EReal) (W7 m ρ c (Proc.devRef .tc main_v56) : S1x64.Idx → EReal) (W7 m ρ c (Proc.devRef .tc main_arg8) : S64x256.Idx → EReal) (W7 m ρ c (Proc.devRef .tc main_v57) : S1x256.Idx → EReal) (W7 m ρ c (Proc.devRef .tc main_arg10) : S256x40.Idx → EReal) (W7 m ρ c (Proc.devRef .tc main_v58) : S1x40.Idx → EReal) = _
  rw [K7_main_v53 m ρ c, K7_main_v56 m ρ c, K7_main_arg8 m ρ c, K7_main_v57 m ρ c, K7_main_arg10 m ρ c, K7_main_v58 m ρ c]
  exact (Gnn.net_eq_dec _ _ _ _ _ _ _ _ _ _ _ _).symm

end Cert.KernelIdeal.GnnFold

end
-- ==== Proof.KValue.lean ====
/-
  The kernel program's run with its result as the network of the arguments.

  The run ends with the result buffer at the last boundary's contents (KRun); at the last boundary that buffer holds the
  network of the launch memory's argument arrays (KFold).
-/
import proofs.«156270_j22093311771370_2_alg».proof.Proof.KRun
import proofs.«156270_j22093311771370_2_alg».proof.Proof.KFold

noncomputable section

namespace Cert.KernelIdeal.GnnValue

open Cert.KernelIdeal Cert.KernelIdeal.Gen
open Idealize.ShloMosaic Idealize.ShloMosaic.TcCoe Idealize.ShloMosaic.ValueIdx
open Idealize.SL Idealize.SL.Sem

/-- Every weakly fair execution of the idealized kernel program terminates; its result is the network of the
    arguments, and the arguments end as launched. -/
theorem run_net (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v59) = Gnn.net (m ((c : Thread nD τ).loc main_arg0) : FVec Ideal S100000x128 .f32) (m ((c : Thread nD τ).loc main_arg1) : IVec S2x1200000 32) (m ((c : Thread nD τ).loc main_arg2) : FVec Ideal S128x256 .f32) (m ((c : Thread nD τ).loc main_arg3) : FVec Ideal S256 .f32) (m ((c : Thread nD τ).loc main_arg4) : FVec Ideal S256x64 .f32) (m ((c : Thread nD τ).loc main_arg5) : FVec Ideal S64 .f32) (m ((c : Thread nD τ).loc main_arg6) : FVec Ideal S3x64x64 .f32) (m ((c : Thread nD τ).loc main_arg7) : FVec Ideal S3x64 .f32) (m ((c : Thread nD τ).loc main_arg8) : FVec Ideal S64x256 .f32) (m ((c : Thread nD τ).loc main_arg9) : FVec Ideal S256 .f32) (m ((c : Thread nD τ).loc main_arg10) : FVec Ideal S256x40 .f32) (m ((c : Thread nD τ).loc main_arg11) : FVec Ideal S40 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (GnnFold.K8_main_v59 m ρ c), (h c).2⟩) (GnnRun.run (F := Ideal) m ρ)

end Cert.KernelIdeal.GnnValue

end
-- ==== Proof.RefRun.lean ====
/-
  The reference program's run.

  @main of the reference is a straight line of 113 host operations (the bodies of the rectifier and of the log-softmax
  stand at their call sites). Every weakly fair execution of it terminates, and each buffer ends at the fold of the
  operations' results over the launch contents. The line is cut into five stretches — the encoder and the first
  weight product; the first, second and third neighbourhood sums, each followed by its bias, rectifier and next product
  (the third by the decoder's two dense layers); the log-softmax — and the fold is stated stretch after stretch, so that
  each stretch is read by itself from the contents the stretch before it leaves.
-/
import proofs.«156270_j22093311771370_2_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev opsAll : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    binary main_arg0 main_arg2 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v7) (TRef.of (T := ⟨S100000x256, .f32⟩) main_call0_v0) (TRef.of (T := ⟨S100000x256, .f32⟩) main_v8) maximumf,
    binary main_v8 main_arg4 main_v9 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg5 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    unary main_arg6 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v13 main_v14 rfl shapeCasts_S1x64x64_S64x64,
    binary main_v12 main_v14 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c (constantI S_ 32 0#32),
    unary main_c main_v16 (broadcastInDim S1200000 ![] bcast_S_S1200000 : (⟨S_, .i32⟩ : BufTy).Contents (Elt F) → (⟨S1200000, .i32⟩ : BufTy).Contents (Elt F)),
    binary main_v1 main_v16 main_v17 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v18 (broadcastInDim S1200000 ![] bcast_S_S1200000 : (⟨S_, .i32⟩ : BufTy).Contents (Elt F) → (⟨S1200000, .i32⟩ : BufTy).Contents (Elt F)),
    binary main_v1 main_v18 main_v19 (addi : (⟨S1200000, .i32⟩ : BufTy).Contents (Elt F) → (⟨S1200000, .i32⟩ : BufTy).Contents (Elt F) → (⟨S1200000, .i32⟩ : BufTy).Contents (Elt F)),
    ternary main_v17 main_v19 main_v1 main_v20 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v20 main_v21 (broadcastInDim S1200000x1 ![0] bcast_S1200000_S1200000x1_0 : (⟨S1200000, .i32⟩ : BufTy).Contents (Elt F) → (⟨S1200000x1, .i32⟩ : BufTy).Contents (Elt F)),
    binary main_v15 main_v21 main_v22 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    unary main_cst main_v23 (broadcastInDim S100000x64 ![] bcast_S_S100000x64 : (⟨S_, .f32⟩ : BufTy).Contents (Elt F) → (⟨S100000x64, .f32⟩ : BufTy).Contents (Elt F)),
    unary main_v3 main_v24 (broadcastInDim S1200000x1 ![0] bcast_S1200000_S1200000x1_0 : (⟨S1200000, .i32⟩ : BufTy).Contents (Elt F) → (⟨S1200000x1, .i32⟩ : BufTy).Contents (Elt F)),
    ternary main_v23 main_v24 main_v22 main_v25 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_v27 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v25 main_v29 main_v30 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v30) (TRef.of (T := ⟨S100000x64, .f32⟩) main_call1_v0) (TRef.of (T := ⟨S100000x64, .f32⟩) main_v31) maximumf,
    unary main_arg6 main_v32 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v32 main_v33 rfl shapeCasts_S1x64x64_S64x64,
    binary main_v31 main_v33 main_v34 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_1 (constantI S_ 32 0#32),
    unary main_c_1 main_v35 (broadcastInDim S1200000 ![] bcast_S_S1200000 : (⟨S_, .i32⟩ : BufTy).Contents (Elt F) → (⟨S1200000, .i32⟩ : BufTy).Contents (Elt F)),
    binary main_v1 main_v35 main_v36 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 100000#32),
    unary main_c_2 main_v37 (broadcastInDim S1200000 ![] bcast_S_S1200000 : (⟨S_, .i32⟩ : BufTy).Contents (Elt F) → (⟨S1200000, .i32⟩ : BufTy).Contents (Elt F)),
    binary main_v1 main_v37 main_v38 (addi : (⟨S1200000, .i32⟩ : BufTy).Contents (Elt F) → (⟨S1200000, .i32⟩ : BufTy).Contents (Elt F) → (⟨S1200000, .i32⟩ : BufTy).Contents (Elt F)),
    ternary main_v36 main_v38 main_v1 main_v39 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v39 main_v40 (broadcastInDim S1200000x1 ![0] bcast_S1200000_S1200000x1_0 : (⟨S1200000, .i32⟩ : BufTy).Contents (Elt F) → (⟨S1200000x1, .i32⟩ : BufTy).Contents (Elt F)),
    binary main_v34 main_v40 main_v41 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_3 (constant S_ .f32 0x00000000#32),
    unary main_cst_3 main_v42 (broadcastInDim S100000x64 ![] bcast_S_S100000x64 : (⟨S_, .f32⟩ : BufTy).Contents (Elt F) → (⟨S100000x64, .f32⟩ : BufTy).Contents (Elt F)),
    unary main_v3 main_v43 (broadcastInDim S1200000x1 ![0] bcast_S1200000_S1200000x1_0 : (⟨S1200000, .i32⟩ : BufTy).Contents (Elt F) → (⟨S1200000x1, .i32⟩ : BufTy).Contents (Elt F)),
    ternary main_v42 main_v43 main_v41 main_v44 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v45 ((extractStridedSlice S1x64 ![1, 0] · slices_S3x64_S1x64_1_0) : (⟨S3x64, .f32⟩ : BufTy).Contents (Elt F) → (⟨S1x64, .f32⟩ : BufTy).Contents (Elt F)),
    reshape main_v45 main_v46 rfl shapeCasts_S1x64_S64,
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v44 main_v48 main_v49 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v49) (TRef.of (T := ⟨S100000x64, .f32⟩) main_call2_v0) (TRef.of (T := ⟨S100000x64, .f32⟩) main_v50) maximumf,
    unary main_arg6 main_v51 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v51 main_v52 rfl shapeCasts_S1x64x64_S64x64,
    binary main_v50 main_v52 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_4 (constantI S_ 32 0#32),
    unary main_c_4 main_v54 (broadcastInDim S1200000 ![] bcast_S_S1200000 : (⟨S_, .i32⟩ : BufTy).Contents (Elt F) → (⟨S1200000, .i32⟩ : BufTy).Contents (Elt F)),
    binary main_v1 main_v54 main_v55 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v56 (broadcastInDim S1200000 ![] bcast_S_S1200000 : (⟨S_, .i32⟩ : BufTy).Contents (Elt F) → (⟨S1200000, .i32⟩ : BufTy).Contents (Elt F)),
    binary main_v1 main_v56 main_v57 (addi : (⟨S1200000, .i32⟩ : BufTy).Contents (Elt F) → (⟨S1200000, .i32⟩ : BufTy).Contents (Elt F) → (⟨S1200000, .i32⟩ : BufTy).Contents (Elt F)),
    ternary main_v55 main_v57 main_v1 main_v58 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v58 main_v59 (broadcastInDim S1200000x1 ![0] bcast_S1200000_S1200000x1_0 : (⟨S1200000, .i32⟩ : BufTy).Contents (Elt F) → (⟨S1200000x1, .i32⟩ : BufTy).Contents (Elt F)),
    binary main_v53 main_v59 main_v60 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_6 (constant S_ .f32 0x00000000#32),
    unary main_cst_6 main_v61 (broadcastInDim S100000x64 ![] bcast_S_S100000x64 : (⟨S_, .f32⟩ : BufTy).Contents (Elt F) → (⟨S100000x64, .f32⟩ : BufTy).Contents (Elt F)),
    unary main_v3 main_v62 (broadcastInDim S1200000x1 ![0] bcast_S1200000_S1200000x1_0 : (⟨S1200000, .i32⟩ : BufTy).Contents (Elt F) → (⟨S1200000x1, .i32⟩ : BufTy).Contents (Elt F)),
    ternary main_v61 main_v62 main_v60 main_v63 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v64 ((extractStridedSlice S1x64 ![2, 0] · slices_S3x64_S1x64_2_0) : (⟨S3x64, .f32⟩ : BufTy).Contents (Elt F) → (⟨S1x64, .f32⟩ : BufTy).Contents (Elt F)),
    reshape main_v64 main_v65 rfl shapeCasts_S1x64_S64,
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v63 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v68) (TRef.of (T := ⟨S100000x64, .f32⟩) main_call3_v0) (TRef.of (T := ⟨S100000x64, .f32⟩) main_v69) maximumf,
    binary main_v69 main_arg8 main_v70 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    unary main_arg9 main_v71 (broadcastInDim S1x256 ![1] bcast_S256_S1x256_1 : (⟨S256, .f32⟩ : BufTy).Contents (Elt F) → (⟨S1x256, .f32⟩ : BufTy).Contents (Elt F)),
    unary main_v71 main_v72 (broadcastInDim S100000x256 ![0, 1] bcast_S1x256_S100000x256_0_1 : (⟨S1x256, .f32⟩ : BufTy).Contents (Elt F) → (⟨S100000x256, .f32⟩ : BufTy).Contents (Elt F)),
    binary main_v70 main_v72 main_v73 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v73) (TRef.of (T := ⟨S100000x256, .f32⟩) main_call4_v0) (TRef.of (T := ⟨S100000x256, .f32⟩) main_v74) maximumf,
    binary main_v74 main_arg10 main_v75 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    unary main_arg11 main_v76 (broadcastInDim S1x40 ![1] bcast_S40_S1x40_1 : (⟨S40, .f32⟩ : BufTy).Contents (Elt F) → (⟨S1x40, .f32⟩ : BufTy).Contents (Elt F)),
    unary main_v76 main_v77 (broadcastInDim S100000x40 ![0, 1] bcast_S1x40_S100000x40_0_1 : (⟨S1x40, .f32⟩ : BufTy).Contents (Elt F) → (⟨S100000x40, .f32⟩ : BufTy).Contents (Elt F)),
    binary main_v75 main_v77 main_v78 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call5_cst) (constant S_ .f32 0xFF800000#32),
    TRef.binary (TRef.of (T := ⟨S100000x40, .f32⟩) main_v78) (TRef.of (T := ⟨S_, .f32⟩) main_call5_cst) (TRef.of (T := ⟨S100000, .f32⟩) main_call5_v0) (fun x v => Host.reduce FloatOps.maximumf x v reducesTo_S100000x40_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x40, .f32⟩) main_call5_v4) (broadcastInDim S100000x40 ![0, 1] bcast_S100000x1_S100000x40_0_1),
    TRef.binary (TRef.of (T := ⟨S100000x40, .f32⟩) main_v78) (TRef.of (T := ⟨S100000x40, .f32⟩) main_call5_v4) (TRef.of (T := ⟨S100000x40, .f32⟩) main_call5_v5) subf,
    TRef.unary (TRef.of (T := ⟨S100000x40, .f32⟩) main_call5_v5) (TRef.of (T := ⟨S100000x40, .f32⟩) main_call5_v6) Host.exp,
    TRef.nullary (TRef.of (T := ⟨S_, .f32⟩) main_call5_cst_1) (constant S_ .f32 0x00000000#32),
    TRef.binary (TRef.of (T := ⟨S100000x40, .f32⟩) main_call5_v6) (TRef.of (T := ⟨S_, .f32⟩) main_call5_cst_1) (TRef.of (T := ⟨S100000, .f32⟩) main_call5_v7) (fun x v => Host.reduceAdd x v reducesTo_S100000x40_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x40, .f32⟩) main_call5_v10) (broadcastInDim S100000x40 ![0, 1] bcast_S100000x1_S100000x40_0_1),
    TRef.binary (TRef.of (T := ⟨S100000x40, .f32⟩) main_call5_v5) (TRef.of (T := ⟨S100000x40, .f32⟩) main_call5_v10) (TRef.of (T := ⟨S100000x40, .f32⟩) main_v79) subf ]

/-- The edge endpoints, the encoder's two dense layers and the product with the first layer's weights. -/
abbrev ops0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    binary main_arg0 main_arg2 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    nullary main_call0_cst ((constant S_ .f32 0x00000000#32) : (⟨S_, .f32⟩ : BufTy).Contents (Elt F)),
    unary main_call0_cst main_call0_v0 ((broadcastInDim S100000x256 ![] bcast_S_S100000x256) : (⟨S_, .f32⟩ : BufTy).Contents (Elt F) → (⟨S100000x256, .f32⟩ : BufTy).Contents (Elt F)),
    binary main_v7 main_call0_v0 main_v8 (maximumf : (⟨S100000x256, .f32⟩ : BufTy).Contents (Elt F) → (⟨S100000x256, .f32⟩ : BufTy).Contents (Elt F) → (⟨S100000x256, .f32⟩ : BufTy).Contents (Elt F)),
    binary main_v8 main_arg4 main_v9 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg5 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    unary main_arg6 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v13 main_v14 rfl shapeCasts_S1x64x64_S64x64,
    binary main_v12 main_v14 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The first neighbourhood sum, its bias and rectifier, the product with the second layer's weights. -/
abbrev ops1 : List (HloOp τ sig (Elt F)) :=
  [ nullary main_c (constantI S_ 32 0#32),
    unary main_c main_v16 (broadcastInDim S1200000 ![] bcast_S_S1200000 : (⟨S_, .i32⟩ : BufTy).Contents (Elt F) → (⟨S1200000, .i32⟩ : BufTy).Contents (Elt F)),
    binary main_v1 main_v16 main_v17 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v18 (broadcastInDim S1200000 ![] bcast_S_S1200000 : (⟨S_, .i32⟩ : BufTy).Contents (Elt F) → (⟨S1200000, .i32⟩ : BufTy).Contents (Elt F)),
    binary main_v1 main_v18 main_v19 (addi : (⟨S1200000, .i32⟩ : BufTy).Contents (Elt F) → (⟨S1200000, .i32⟩ : BufTy).Contents (Elt F) → (⟨S1200000, .i32⟩ : BufTy).Contents (Elt F)),
    ternary main_v17 main_v19 main_v1 main_v20 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v20 main_v21 (broadcastInDim S1200000x1 ![0] bcast_S1200000_S1200000x1_0 : (⟨S1200000, .i32⟩ : BufTy).Contents (Elt F) → (⟨S1200000x1, .i32⟩ : BufTy).Contents (Elt F)),
    binary main_v15 main_v21 main_v22 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    unary main_cst main_v23 (broadcastInDim S100000x64 ![] bcast_S_S100000x64 : (⟨S_, .f32⟩ : BufTy).Contents (Elt F) → (⟨S100000x64, .f32⟩ : BufTy).Contents (Elt F)),
    unary main_v3 main_v24 (broadcastInDim S1200000x1 ![0] bcast_S1200000_S1200000x1_0 : (⟨S1200000, .i32⟩ : BufTy).Contents (Elt F) → (⟨S1200000x1, .i32⟩ : BufTy).Contents (Elt F)),
    ternary main_v23 main_v24 main_v22 main_v25 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_v27 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v25 main_v29 main_v30 (addf : (⟨S100000x64, .f32⟩ : BufTy).Contents (Elt F) → (⟨S100000x64, .f32⟩ : BufTy).Contents (Elt F) → (⟨S100000x64, .f32⟩ : BufTy).Contents (Elt F)),
    nullary main_call1_cst ((constant S_ .f32 0x00000000#32) : (⟨S_, .f32⟩ : BufTy).Contents (Elt F)),
    unary main_call1_cst main_call1_v0 ((broadcastInDim S100000x64 ![] bcast_S_S100000x64) : (⟨S_, .f32⟩ : BufTy).Contents (Elt F) → (⟨S100000x64, .f32⟩ : BufTy).Contents (Elt F)),
    binary main_v30 main_call1_v0 main_v31 (maximumf : (⟨S100000x64, .f32⟩ : BufTy).Contents (Elt F) → (⟨S100000x64, .f32⟩ : BufTy).Contents (Elt F) → (⟨S100000x64, .f32⟩ : BufTy).Contents (Elt F)),
    unary main_arg6 main_v32 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v32 main_v33 rfl shapeCasts_S1x64x64_S64x64,
    binary main_v31 main_v33 main_v34 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The second neighbourhood sum, its bias and rectifier, the product with the third layer's weights. -/
abbrev ops2 : List (HloOp τ sig (Elt F)) :=
  [ nullary main_c_1 (constantI S_ 32 0#32),
    unary main_c_1 main_v35 (broadcastInDim S1200000 ![] bcast_S_S1200000 : (⟨S_, .i32⟩ : BufTy).Contents (Elt F) → (⟨S1200000, .i32⟩ : BufTy).Contents (Elt F)),
    binary main_v1 main_v35 main_v36 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 100000#32),
    unary main_c_2 main_v37 (broadcastInDim S1200000 ![] bcast_S_S1200000 : (⟨S_, .i32⟩ : BufTy).Contents (Elt F) → (⟨S1200000, .i32⟩ : BufTy).Contents (Elt F)),
    binary main_v1 main_v37 main_v38 (addi : (⟨S1200000, .i32⟩ : BufTy).Contents (Elt F) → (⟨S1200000, .i32⟩ : BufTy).Contents (Elt F) → (⟨S1200000, .i32⟩ : BufTy).Contents (Elt F)),
    ternary main_v36 main_v38 main_v1 main_v39 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v39 main_v40 (broadcastInDim S1200000x1 ![0] bcast_S1200000_S1200000x1_0 : (⟨S1200000, .i32⟩ : BufTy).Contents (Elt F) → (⟨S1200000x1, .i32⟩ : BufTy).Contents (Elt F)),
    binary main_v34 main_v40 main_v41 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_3 (constant S_ .f32 0x00000000#32),
    unary main_cst_3 main_v42 (broadcastInDim S100000x64 ![] bcast_S_S100000x64 : (⟨S_, .f32⟩ : BufTy).Contents (Elt F) → (⟨S100000x64, .f32⟩ : BufTy).Contents (Elt F)),
    unary main_v3 main_v43 (broadcastInDim S1200000x1 ![0] bcast_S1200000_S1200000x1_0 : (⟨S1200000, .i32⟩ : BufTy).Contents (Elt F) → (⟨S1200000x1, .i32⟩ : BufTy).Contents (Elt F)),
    ternary main_v42 main_v43 main_v41 main_v44 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v45 ((extractStridedSlice S1x64 ![1, 0] · slices_S3x64_S1x64_1_0) : (⟨S3x64, .f32⟩ : BufTy).Contents (Elt F) → (⟨S1x64, .f32⟩ : BufTy).Contents (Elt F)),
    reshape main_v45 main_v46 rfl shapeCasts_S1x64_S64,
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v44 main_v48 main_v49 (addf : (⟨S100000x64, .f32⟩ : BufTy).Contents (Elt F) → (⟨S100000x64, .f32⟩ : BufTy).Contents (Elt F) → (⟨S100000x64, .f32⟩ : BufTy).Contents (Elt F)),
    nullary main_call2_cst ((constant S_ .f32 0x00000000#32) : (⟨S_, .f32⟩ : BufTy).Contents (Elt F)),
    unary main_call2_cst main_call2_v0 ((broadcastInDim S100000x64 ![] bcast_S_S100000x64) : (⟨S_, .f32⟩ : BufTy).Contents (Elt F) → (⟨S100000x64, .f32⟩ : BufTy).Contents (Elt F)),
    binary main_v49 main_call2_v0 main_v50 (maximumf : (⟨S100000x64, .f32⟩ : BufTy).Contents (Elt F) → (⟨S100000x64, .f32⟩ : BufTy).Contents (Elt F) → (⟨S100000x64, .f32⟩ : BufTy).Contents (Elt F)),
    unary main_arg6 main_v51 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v51 main_v52 rfl shapeCasts_S1x64x64_S64x64,
    binary main_v50 main_v52 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The third neighbourhood sum, its bias and rectifier, the decoder's two dense layers. -/
abbrev ops3 : List (HloOp τ sig (Elt F)) :=
  [ nullary main_c_4 (constantI S_ 32 0#32),
    unary main_c_4 main_v54 (broadcastInDim S1200000 ![] bcast_S_S1200000 : (⟨S_, .i32⟩ : BufTy).Contents (Elt F) → (⟨S1200000, .i32⟩ : BufTy).Contents (Elt F)),
    binary main_v1 main_v54 main_v55 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v56 (broadcastInDim S1200000 ![] bcast_S_S1200000 : (⟨S_, .i32⟩ : BufTy).Contents (Elt F) → (⟨S1200000, .i32⟩ : BufTy).Contents (Elt F)),
    binary main_v1 main_v56 main_v57 (addi : (⟨S1200000, .i32⟩ : BufTy).Contents (Elt F) → (⟨S1200000, .i32⟩ : BufTy).Contents (Elt F) → (⟨S1200000, .i32⟩ : BufTy).Contents (Elt F)),
    ternary main_v55 main_v57 main_v1 main_v58 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v58 main_v59 (broadcastInDim S1200000x1 ![0] bcast_S1200000_S1200000x1_0 : (⟨S1200000, .i32⟩ : BufTy).Contents (Elt F) → (⟨S1200000x1, .i32⟩ : BufTy).Contents (Elt F)),
    binary main_v53 main_v59 main_v60 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_6 (constant S_ .f32 0x00000000#32),
    unary main_cst_6 main_v61 (broadcastInDim S100000x64 ![] bcast_S_S100000x64 : (⟨S_, .f32⟩ : BufTy).Contents (Elt F) → (⟨S100000x64, .f32⟩ : BufTy).Contents (Elt F)),
    unary main_v3 main_v62 (broadcastInDim S1200000x1 ![0] bcast_S1200000_S1200000x1_0 : (⟨S1200000, .i32⟩ : BufTy).Contents (Elt F) → (⟨S1200000x1, .i32⟩ : BufTy).Contents (Elt F)),
    ternary main_v61 main_v62 main_v60 main_v63 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v64 ((extractStridedSlice S1x64 ![2, 0] · slices_S3x64_S1x64_2_0) : (⟨S3x64, .f32⟩ : BufTy).Contents (Elt F) → (⟨S1x64, .f32⟩ : BufTy).Contents (Elt F)),
    reshape main_v64 main_v65 rfl shapeCasts_S1x64_S64,
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v63 main_v67 main_v68 (addf : (⟨S100000x64, .f32⟩ : BufTy).Contents (Elt F) → (⟨S100000x64, .f32⟩ : BufTy).Contents (Elt F) → (⟨S100000x64, .f32⟩ : BufTy).Contents (Elt F)),
    nullary main_call3_cst ((constant S_ .f32 0x00000000#32) : (⟨S_, .f32⟩ : BufTy).Contents (Elt F)),
    unary main_call3_cst main_call3_v0 ((broadcastInDim S100000x64 ![] bcast_S_S100000x64) : (⟨S_, .f32⟩ : BufTy).Contents (Elt F) → (⟨S100000x64, .f32⟩ : BufTy).Contents (Elt F)),
    binary main_v68 main_call3_v0 main_v69 (maximumf : (⟨S100000x64, .f32⟩ : BufTy).Contents (Elt F) → (⟨S100000x64, .f32⟩ : BufTy).Contents (Elt F) → (⟨S100000x64, .f32⟩ : BufTy).Contents (Elt F)),
    binary main_v69 main_arg8 main_v70 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    unary main_arg9 main_v71 (broadcastInDim S1x256 ![1] bcast_S256_S1x256_1 : (⟨S256, .f32⟩ : BufTy).Contents (Elt F) → (⟨S1x256, .f32⟩ : BufTy).Contents (Elt F)),
    unary main_v71 main_v72 (broadcastInDim S100000x256 ![0, 1] bcast_S1x256_S100000x256_0_1 : (⟨S1x256, .f32⟩ : BufTy).Contents (Elt F) → (⟨S100000x256, .f32⟩ : BufTy).Contents (Elt F)),
    binary main_v70 main_v72 main_v73 (addf : (⟨S100000x256, .f32⟩ : BufTy).Contents (Elt F) → (⟨S100000x256, .f32⟩ : BufTy).Contents (Elt F) → (⟨S100000x256, .f32⟩ : BufTy).Contents (Elt F)),
    nullary main_call4_cst ((constant S_ .f32 0x00000000#32) : (⟨S_, .f32⟩ : BufTy).Contents (Elt F)),
    unary main_call4_cst main_call4_v0 ((broadcastInDim S100000x256 ![] bcast_S_S100000x256) : (⟨S_, .f32⟩ : BufTy).Contents (Elt F) → (⟨S100000x256, .f32⟩ : BufTy).Contents (Elt F)),
    binary main_v73 main_call4_v0 main_v74 (maximumf : (⟨S100000x256, .f32⟩ : BufTy).Contents (Elt F) → (⟨S100000x256, .f32⟩ : BufTy).Contents (Elt F) → (⟨S100000x256, .f32⟩ : BufTy).Contents (Elt F)),
    binary main_v74 main_arg10 main_v75 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    unary main_arg11 main_v76 (broadcastInDim S1x40 ![1] bcast_S40_S1x40_1 : (⟨S40, .f32⟩ : BufTy).Contents (Elt F) → (⟨S1x40, .f32⟩ : BufTy).Contents (Elt F)),
    unary main_v76 main_v77 (broadcastInDim S100000x40 ![0, 1] bcast_S1x40_S100000x40_0_1 : (⟨S1x40, .f32⟩ : BufTy).Contents (Elt F) → (⟨S100000x40, .f32⟩ : BufTy).Contents (Elt F)),
    binary main_v75 main_v77 main_v78 (addf : (⟨S100000x40, .f32⟩ : BufTy).Contents (Elt F) → (⟨S100000x40, .f32⟩ : BufTy).Contents (Elt F) → (⟨S100000x40, .f32⟩ : BufTy).Contents (Elt F)) ]

/-- The log-softmax over the classes. -/
abbrev ops4 : List (HloOp τ sig (Elt F)) :=
  [ nullary main_call5_cst ((constant S_ .f32 0xFF800000#32) : (⟨S_, .f32⟩ : BufTy).Contents (Elt F)),
    binary main_v78 main_call5_cst main_call5_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call5_cst_0 ((constant S_ .f32 0xFF800000#32) : (⟨S_, .f32⟩ : BufTy).Contents (Elt F)),
    unary main_call5_cst_0 main_call5_v1 ((broadcastInDim S100000 ![] bcast_S_S100000) : (⟨S_, .f32⟩ : BufTy).Contents (Elt F) → (⟨S100000, .f32⟩ : BufTy).Contents (Elt F)),
    binary main_call5_v1 main_call5_v0 main_call5_v2 (maximumf : (⟨S100000, .f32⟩ : BufTy).Contents (Elt F) → (⟨S100000, .f32⟩ : BufTy).Contents (Elt F) → (⟨S100000, .f32⟩ : BufTy).Contents (Elt F)),
    unary main_call5_v2 main_call5_v3 ((broadcastInDim S100000x1 ![0] bcast_S100000_S100000x1_0) : (⟨S100000, .f32⟩ : BufTy).Contents (Elt F) → (⟨S100000x1, .f32⟩ : BufTy).Contents (Elt F)),
    unary main_call5_v3 main_call5_v4 ((broadcastInDim S100000x40 ![0, 1] bcast_S100000x1_S100000x40_0_1) : (⟨S100000x1, .f32⟩ : BufTy).Contents (Elt F) → (⟨S100000x40, .f32⟩ : BufTy).Contents (Elt F)),
    binary main_v78 main_call5_v4 main_call5_v5 (subf : (⟨S100000x40, .f32⟩ : BufTy).Contents (Elt F) → (⟨S100000x40, .f32⟩ : BufTy).Contents (Elt F) → (⟨S100000x40, .f32⟩ : BufTy).Contents (Elt F)),
    unary main_call5_v5 main_call5_v6 (Host.exp : (⟨S100000x40, .f32⟩ : BufTy).Contents (Elt F) → (⟨S100000x40, .f32⟩ : BufTy).Contents (Elt F)),
    nullary main_call5_cst_1 ((constant S_ .f32 0x00000000#32) : (⟨S_, .f32⟩ : BufTy).Contents (Elt F)),
    binary main_call5_v6 main_call5_cst_1 main_call5_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call5_v7 main_call5_v8 ((broadcastInDim S100000x1 ![0] bcast_S100000_S100000x1_0) : (⟨S100000, .f32⟩ : BufTy).Contents (Elt F) → (⟨S100000x1, .f32⟩ : BufTy).Contents (Elt F)),
    unary main_call5_v8 main_call5_v9 (Host.log : (⟨S100000x1, .f32⟩ : BufTy).Contents (Elt F) → (⟨S100000x1, .f32⟩ : BufTy).Contents (Elt F)),
    unary main_call5_v9 main_call5_v10 ((broadcastInDim S100000x40 ![0, 1] bcast_S100000x1_S100000x40_0_1) : (⟨S100000x1, .f32⟩ : BufTy).Contents (Elt F) → (⟨S100000x40, .f32⟩ : BufTy).Contents (Elt F)),
    binary main_call5_v5 main_call5_v10 main_v79 (subf : (⟨S100000x40, .f32⟩ : BufTy).Contents (Elt F) → (⟨S100000x40, .f32⟩ : BufTy).Contents (Elt F) → (⟨S100000x40, .f32⟩ : BufTy).Contents (Elt F)) ]

/-- The whole line with the called functions' operations spelt with the plain builders. -/
abbrev opsPlain : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    binary main_arg0 main_arg2 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    nullary main_call0_cst ((constant S_ .f32 0x00000000#32) : (⟨S_, .f32⟩ : BufTy).Contents (Elt F)),
    unary main_call0_cst main_call0_v0 ((broadcastInDim S100000x256 ![] bcast_S_S100000x256) : (⟨S_, .f32⟩ : BufTy).Contents (Elt F) → (⟨S100000x256, .f32⟩ : BufTy).Contents (Elt F)),
    binary main_v7 main_call0_v0 main_v8 (maximumf : (⟨S100000x256, .f32⟩ : BufTy).Contents (Elt F) → (⟨S100000x256, .f32⟩ : BufTy).Contents (Elt F) → (⟨S100000x256, .f32⟩ : BufTy).Contents (Elt F)),
    binary main_v8 main_arg4 main_v9 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg5 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    unary main_arg6 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v13 main_v14 rfl shapeCasts_S1x64x64_S64x64,
    binary main_v12 main_v14 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c (constantI S_ 32 0#32),
    unary main_c main_v16 (broadcastInDim S1200000 ![] bcast_S_S1200000 : (⟨S_, .i32⟩ : BufTy).Contents (Elt F) → (⟨S1200000, .i32⟩ : BufTy).Contents (Elt F)),
    binary main_v1 main_v16 main_v17 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v18 (broadcastInDim S1200000 ![] bcast_S_S1200000 : (⟨S_, .i32⟩ : BufTy).Contents (Elt F) → (⟨S1200000, .i32⟩ : BufTy).Contents (Elt F)),
    binary main_v1 main_v18 main_v19 (addi : (⟨S1200000, .i32⟩ : BufTy).Contents (Elt F) → (⟨S1200000, .i32⟩ : BufTy).Contents (Elt F) → (⟨S1200000, .i32⟩ : BufTy).Contents (Elt F)),
    ternary main_v17 main_v19 main_v1 main_v20 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v20 main_v21 (broadcastInDim S1200000x1 ![0] bcast_S1200000_S1200000x1_0 : (⟨S1200000, .i32⟩ : BufTy).Contents (Elt F) → (⟨S1200000x1, .i32⟩ : BufTy).Contents (Elt F)),
    binary main_v15 main_v21 main_v22 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst (constant S_ .f32 0x00000000#32),
    unary main_cst main_v23 (broadcastInDim S100000x64 ![] bcast_S_S100000x64 : (⟨S_, .f32⟩ : BufTy).Contents (Elt F) → (⟨S100000x64, .f32⟩ : BufTy).Contents (Elt F)),
    unary main_v3 main_v24 (broadcastInDim S1200000x1 ![0] bcast_S1200000_S1200000x1_0 : (⟨S1200000, .i32⟩ : BufTy).Contents (Elt F) → (⟨S1200000x1, .i32⟩ : BufTy).Contents (Elt F)),
    ternary main_v23 main_v24 main_v22 main_v25 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_v27 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v25 main_v29 main_v30 (addf : (⟨S100000x64, .f32⟩ : BufTy).Contents (Elt F) → (⟨S100000x64, .f32⟩ : BufTy).Contents (Elt F) → (⟨S100000x64, .f32⟩ : BufTy).Contents (Elt F)),
    nullary main_call1_cst ((constant S_ .f32 0x00000000#32) : (⟨S_, .f32⟩ : BufTy).Contents (Elt F)),
    unary main_call1_cst main_call1_v0 ((broadcastInDim S100000x64 ![] bcast_S_S100000x64) : (⟨S_, .f32⟩ : BufTy).Contents (Elt F) → (⟨S100000x64, .f32⟩ : BufTy).Contents (Elt F)),
    binary main_v30 main_call1_v0 main_v31 (maximumf : (⟨S100000x64, .f32⟩ : BufTy).Contents (Elt F) → (⟨S100000x64, .f32⟩ : BufTy).Contents (Elt F) → (⟨S100000x64, .f32⟩ : BufTy).Contents (Elt F)),
    unary main_arg6 main_v32 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v32 main_v33 rfl shapeCasts_S1x64x64_S64x64,
    binary main_v31 main_v33 main_v34 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_1 (constantI S_ 32 0#32),
    unary main_c_1 main_v35 (broadcastInDim S1200000 ![] bcast_S_S1200000 : (⟨S_, .i32⟩ : BufTy).Contents (Elt F) → (⟨S1200000, .i32⟩ : BufTy).Contents (Elt F)),
    binary main_v1 main_v35 main_v36 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 100000#32),
    unary main_c_2 main_v37 (broadcastInDim S1200000 ![] bcast_S_S1200000 : (⟨S_, .i32⟩ : BufTy).Contents (Elt F) → (⟨S1200000, .i32⟩ : BufTy).Contents (Elt F)),
    binary main_v1 main_v37 main_v38 (addi : (⟨S1200000, .i32⟩ : BufTy).Contents (Elt F) → (⟨S1200000, .i32⟩ : BufTy).Contents (Elt F) → (⟨S1200000, .i32⟩ : BufTy).Contents (Elt F)),
    ternary main_v36 main_v38 main_v1 main_v39 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v39 main_v40 (broadcastInDim S1200000x1 ![0] bcast_S1200000_S1200000x1_0 : (⟨S1200000, .i32⟩ : BufTy).Contents (Elt F) → (⟨S1200000x1, .i32⟩ : BufTy).Contents (Elt F)),
    binary main_v34 main_v40 main_v41 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_3 (constant S_ .f32 0x00000000#32),
    unary main_cst_3 main_v42 (broadcastInDim S100000x64 ![] bcast_S_S100000x64 : (⟨S_, .f32⟩ : BufTy).Contents (Elt F) → (⟨S100000x64, .f32⟩ : BufTy).Contents (Elt F)),
    unary main_v3 main_v43 (broadcastInDim S1200000x1 ![0] bcast_S1200000_S1200000x1_0 : (⟨S1200000, .i32⟩ : BufTy).Contents (Elt F) → (⟨S1200000x1, .i32⟩ : BufTy).Contents (Elt F)),
    ternary main_v42 main_v43 main_v41 main_v44 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v45 ((extractStridedSlice S1x64 ![1, 0] · slices_S3x64_S1x64_1_0) : (⟨S3x64, .f32⟩ : BufTy).Contents (Elt F) → (⟨S1x64, .f32⟩ : BufTy).Contents (Elt F)),
    reshape main_v45 main_v46 rfl shapeCasts_S1x64_S64,
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v44 main_v48 main_v49 (addf : (⟨S100000x64, .f32⟩ : BufTy).Contents (Elt F) → (⟨S100000x64, .f32⟩ : BufTy).Contents (Elt F) → (⟨S100000x64, .f32⟩ : BufTy).Contents (Elt F)),
    nullary main_call2_cst ((constant S_ .f32 0x00000000#32) : (⟨S_, .f32⟩ : BufTy).Contents (Elt F)),
    unary main_call2_cst main_call2_v0 ((broadcastInDim S100000x64 ![] bcast_S_S100000x64) : (⟨S_, .f32⟩ : BufTy).Contents (Elt F) → (⟨S100000x64, .f32⟩ : BufTy).Contents (Elt F)),
    binary main_v49 main_call2_v0 main_v50 (maximumf : (⟨S100000x64, .f32⟩ : BufTy).Contents (Elt F) → (⟨S100000x64, .f32⟩ : BufTy).Contents (Elt F) → (⟨S100000x64, .f32⟩ : BufTy).Contents (Elt F)),
    unary main_arg6 main_v51 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v51 main_v52 rfl shapeCasts_S1x64x64_S64x64,
    binary main_v50 main_v52 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_4 (constantI S_ 32 0#32),
    unary main_c_4 main_v54 (broadcastInDim S1200000 ![] bcast_S_S1200000 : (⟨S_, .i32⟩ : BufTy).Contents (Elt F) → (⟨S1200000, .i32⟩ : BufTy).Contents (Elt F)),
    binary main_v1 main_v54 main_v55 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v56 (broadcastInDim S1200000 ![] bcast_S_S1200000 : (⟨S_, .i32⟩ : BufTy).Contents (Elt F) → (⟨S1200000, .i32⟩ : BufTy).Contents (Elt F)),
    binary main_v1 main_v56 main_v57 (addi : (⟨S1200000, .i32⟩ : BufTy).Contents (Elt F) → (⟨S1200000, .i32⟩ : BufTy).Contents (Elt F) → (⟨S1200000, .i32⟩ : BufTy).Contents (Elt F)),
    ternary main_v55 main_v57 main_v1 main_v58 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v58 main_v59 (broadcastInDim S1200000x1 ![0] bcast_S1200000_S1200000x1_0 : (⟨S1200000, .i32⟩ : BufTy).Contents (Elt F) → (⟨S1200000x1, .i32⟩ : BufTy).Contents (Elt F)),
    binary main_v53 main_v59 main_v60 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_6 (constant S_ .f32 0x00000000#32),
    unary main_cst_6 main_v61 (broadcastInDim S100000x64 ![] bcast_S_S100000x64 : (⟨S_, .f32⟩ : BufTy).Contents (Elt F) → (⟨S100000x64, .f32⟩ : BufTy).Contents (Elt F)),
    unary main_v3 main_v62 (broadcastInDim S1200000x1 ![0] bcast_S1200000_S1200000x1_0 : (⟨S1200000, .i32⟩ : BufTy).Contents (Elt F) → (⟨S1200000x1, .i32⟩ : BufTy).Contents (Elt F)),
    ternary main_v61 main_v62 main_v60 main_v63 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_arg7 main_v64 ((extractStridedSlice S1x64 ![2, 0] · slices_S3x64_S1x64_2_0) : (⟨S3x64, .f32⟩ : BufTy).Contents (Elt F) → (⟨S1x64, .f32⟩ : BufTy).Contents (Elt F)),
    reshape main_v64 main_v65 rfl shapeCasts_S1x64_S64,
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v63 main_v67 main_v68 (addf : (⟨S100000x64, .f32⟩ : BufTy).Contents (Elt F) → (⟨S100000x64, .f32⟩ : BufTy).Contents (Elt F) → (⟨S100000x64, .f32⟩ : BufTy).Contents (Elt F)),
    nullary main_call3_cst ((constant S_ .f32 0x00000000#32) : (⟨S_, .f32⟩ : BufTy).Contents (Elt F)),
    unary main_call3_cst main_call3_v0 ((broadcastInDim S100000x64 ![] bcast_S_S100000x64) : (⟨S_, .f32⟩ : BufTy).Contents (Elt F) → (⟨S100000x64, .f32⟩ : BufTy).Contents (Elt F)),
    binary main_v68 main_call3_v0 main_v69 (maximumf : (⟨S100000x64, .f32⟩ : BufTy).Contents (Elt F) → (⟨S100000x64, .f32⟩ : BufTy).Contents (Elt F) → (⟨S100000x64, .f32⟩ : BufTy).Contents (Elt F)),
    binary main_v69 main_arg8 main_v70 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    unary main_arg9 main_v71 (broadcastInDim S1x256 ![1] bcast_S256_S1x256_1 : (⟨S256, .f32⟩ : BufTy).Contents (Elt F) → (⟨S1x256, .f32⟩ : BufTy).Contents (Elt F)),
    unary main_v71 main_v72 (broadcastInDim S100000x256 ![0, 1] bcast_S1x256_S100000x256_0_1 : (⟨S1x256, .f32⟩ : BufTy).Contents (Elt F) → (⟨S100000x256, .f32⟩ : BufTy).Contents (Elt F)),
    binary main_v70 main_v72 main_v73 (addf : (⟨S100000x256, .f32⟩ : BufTy).Contents (Elt F) → (⟨S100000x256, .f32⟩ : BufTy).Contents (Elt F) → (⟨S100000x256, .f32⟩ : BufTy).Contents (Elt F)),
    nullary main_call4_cst ((constant S_ .f32 0x00000000#32) : (⟨S_, .f32⟩ : BufTy).Contents (Elt F)),
    unary main_call4_cst main_call4_v0 ((broadcastInDim S100000x256 ![] bcast_S_S100000x256) : (⟨S_, .f32⟩ : BufTy).Contents (Elt F) → (⟨S100000x256, .f32⟩ : BufTy).Contents (Elt F)),
    binary main_v73 main_call4_v0 main_v74 (maximumf : (⟨S100000x256, .f32⟩ : BufTy).Contents (Elt F) → (⟨S100000x256, .f32⟩ : BufTy).Contents (Elt F) → (⟨S100000x256, .f32⟩ : BufTy).Contents (Elt F)),
    binary main_v74 main_arg10 main_v75 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    unary main_arg11 main_v76 (broadcastInDim S1x40 ![1] bcast_S40_S1x40_1 : (⟨S40, .f32⟩ : BufTy).Contents (Elt F) → (⟨S1x40, .f32⟩ : BufTy).Contents (Elt F)),
    unary main_v76 main_v77 (broadcastInDim S100000x40 ![0, 1] bcast_S1x40_S100000x40_0_1 : (⟨S1x40, .f32⟩ : BufTy).Contents (Elt F) → (⟨S100000x40, .f32⟩ : BufTy).Contents (Elt F)),
    binary main_v75 main_v77 main_v78 (addf : (⟨S100000x40, .f32⟩ : BufTy).Contents (Elt F) → (⟨S100000x40, .f32⟩ : BufTy).Contents (Elt F) → (⟨S100000x40, .f32⟩ : BufTy).Contents (Elt F)),
    nullary main_call5_cst ((constant S_ .f32 0xFF800000#32) : (⟨S_, .f32⟩ : BufTy).Contents (Elt F)),
    binary main_v78 main_call5_cst main_call5_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call5_cst_0 ((constant S_ .f32 0xFF800000#32) : (⟨S_, .f32⟩ : BufTy).Contents (Elt F)),
    unary main_call5_cst_0 main_call5_v1 ((broadcastInDim S100000 ![] bcast_S_S100000) : (⟨S_, .f32⟩ : BufTy).Contents (Elt F) → (⟨S100000, .f32⟩ : BufTy).Contents (Elt F)),
    binary main_call5_v1 main_call5_v0 main_call5_v2 (maximumf : (⟨S100000, .f32⟩ : BufTy).Contents (Elt F) → (⟨S100000, .f32⟩ : BufTy).Contents (Elt F) → (⟨S100000, .f32⟩ : BufTy).Contents (Elt F)),
    unary main_call5_v2 main_call5_v3 ((broadcastInDim S100000x1 ![0] bcast_S100000_S100000x1_0) : (⟨S100000, .f32⟩ : BufTy).Contents (Elt F) → (⟨S100000x1, .f32⟩ : BufTy).Contents (Elt F)),
    unary main_call5_v3 main_call5_v4 ((broadcastInDim S100000x40 ![0, 1] bcast_S100000x1_S100000x40_0_1) : (⟨S100000x1, .f32⟩ : BufTy).Contents (Elt F) → (⟨S100000x40, .f32⟩ : BufTy).Contents (Elt F)),
    binary main_v78 main_call5_v4 main_call5_v5 (subf : (⟨S100000x40, .f32⟩ : BufTy).Contents (Elt F) → (⟨S100000x40, .f32⟩ : BufTy).Contents (Elt F) → (⟨S100000x40, .f32⟩ : BufTy).Contents (Elt F)),
    unary main_call5_v5 main_call5_v6 (Host.exp : (⟨S100000x40, .f32⟩ : BufTy).Contents (Elt F) → (⟨S100000x40, .f32⟩ : BufTy).Contents (Elt F)),
    nullary main_call5_cst_1 ((constant S_ .f32 0x00000000#32) : (⟨S_, .f32⟩ : BufTy).Contents (Elt F)),
    binary main_call5_v6 main_call5_cst_1 main_call5_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call5_v7 main_call5_v8 ((broadcastInDim S100000x1 ![0] bcast_S100000_S100000x1_0) : (⟨S100000, .f32⟩ : BufTy).Contents (Elt F) → (⟨S100000x1, .f32⟩ : BufTy).Contents (Elt F)),
    unary main_call5_v8 main_call5_v9 (Host.log : (⟨S100000x1, .f32⟩ : BufTy).Contents (Elt F) → (⟨S100000x1, .f32⟩ : BufTy).Contents (Elt F)),
    unary main_call5_v9 main_call5_v10 ((broadcastInDim S100000x40 ![0, 1] bcast_S100000x1_S100000x40_0_1) : (⟨S100000x1, .f32⟩ : BufTy).Contents (Elt F) → (⟨S100000x40, .f32⟩ : BufTy).Contents (Elt F)),
    binary main_call5_v5 main_call5_v10 main_v79 (subf : (⟨S100000x40, .f32⟩ : BufTy).Contents (Elt F) → (⟨S100000x40, .f32⟩ : BufTy).Contents (Elt F) → (⟨S100000x40, .f32⟩ : BufTy).Contents (Elt F)) ]

/-- The plain line is its five stretches one after the other. -/
theorem opsPlain_eq : (opsPlain : List (HloOp τ sig (Elt F))) = ops0 ++ (ops1 ++ (ops2 ++ (ops3 ++ ops4))) := rfl

/-! A called function's operation over typed references whose type equations are `rfl` is the plain builder's operation
    over the references themselves, whatever its function: the transports of contents along `rfl` are identities. -/

theorem nullary_of (y : Ref sig .tc) (hd : y.space ≠ .host) (hu : y.isScoped = false) (v : y.ty.Contents (Elt F))
    (hy : y.space ≠ .host ∧ (y : DevRef τ sig).isScoped = false) :
    (TRef.nullary (TRef.of (T := y.ty) y rfl hd hu) v : HloOp τ sig (Elt F)) = nullary y v hy := rfl

theorem unary_of (x y : Ref sig .tc) (hxd : x.space ≠ .host) (hxu : x.isScoped = false) (hyd : y.space ≠ .host)
    (hyu : y.isScoped = false) (f : x.ty.Contents (Elt F) → y.ty.Contents (Elt F))
    (hx : x.space ≠ .host ∧ (x : DevRef τ sig).isScoped = false) (hy : y.space ≠ .host ∧ (y : DevRef τ sig).isScoped = false) :
    (TRef.unary (TRef.of (T := x.ty) x rfl hxd hxu) (TRef.of (T := y.ty) y rfl hyd hyu) f : HloOp τ sig (Elt F))
      = unary x y f hx hy := rfl

theorem binary_of (a b y : Ref sig .tc) (had : a.space ≠ .host) (hau : a.isScoped = false) (hbd : b.space ≠ .host)
    (hbu : b.isScoped = false) (hyd : y.space ≠ .host) (hyu : y.isScoped = false)
    (f : a.ty.Contents (Elt F) → b.ty.Contents (Elt F) → y.ty.Contents (Elt F))
    (ha : a.space ≠ .host ∧ (a : DevRef τ sig).isScoped = false) (hb : b.space ≠ .host ∧ (b : DevRef τ sig).isScoped = false)
    (hy : y.space ≠ .host ∧ (y : DevRef τ sig).isScoped = false) :
    (TRef.binary (TRef.of (T := a.ty) a rfl had hau) (TRef.of (T := b.ty) b rfl hbd hbu) (TRef.of (T := y.ty) y rfl hyd hyu) f :
        HloOp τ sig (Elt F)) = binary a b y f ha hb hy := rfl

set_option maxRecDepth 8192 in
set_option maxHeartbeats 8000000 in
/-- The two spellings are one list, operation by operation. -/
theorem opsAll_plain : (opsAll : List (HloOp τ sig (Elt F))) = opsPlain := by
  delta opsAll opsPlain
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (nullary_of _ _ _ _ _) ?_
  refine congrArg₂ List.cons (unary_of _ _ _ _ _ _ _ _ _) ?_
  refine congrArg₂ List.cons (binary_of _ _ _ _ _ _ _ _ _ _ _ _ _) ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (nullary_of _ _ _ _ _) ?_
  refine congrArg₂ List.cons (unary_of _ _ _ _ _ _ _ _ _) ?_
  refine congrArg₂ List.cons (binary_of _ _ _ _ _ _ _ _ _ _ _ _ _) ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (nullary_of _ _ _ _ _) ?_
  refine congrArg₂ List.cons (unary_of _ _ _ _ _ _ _ _ _) ?_
  refine congrArg₂ List.cons (binary_of _ _ _ _ _ _ _ _ _ _ _ _ _) ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (nullary_of _ _ _ _ _) ?_
  refine congrArg₂ List.cons (unary_of _ _ _ _ _ _ _ _ _) ?_
  refine congrArg₂ List.cons (binary_of _ _ _ _ _ _ _ _ _ _ _ _ _) ?_
  refine congrArg₂ List.cons rfl ?_
  refine congrArg₂ List.cons rfl ?_
  refine congrArg₂ List.cons rfl ?_
  refine congrArg₂ List.cons rfl ?_
  refine congrArg₂ List.cons (nullary_of _ _ _ _ _) ?_
  refine congrArg₂ List.cons (unary_of _ _ _ _ _ _ _ _ _) ?_
  refine congrArg₂ List.cons (binary_of _ _ _ _ _ _ _ _ _ _ _ _ _) ?_
  refine congrArg₂ List.cons rfl ?_
  refine congrArg₂ List.cons rfl ?_
  refine congrArg₂ List.cons rfl ?_
  refine congrArg₂ List.cons rfl ?_
  refine congrArg₂ List.cons (nullary_of _ _ _ _ _) ?_
  refine congrArg₂ List.cons (binary_of _ _ _ _ _ _ _ _ _ _ _ _ _) ?_
  refine congrArg₂ List.cons (nullary_of _ _ _ _ _) ?_
  refine congrArg₂ List.cons (unary_of _ _ _ _ _ _ _ _ _) ?_
  refine congrArg₂ List.cons (binary_of _ _ _ _ _ _ _ _ _ _ _ _ _) ?_
  refine congrArg₂ List.cons (unary_of _ _ _ _ _ _ _ _ _) ?_
  refine congrArg₂ List.cons (unary_of _ _ _ _ _ _ _ _ _) ?_
  refine congrArg₂ List.cons (binary_of _ _ _ _ _ _ _ _ _ _ _ _ _) ?_
  refine congrArg₂ List.cons (unary_of _ _ _ _ _ _ _ _ _) ?_
  refine congrArg₂ List.cons (nullary_of _ _ _ _ _) ?_
  refine congrArg₂ List.cons (binary_of _ _ _ _ _ _ _ _ _ _ _ _ _) ?_
  refine congrArg₂ List.cons (unary_of _ _ _ _ _ _ _ _ _) ?_
  refine congrArg₂ List.cons (unary_of _ _ _ _ _ _ _ _ _) ?_
  refine congrArg₂ List.cons (unary_of _ _ _ _ _ _ _ _ _) ?_
  refine congrArg₂ List.cons (binary_of _ _ _ _ _ _ _ _ _ _ _ _ _) ?_
  rfl

/-- The line is its five stretches one after the other. -/
theorem opsAll_eq : (opsAll : List (HloOp τ sig (Elt F))) = ops0 ++ (ops1 ++ (ops2 ++ (ops3 ++ ops4))) :=
  opsAll_plain.trans opsPlain_eq

set_option maxRecDepth 8192 in
set_option maxHeartbeats 4000000 in
/-- @main is the sequence of its operations. -/
theorem main_eq (c : Dev nD) : main (F := F) c = seq opsAll := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (opsAll : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The contents core `c` holds after the first `k` stretches, from the launch memory `m` (definitions, not abbreviations:
    a stretch is read from the contents before it as they stand, without reopening the stretches before). -/
abbrev R0 (m : (ℓ : Loc nD τ sig) → Buf (Elt F) ℓ) (c : Dev nD) : Valuation τ sig (Elt F) := launchContents m c
def R1 (m : (ℓ : Loc nD τ sig) → Buf (Elt F) ℓ) (c : Dev nD) : Valuation τ sig (Elt F) := after ops0 (R0 m c)
def R2 (m : (ℓ : Loc nD τ sig) → Buf (Elt F) ℓ) (c : Dev nD) : Valuation τ sig (Elt F) := after ops1 (R1 m c)
def R3 (m : (ℓ : Loc nD τ sig) → Buf (Elt F) ℓ) (c : Dev nD) : Valuation τ sig (Elt F) := after ops2 (R2 m c)
def R4 (m : (ℓ : Loc nD τ sig) → Buf (Elt F) ℓ) (c : Dev nD) : Valuation τ sig (Elt F) := after ops3 (R3 m c)
def R5 (m : (ℓ : Loc nD τ sig) → Buf (Elt F) ℓ) (c : Dev nD) : Valuation τ sig (Elt F) := after ops4 (R4 m c)

/-- From any memory with zero counters every weakly fair execution of @main terminates, and each buffer ends at the
    fold of the line's operations over the launch contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after opsAll (launchContents m c) (Proc.devRef .tc b) :=
  run_seq scopedRefs_eq scopedSems_eq defs main (fun _ => opsAll) main_eq (fun _ => ops_sub) m ρ

/-- The fold over the whole line is the fold stretch after stretch. -/
theorem all_eq_R5 (m : (ℓ : Loc nD τ sig) → Buf (Elt F) ℓ) (c : Dev nD) (b : Ref sig .tc) :
    after opsAll (launchContents m c) (Proc.devRef .tc b) = R5 m c (Proc.devRef .tc b) := by
  unfold R5 R4 R3 R2 R1
  rw [opsAll_eq, StableHlo.after_append, StableHlo.after_append, StableHlo.after_append, StableHlo.after_append]

set_option maxRecDepth 8192 in
set_option maxHeartbeats 45200000 in
/-- No operation of the line writes an argument: the twelve argument arrays end as launched. -/
theorem args_kept (m : (ℓ : Loc nD τ sig) → Buf (Elt F) ℓ) (c : Dev nD) :
    after opsAll (launchContents m c) (Proc.devRef .tc main_arg0) = m ((c.tc : Thread nD τ).loc main_arg0)
    ∧ after opsAll (launchContents m c) (Proc.devRef .tc main_arg1) = m ((c.tc : Thread nD τ).loc main_arg1)
    ∧ after opsAll (launchContents m c) (Proc.devRef .tc main_arg2) = m ((c.tc : Thread nD τ).loc main_arg2)
    ∧ after opsAll (launchContents m c) (Proc.devRef .tc main_arg3) = m ((c.tc : Thread nD τ).loc main_arg3)
    ∧ after opsAll (launchContents m c) (Proc.devRef .tc main_arg4) = m ((c.tc : Thread nD τ).loc main_arg4)
    ∧ after opsAll (launchContents m c) (Proc.devRef .tc main_arg5) = m ((c.tc : Thread nD τ).loc main_arg5)
    ∧ after opsAll (launchContents m c) (Proc.devRef .tc main_arg6) = m ((c.tc : Thread nD τ).loc main_arg6)
    ∧ after opsAll (launchContents m c) (Proc.devRef .tc main_arg7) = m ((c.tc : Thread nD τ).loc main_arg7)
    ∧ after opsAll (launchContents m c) (Proc.devRef .tc main_arg8) = m ((c.tc : Thread nD τ).loc main_arg8)
    ∧ after opsAll (launchContents m c) (Proc.devRef .tc main_arg9) = m ((c.tc : Thread nD τ).loc main_arg9)
    ∧ after opsAll (launchContents m c) (Proc.devRef .tc main_arg10) = m ((c.tc : Thread nD τ).loc main_arg10)
    ∧ after opsAll (launchContents m c) (Proc.devRef .tc main_arg11) = m ((c.tc : Thread nD τ).loc main_arg11) :=
  ⟨by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl,
   by after_results_simp <;> rfl⟩

end Cert.ReferenceIdeal.HandRun

end
-- ==== Proof.RFold.lean ====
/-
  The reference program's buffers, stretch by stretch, in terms of the launch memory.

  The reference's run leaves each buffer at the contents its five stretches leave in turn (RefRun). Here the buffers a
  later stretch reads are written as functions of the launch memory: the host's products are the plain products, a bias
  laid down as a row and repeated is the bias row added, the maximum with a zero splat the rectifier (HostOps), and the
  host's gather and scatter-add of the neighbourhood sum are left as they stand, as one function of the rows going in
  (`Gnn.agg`). The edge endpoints and the parameters a later stretch reads are carried unchanged. At the end the result
  buffer holds the network of Net.
-/
import proofs.«156270_j22093311771370_2_alg».proof.Proof.RefRun
import proofs.«156270_j22093311771370_2_alg».proof.Proof.Net

set_option maxRecDepth 16384

noncomputable section

namespace Cert.ReferenceIdeal.GnnFold

open Cert.ReferenceIdeal Cert.ReferenceIdeal.Gen Cert.ReferenceIdeal.HandRun
open Idealize.ShloMosaic Idealize.ShloMosaic.TcCoe Idealize.ShloMosaic.ValueIdx Idealize.ShloMosaic.StableHlo
open Idealize.SL Idealize.SL.Sem

/-! ## The product records -/

theorem lhs0_r1 (i : S100000x256.Idx) (q : dot_S100000x128_S128x256_S100000x256_1_0_0_1_n_n.contr.Idx) : (dot_S100000x128_S128x256_S100000x256_1_0_0_1_n_n.lhsIdx i q 0).val = (i 0).val := by
  unfold DotDims.lhsIdx
  rw [dif_neg (show ¬(0 : Fin S100000x128.rank) ∈ dot_S100000x128_S128x256_S100000x256_1_0_0_1_n_n.lhsBatch by decide), dif_pos (show (0 : Fin S100000x128.rank) ∈ dot_S100000x128_S128x256_S100000x256_1_0_0_1_n_n.lhsNonContracting by decide)]
  rfl
theorem lhs1_r1 (i : S100000x256.Idx) (q : dot_S100000x128_S128x256_S100000x256_1_0_0_1_n_n.contr.Idx) : (dot_S100000x128_S128x256_S100000x256_1_0_0_1_n_n.lhsIdx i q 1).val = (q ⟨0, by decide⟩).val :=
  dot_S100000x128_S128x256_S100000x256_1_0_0_1_n_n.lhsIdx_val_of_single rfl i q
theorem rhs0_r1 (i : S100000x256.Idx) (q : dot_S100000x128_S128x256_S100000x256_1_0_0_1_n_n.contr.Idx) : (dot_S100000x128_S128x256_S100000x256_1_0_0_1_n_n.rhsIdx i q 0).val = (q ⟨0, by decide⟩).val :=
  dot_S100000x128_S128x256_S100000x256_1_0_0_1_n_n.rhsIdx_val_of_single rfl i q
theorem rhs1_r1 (i : S100000x256.Idx) (q : dot_S100000x128_S128x256_S100000x256_1_0_0_1_n_n.contr.Idx) : (dot_S100000x128_S128x256_S100000x256_1_0_0_1_n_n.rhsIdx i q 1).val = (i 1).val := by
  unfold DotDims.rhsIdx
  rw [dif_neg (show ¬(1 : Fin S128x256.rank) ∈ dot_S100000x128_S128x256_S100000x256_1_0_0_1_n_n.rhsBatch by decide), dif_pos (show (1 : Fin S128x256.rank) ∈ dot_S100000x128_S128x256_S100000x256_1_0_0_1_n_n.rhsNonContracting by decide)]
  rfl
/-- The host's product of this record is `mm`. -/
theorem dg_r1 {φ₁ φ₂ : FTy} (l : FVec Ideal S100000x128 φ₁) (r : FVec Ideal S128x256 φ₂) :
    Host.dotGeneral dot_S100000x128_S128x256_S100000x256_1_0_0_1_n_n none l r = Gnn.mm l r :=
  Gnn.dotGeneral_eq_mm dot_S100000x128_S128x256_S100000x256_1_0_0_1_n_n rfl rfl lhs0_r1 lhs1_r1 rhs0_r1 rhs1_r1 none l r

theorem lhs0_r2 (i : S100000x64.Idx) (q : dot_S100000x256_S256x64_S100000x64_1_0_0_1_n_n.contr.Idx) : (dot_S100000x256_S256x64_S100000x64_1_0_0_1_n_n.lhsIdx i q 0).val = (i 0).val := by
  unfold DotDims.lhsIdx
  rw [dif_neg (show ¬(0 : Fin S100000x256.rank) ∈ dot_S100000x256_S256x64_S100000x64_1_0_0_1_n_n.lhsBatch by decide), dif_pos (show (0 : Fin S100000x256.rank) ∈ dot_S100000x256_S256x64_S100000x64_1_0_0_1_n_n.lhsNonContracting by decide)]
  rfl
theorem lhs1_r2 (i : S100000x64.Idx) (q : dot_S100000x256_S256x64_S100000x64_1_0_0_1_n_n.contr.Idx) : (dot_S100000x256_S256x64_S100000x64_1_0_0_1_n_n.lhsIdx i q 1).val = (q ⟨0, by decide⟩).val :=
  dot_S100000x256_S256x64_S100000x64_1_0_0_1_n_n.lhsIdx_val_of_single rfl i q
theorem rhs0_r2 (i : S100000x64.Idx) (q : dot_S100000x256_S256x64_S100000x64_1_0_0_1_n_n.contr.Idx) : (dot_S100000x256_S256x64_S100000x64_1_0_0_1_n_n.rhsIdx i q 0).val = (q ⟨0, by decide⟩).val :=
  dot_S100000x256_S256x64_S100000x64_1_0_0_1_n_n.rhsIdx_val_of_single rfl i q
theorem rhs1_r2 (i : S100000x64.Idx) (q : dot_S100000x256_S256x64_S100000x64_1_0_0_1_n_n.contr.Idx) : (dot_S100000x256_S256x64_S100000x64_1_0_0_1_n_n.rhsIdx i q 1).val = (i 1).val := by
  unfold DotDims.rhsIdx
  rw [dif_neg (show ¬(1 : Fin S256x64.rank) ∈ dot_S100000x256_S256x64_S100000x64_1_0_0_1_n_n.rhsBatch by decide), dif_pos (show (1 : Fin S256x64.rank) ∈ dot_S100000x256_S256x64_S100000x64_1_0_0_1_n_n.rhsNonContracting by decide)]
  rfl
/-- The host's product of this record is `mm`. -/
theorem dg_r2 {φ₁ φ₂ : FTy} (l : FVec Ideal S100000x256 φ₁) (r : FVec Ideal S256x64 φ₂) :
    Host.dotGeneral dot_S100000x256_S256x64_S100000x64_1_0_0_1_n_n none l r = Gnn.mm l r :=
  Gnn.dotGeneral_eq_mm dot_S100000x256_S256x64_S100000x64_1_0_0_1_n_n rfl rfl lhs0_r2 lhs1_r2 rhs0_r2 rhs1_r2 none l r

theorem lhs0_r3 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs1_r3 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rhs0_r3 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rhs1_r3 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
/-- The host's product of this record is `mm`. -/
theorem dg_r3 {φ₁ φ₂ : FTy} (l : FVec Ideal S100000x64 φ₁) (r : FVec Ideal S64x64 φ₂) :
    Host.dotGeneral dot_S100000x64_S64x64_S100000x64_1_0_0_1_n_n none l r = Gnn.mm l r :=
  Gnn.dotGeneral_eq_mm dot_S100000x64_S64x64_S100000x64_1_0_0_1_n_n rfl rfl lhs0_r3 lhs1_r3 rhs0_r3 rhs1_r3 none l r

theorem lhs0_r4 (i : S100000x256.Idx) (q : dot_S100000x64_S64x256_S100000x256_1_0_0_1_n_n.contr.Idx) : (dot_S100000x64_S64x256_S100000x256_1_0_0_1_n_n.lhsIdx i q 0).val = (i 0).val := by
  unfold DotDims.lhsIdx
  rw [dif_neg (show ¬(0 : Fin S100000x64.rank) ∈ dot_S100000x64_S64x256_S100000x256_1_0_0_1_n_n.lhsBatch by decide), dif_pos (show (0 : Fin S100000x64.rank) ∈ dot_S100000x64_S64x256_S100000x256_1_0_0_1_n_n.lhsNonContracting by decide)]
  rfl
theorem lhs1_r4 (i : S100000x256.Idx) (q : dot_S100000x64_S64x256_S100000x256_1_0_0_1_n_n.contr.Idx) : (dot_S100000x64_S64x256_S100000x256_1_0_0_1_n_n.lhsIdx i q 1).val = (q ⟨0, by decide⟩).val :=
  dot_S100000x64_S64x256_S100000x256_1_0_0_1_n_n.lhsIdx_val_of_single rfl i q
theorem rhs0_r4 (i : S100000x256.Idx) (q : dot_S100000x64_S64x256_S100000x256_1_0_0_1_n_n.contr.Idx) : (dot_S100000x64_S64x256_S100000x256_1_0_0_1_n_n.rhsIdx i q 0).val = (q ⟨0, by decide⟩).val :=
  dot_S100000x64_S64x256_S100000x256_1_0_0_1_n_n.rhsIdx_val_of_single rfl i q
theorem rhs1_r4 (i : S100000x256.Idx) (q : dot_S100000x64_S64x256_S100000x256_1_0_0_1_n_n.contr.Idx) : (dot_S100000x64_S64x256_S100000x256_1_0_0_1_n_n.rhsIdx i q 1).val = (i 1).val := by
  unfold DotDims.rhsIdx
  rw [dif_neg (show ¬(1 : Fin S64x256.rank) ∈ dot_S100000x64_S64x256_S100000x256_1_0_0_1_n_n.rhsBatch by decide), dif_pos (show (1 : Fin S64x256.rank) ∈ dot_S100000x64_S64x256_S100000x256_1_0_0_1_n_n.rhsNonContracting by decide)]
  rfl
/-- The host's product of this record is `mm`. -/
theorem dg_r4 {φ₁ φ₂ : FTy} (l : FVec Ideal S100000x64 φ₁) (r : FVec Ideal S64x256 φ₂) :
    Host.dotGeneral dot_S100000x64_S64x256_S100000x256_1_0_0_1_n_n none l r = Gnn.mm l r :=
  Gnn.dotGeneral_eq_mm dot_S100000x64_S64x256_S100000x256_1_0_0_1_n_n rfl rfl lhs0_r4 lhs1_r4 rhs0_r4 rhs1_r4 none l r

theorem lhs0_r5 (i : S100000x40.Idx) (q : dot_S100000x256_S256x40_S100000x40_1_0_0_1_n_n.contr.Idx) : (dot_S100000x256_S256x40_S100000x40_1_0_0_1_n_n.lhsIdx i q 0).val = (i 0).val := by
  unfold DotDims.lhsIdx
  rw [dif_neg (show ¬(0 : Fin S100000x256.rank) ∈ dot_S100000x256_S256x40_S100000x40_1_0_0_1_n_n.lhsBatch by decide), dif_pos (show (0 : Fin S100000x256.rank) ∈ dot_S100000x256_S256x40_S100000x40_1_0_0_1_n_n.lhsNonContracting by decide)]
  rfl
theorem lhs1_r5 (i : S100000x40.Idx) (q : dot_S100000x256_S256x40_S100000x40_1_0_0_1_n_n.contr.Idx) : (dot_S100000x256_S256x40_S100000x40_1_0_0_1_n_n.lhsIdx i q 1).val = (q ⟨0, by decide⟩).val :=
  dot_S100000x256_S256x40_S100000x40_1_0_0_1_n_n.lhsIdx_val_of_single rfl i q
theorem rhs0_r5 (i : S100000x40.Idx) (q : dot_S100000x256_S256x40_S100000x40_1_0_0_1_n_n.contr.Idx) : (dot_S100000x256_S256x40_S100000x40_1_0_0_1_n_n.rhsIdx i q 0).val = (q ⟨0, by decide⟩).val :=
  dot_S100000x256_S256x40_S100000x40_1_0_0_1_n_n.rhsIdx_val_of_single rfl i q
theorem rhs1_r5 (i : S100000x40.Idx) (q : dot_S100000x256_S256x40_S100000x40_1_0_0_1_n_n.contr.Idx) : (dot_S100000x256_S256x40_S100000x40_1_0_0_1_n_n.rhsIdx i q 1).val = (i 1).val := by
  unfold DotDims.rhsIdx
  rw [dif_neg (show ¬(1 : Fin S256x40.rank) ∈ dot_S100000x256_S256x40_S100000x40_1_0_0_1_n_n.rhsBatch by decide), dif_pos (show (1 : Fin S256x40.rank) ∈ dot_S100000x256_S256x40_S100000x40_1_0_0_1_n_n.rhsNonContracting by decide)]
  rfl
/-- The host's product of this record is `mm`. -/
theorem dg_r5 {φ₁ φ₂ : FTy} (l : FVec Ideal S100000x256 φ₁) (r : FVec Ideal S256x40 φ₂) :
    Host.dotGeneral dot_S100000x256_S256x40_S100000x40_1_0_0_1_n_n none l r = Gnn.mm l r :=
  Gnn.dotGeneral_eq_mm dot_S100000x256_S256x40_S100000x40_1_0_0_1_n_n rfl rfl lhs0_r5 lhs1_r5 rhs0_r5 rhs1_r5 none l r

variable (m : (ℓ : Loc nD τ sig) → Buf (Elt Ideal) ℓ)

/-! ## After the first stretch: the edge endpoints, the encoder and the first product -/

theorem R1_main_arg6 (c : Dev nD) : R1 m c (Proc.devRef .tc main_arg6) = (m ((c.tc : Thread nD τ).loc main_arg6) : FVec Ideal S3x64x64 .f32) := by
  refine Eq.trans ?_ ((rfl : R0 m c (Proc.devRef .tc main_arg6) = (m ((c.tc : Thread nD τ).loc main_arg6) : FVec Ideal S3x64x64 .f32)))
  show StableHlo.after ops0 (R0 m c) (Proc.devRef .tc main_arg6) = R0 m c (Proc.devRef .tc main_arg6)
  dsimp only [ops0]
  after_results <;> rfl

theorem R1_main_arg7 (c : Dev nD) : R1 m c (Proc.devRef .tc main_arg7) = (m ((c.tc : Thread nD τ).loc main_arg7) : FVec Ideal S3x64 .f32) := by
  refine Eq.trans ?_ ((rfl : R0 m c (Proc.devRef .tc main_arg7) = (m ((c.tc : Thread nD τ).loc main_arg7) : FVec Ideal S3x64 .f32)))
  show StableHlo.after ops0 (R0 m c) (Proc.devRef .tc main_arg7) = R0 m c (Proc.devRef .tc main_arg7)
  dsimp only [ops0]
  after_results <;> rfl

theorem R1_main_arg8 (c : Dev nD) : R1 m c (Proc.devRef .tc main_arg8) = (m ((c.tc : Thread nD τ).loc main_arg8) : FVec Ideal S64x256 .f32) := by
  refine Eq.trans ?_ ((rfl : R0 m c (Proc.devRef .tc main_arg8) = (m ((c.tc : Thread nD τ).loc main_arg8) : FVec Ideal S64x256 .f32)))
  show StableHlo.after ops0 (R0 m c) (Proc.devRef .tc main_arg8) = R0 m c (Proc.devRef .tc main_arg8)
  dsimp only [ops0]
  after_results <;> rfl

theorem R1_main_arg9 (c : Dev nD) : R1 m c (Proc.devRef .tc main_arg9) = (m ((c.tc : Thread nD τ).loc main_arg9) : FVec Ideal S256 .f32) := by
  refine Eq.trans ?_ ((rfl : R0 m c (Proc.devRef .tc main_arg9) = (m ((c.tc : Thread nD τ).loc main_arg9) : FVec Ideal S256 .f32)))
  show StableHlo.after ops0 (R0 m c) (Proc.devRef .tc main_arg9) = R0 m c (Proc.devRef .tc main_arg9)
  dsimp only [ops0]
  after_results <;> rfl

theorem R1_main_arg10 (c : Dev nD) : R1 m c (Proc.devRef .tc main_arg10) = (m ((c.tc : Thread nD τ).loc main_arg10) : FVec Ideal S256x40 .f32) := by
  refine Eq.trans ?_ ((rfl : R0 m c (Proc.devRef .tc main_arg10) = (m ((c.tc : Thread nD τ).loc main_arg10) : FVec Ideal S256x40 .f32)))
  show StableHlo.after ops0 (R0 m c) (Proc.devRef .tc main_arg10) = R0 m c (Proc.devRef .tc main_arg10)
  dsimp only [ops0]
  after_results <;> rfl

theorem R1_main_arg11 (c : Dev nD) : R1 m c (Proc.devRef .tc main_arg11) = (m ((c.tc : Thread nD τ).loc main_arg11) : FVec Ideal S40 .f32) := by
  refine Eq.trans ?_ ((rfl : R0 m c (Proc.devRef .tc main_arg11) = (m ((c.tc : Thread nD τ).loc main_arg11) : FVec Ideal S40 .f32)))
  show StableHlo.after ops0 (R0 m c) (Proc.devRef .tc main_arg11) = R0 m c (Proc.devRef .tc main_arg11)
  dsimp only [ops0]
  after_results <;> rfl

theorem R1_main_v1 (c : Dev nD) : R1 m c (Proc.devRef .tc main_v1) = Gnn.edgeSrc (m ((c.tc : Thread nD τ).loc main_arg1) : IVec S2x1200000 32) := by
  show StableHlo.after ops0 (R0 m c) (Proc.devRef .tc main_v1) = _
  dsimp only [ops0]
  after_results
  rfl

theorem R1_main_v3 (c : Dev nD) : R1 m c (Proc.devRef .tc main_v3) = Gnn.edgeDst (m ((c.tc : Thread nD τ).loc main_arg1) : IVec S2x1200000 32) := by
  show StableHlo.after ops0 (R0 m c) (Proc.devRef .tc main_v3) = _
  dsimp only [ops0]
  after_results
  rfl

set_option maxHeartbeats 8000000 in
theorem R1_main_v15 (c : Dev nD) : R1 m c (Proc.devRef .tc main_v15) = Gnn.enc0 (m ((c.tc : Thread nD τ).loc main_arg0) : FVec Ideal S100000x128 .f32) (m ((c.tc : Thread nD τ).loc main_arg2) : FVec Ideal S128x256 .f32) (m ((c.tc : Thread nD τ).loc main_arg3) : FVec Ideal S256 .f32) (m ((c.tc : Thread nD τ).loc main_arg4) : FVec Ideal S256x64 .f32) (m ((c.tc : Thread nD τ).loc main_arg5) : FVec Ideal S64 .f32) (m ((c.tc : Thread nD τ).loc main_arg6) : FVec Ideal S3x64x64 .f32) := by
  show StableHlo.after ops0 (R0 m c) (Proc.devRef .tc main_v15) = _
  dsimp only [ops0]
  after_results_simp
  rw [dg_r1, Gnn.addf_bidRow, Gnn.maximumf_bidZero, dg_r2, Gnn.addf_bidRow, dg_r3]
  rfl

/-! ## After the second stretch: the first neighbourhood sum, bias 0, rectifier, the second product -/

theorem R2_main_v1 (c : Dev nD) : R2 m c (Proc.devRef .tc main_v1) = Gnn.edgeSrc (m ((c.tc : Thread nD τ).loc main_arg1) : IVec S2x1200000 32) := by
  refine Eq.trans ?_ (R1_main_v1 m c)
  show StableHlo.after ops1 (R1 m c) (Proc.devRef .tc main_v1) = R1 m c (Proc.devRef .tc main_v1)
  dsimp only [ops1]
  after_results <;> rfl

theorem R2_main_v3 (c : Dev nD) : R2 m c (Proc.devRef .tc main_v3) = Gnn.edgeDst (m ((c.tc : Thread nD τ).loc main_arg1) : IVec S2x1200000 32) := by
  refine Eq.trans ?_ (R1_main_v3 m c)
  show StableHlo.after ops1 (R1 m c) (Proc.devRef .tc main_v3) = R1 m c (Proc.devRef .tc main_v3)
  dsimp only [ops1]
  after_results <;> rfl

theorem R2_main_arg6 (c : Dev nD) : R2 m c (Proc.devRef .tc main_arg6) = (m ((c.tc : Thread nD τ).loc main_arg6) : FVec Ideal S3x64x64 .f32) := by
  refine Eq.trans ?_ (R1_main_arg6 m c)
  show StableHlo.after ops1 (R1 m c) (Proc.devRef .tc main_arg6) = R1 m c (Proc.devRef .tc main_arg6)
  dsimp only [ops1]
  after_results <;> rfl

theorem R2_main_arg7 (c : Dev nD) : R2 m c (Proc.devRef .tc main_arg7) = (m ((c.tc : Thread nD τ).loc main_arg7) : FVec Ideal S3x64 .f32) := by
  refine Eq.trans ?_ (R1_main_arg7 m c)
  show StableHlo.after ops1 (R1 m c) (Proc.devRef .tc main_arg7) = R1 m c (Proc.devRef .tc main_arg7)
  dsimp only [ops1]
  after_results <;> rfl

theorem R2_main_arg8 (c : Dev nD) : R2 m c (Proc.devRef .tc main_arg8) = (m ((c.tc : Thread nD τ).loc main_arg8) : FVec Ideal S64x256 .f32) := by
  refine Eq.trans ?_ (R1_main_arg8 m c)
  show StableHlo.after ops1 (R1 m c) (Proc.devRef .tc main_arg8) = R1 m c (Proc.devRef .tc main_arg8)
  dsimp only [ops1]
  after_results <;> rfl

theorem R2_main_arg9 (c : Dev nD) : R2 m c (Proc.devRef .tc main_arg9) = (m ((c.tc : Thread nD τ).loc main_arg9) : FVec Ideal S256 .f32) := by
  refine Eq.trans ?_ (R1_main_arg9 m c)
  show StableHlo.after ops1 (R1 m c) (Proc.devRef .tc main_arg9) = R1 m c (Proc.devRef .tc main_arg9)
  dsimp only [ops1]
  after_results <;> rfl

theorem R2_main_arg10 (c : Dev nD) : R2 m c (Proc.devRef .tc main_arg10) = (m ((c.tc : Thread nD τ).loc main_arg10) : FVec Ideal S256x40 .f32) := by
  refine Eq.trans ?_ (R1_main_arg10 m c)
  show StableHlo.after ops1 (R1 m c) (Proc.devRef .tc main_arg10) = R1 m c (Proc.devRef .tc main_arg10)
  dsimp only [ops1]
  after_results <;> rfl

theorem R2_main_arg11 (c : Dev nD) : R2 m c (Proc.devRef .tc main_arg11) = (m ((c.tc : Thread nD τ).loc main_arg11) : FVec Ideal S40 .f32) := by
  refine Eq.trans ?_ (R1_main_arg11 m c)
  show StableHlo.after ops1 (R1 m c) (Proc.devRef .tc main_arg11) = R1 m c (Proc.devRef .tc main_arg11)
  dsimp only [ops1]
  after_results <;> rfl

set_option maxHeartbeats 8000000 in
theorem R2_main_v34 (c : Dev nD) : R2 m c (Proc.devRef .tc main_v34) = Gnn.layer1 (m ((c.tc : Thread nD τ).loc main_arg0) : FVec Ideal S100000x128 .f32) (m ((c.tc : Thread nD τ).loc main_arg1) : IVec S2x1200000 32) (m ((c.tc : Thread nD τ).loc main_arg2) : FVec Ideal S128x256 .f32) (m ((c.tc : Thread nD τ).loc main_arg3) : FVec Ideal S256 .f32) (m ((c.tc : Thread nD τ).loc main_arg4) : FVec Ideal S256x64 .f32) (m ((c.tc : Thread nD τ).loc main_arg5) : FVec Ideal S64 .f32) (m ((c.tc : Thread nD τ).loc main_arg6) : FVec Ideal S3x64x64 .f32) (m ((c.tc : Thread nD τ).loc main_arg7) : FVec Ideal S3x64 .f32) := by
  show StableHlo.after ops1 (R1 m c) (Proc.devRef .tc main_v34) = _
  dsimp only [ops1]
  after_results_simp
  rw [R1_main_v15 m c, R1_main_v1 m c, R1_main_v3 m c, R1_main_arg7 m c, R1_main_arg6 m c, Gnn.addf_bidRow, Gnn.maximumf_bidZero, dg_r3]
  rfl

/-! ## After the third stretch: the second neighbourhood sum, bias 1, rectifier, the third product -/

theorem R3_main_v1 (c : Dev nD) : R3 m c (Proc.devRef .tc main_v1) = Gnn.edgeSrc (m ((c.tc : Thread nD τ).loc main_arg1) : IVec S2x1200000 32) := by
  refine Eq.trans ?_ (R2_main_v1 m c)
  show StableHlo.after ops2 (R2 m c) (Proc.devRef .tc main_v1) = R2 m c (Proc.devRef .tc main_v1)
  dsimp only [ops2]
  after_results <;> rfl

theorem R3_main_v3 (c : Dev nD) : R3 m c (Proc.devRef .tc main_v3) = Gnn.edgeDst (m ((c.tc : Thread nD τ).loc main_arg1) : IVec S2x1200000 32) := by
  refine Eq.trans ?_ (R2_main_v3 m c)
  show StableHlo.after ops2 (R2 m c) (Proc.devRef .tc main_v3) = R2 m c (Proc.devRef .tc main_v3)
  dsimp only [ops2]
  after_results <;> rfl

theorem R3_main_arg7 (c : Dev nD) : R3 m c (Proc.devRef .tc main_arg7) = (m ((c.tc : Thread nD τ).loc main_arg7) : FVec Ideal S3x64 .f32) := by
  refine Eq.trans ?_ (R2_main_arg7 m c)
  show StableHlo.after ops2 (R2 m c) (Proc.devRef .tc main_arg7) = R2 m c (Proc.devRef .tc main_arg7)
  dsimp only [ops2]
  after_results <;> rfl

theorem R3_main_arg8 (c : Dev nD) : R3 m c (Proc.devRef .tc main_arg8) = (m ((c.tc : Thread nD τ).loc main_arg8) : FVec Ideal S64x256 .f32) := by
  refine Eq.trans ?_ (R2_main_arg8 m c)
  show StableHlo.after ops2 (R2 m c) (Proc.devRef .tc main_arg8) = R2 m c (Proc.devRef .tc main_arg8)
  dsimp only [ops2]
  after_results <;> rfl

theorem R3_main_arg9 (c : Dev nD) : R3 m c (Proc.devRef .tc main_arg9) = (m ((c.tc : Thread nD τ).loc main_arg9) : FVec Ideal S256 .f32) := by
  refine Eq.trans ?_ (R2_main_arg9 m c)
  show StableHlo.after ops2 (R2 m c) (Proc.devRef .tc main_arg9) = R2 m c (Proc.devRef .tc main_arg9)
  dsimp only [ops2]
  after_results <;> rfl

theorem R3_main_arg10 (c : Dev nD) : R3 m c (Proc.devRef .tc main_arg10) = (m ((c.tc : Thread nD τ).loc main_arg10) : FVec Ideal S256x40 .f32) := by
  refine Eq.trans ?_ (R2_main_arg10 m c)
  show StableHlo.after ops2 (R2 m c) (Proc.devRef .tc main_arg10) = R2 m c (Proc.devRef .tc main_arg10)
  dsimp only [ops2]
  after_results <;> rfl

theorem R3_main_arg11 (c : Dev nD) : R3 m c (Proc.devRef .tc main_arg11) = (m ((c.tc : Thread nD τ).loc main_arg11) : FVec Ideal S40 .f32) := by
  refine Eq.trans ?_ (R2_main_arg11 m c)
  show StableHlo.after ops2 (R2 m c) (Proc.devRef .tc main_arg11) = R2 m c (Proc.devRef .tc main_arg11)
  dsimp only [ops2]
  after_results <;> rfl

set_option maxHeartbeats 8000000 in
theorem R3_main_v53 (c : Dev nD) : R3 m c (Proc.devRef .tc main_v53) = Gnn.layer2 (m ((c.tc : Thread nD τ).loc main_arg0) : FVec Ideal S100000x128 .f32) (m ((c.tc : Thread nD τ).loc main_arg1) : IVec S2x1200000 32) (m ((c.tc : Thread nD τ).loc main_arg2) : FVec Ideal S128x256 .f32) (m ((c.tc : Thread nD τ).loc main_arg3) : FVec Ideal S256 .f32) (m ((c.tc : Thread nD τ).loc main_arg4) : FVec Ideal S256x64 .f32) (m ((c.tc : Thread nD τ).loc main_arg5) : FVec Ideal S64 .f32) (m ((c.tc : Thread nD τ).loc main_arg6) : FVec Ideal S3x64x64 .f32) (m ((c.tc : Thread nD τ).loc main_arg7) : FVec Ideal S3x64 .f32) := by
  show StableHlo.after ops2 (R2 m c) (Proc.devRef .tc main_v53) = _
  dsimp only [ops2]
  after_results_simp
  rw [R2_main_v34 m c, R2_main_v1 m c, R2_main_v3 m c, R2_main_arg7 m c, R2_main_arg6 m c, Gnn.addf_bidRow, Gnn.maximumf_bidZero, dg_r3]
  rfl

/-! ## After the fourth stretch: the third neighbourhood sum, bias 2, rectifier, the decoder's dense layers -/

set_option maxHeartbeats 8000000 in
theorem R4_main_v78 (c : Dev nD) : R4 m c (Proc.devRef .tc main_v78) = Gnn.logits (m ((c.tc : Thread nD τ).loc main_arg0) : FVec Ideal S100000x128 .f32) (m ((c.tc : Thread nD τ).loc main_arg1) : IVec S2x1200000 32) (m ((c.tc : Thread nD τ).loc main_arg2) : FVec Ideal S128x256 .f32) (m ((c.tc : Thread nD τ).loc main_arg3) : FVec Ideal S256 .f32) (m ((c.tc : Thread nD τ).loc main_arg4) : FVec Ideal S256x64 .f32) (m ((c.tc : Thread nD τ).loc main_arg5) : FVec Ideal S64 .f32) (m ((c.tc : Thread nD τ).loc main_arg6) : FVec Ideal S3x64x64 .f32) (m ((c.tc : Thread nD τ).loc main_arg7) : FVec Ideal S3x64 .f32) (m ((c.tc : Thread nD τ).loc main_arg8) : FVec Ideal S64x256 .f32) (m ((c.tc : Thread nD τ).loc main_arg9) : FVec Ideal S256 .f32) (m ((c.tc : Thread nD τ).loc main_arg10) : FVec Ideal S256x40 .f32) (m ((c.tc : Thread nD τ).loc main_arg11) : FVec Ideal S40 .f32) := by
  show StableHlo.after ops3 (R3 m c) (Proc.devRef .tc main_v78) = _
  dsimp only [ops3]
  after_results_simp
  rw [R3_main_v53 m c, R3_main_v1 m c, R3_main_v3 m c, R3_main_arg7 m c, R3_main_arg8 m c, R3_main_arg9 m c, R3_main_arg10 m c, R3_main_arg11 m c, Gnn.addf_bidRow, Gnn.maximumf_bidZero, dg_r4, Gnn.addf_bidRow, Gnn.maximumf_bidZero, dg_r5, Gnn.addf_bidRow]
  rfl

/-! ## After the last stretch: the result -/

set_option maxHeartbeats 8000000 in
/-- The result buffer ends at the network of the launch memory's argument arrays. -/
theorem R5_main_v79 (c : Dev nD) : R5 m c (Proc.devRef .tc main_v79) = Gnn.net (m ((c.tc : Thread nD τ).loc main_arg0) : FVec Ideal S100000x128 .f32) (m ((c.tc : Thread nD τ).loc main_arg1) : IVec S2x1200000 32) (m ((c.tc : Thread nD τ).loc main_arg2) : FVec Ideal S128x256 .f32) (m ((c.tc : Thread nD τ).loc main_arg3) : FVec Ideal S256 .f32) (m ((c.tc : Thread nD τ).loc main_arg4) : FVec Ideal S256x64 .f32) (m ((c.tc : Thread nD τ).loc main_arg5) : FVec Ideal S64 .f32) (m ((c.tc : Thread nD τ).loc main_arg6) : FVec Ideal S3x64x64 .f32) (m ((c.tc : Thread nD τ).loc main_arg7) : FVec Ideal S3x64 .f32) (m ((c.tc : Thread nD τ).loc main_arg8) : FVec Ideal S64x256 .f32) (m ((c.tc : Thread nD τ).loc main_arg9) : FVec Ideal S256 .f32) (m ((c.tc : Thread nD τ).loc main_arg10) : FVec Ideal S256x40 .f32) (m ((c.tc : Thread nD τ).loc main_arg11) : FVec Ideal S40 .f32) := by
  show StableHlo.after ops4 (R4 m c) (Proc.devRef .tc main_v79) = _
  dsimp only [ops4]
  after_results_simp
  rw [R4_main_v78 m c]
  exact Gnn.logSoftmax_host _ reducesTo_S100000x40_S100000_d1 (by decide) h_S_ bcast_S_S100000 bcast_S100000_S100000x1_0
    bcast_S100000x1_S100000x40_0_1

end Cert.ReferenceIdeal.GnnFold

end
-- ==== Proof.RValue.lean ====
/-
  The reference program's run with its result as the network of the arguments.

  The run ends with every buffer at the fold of the line's operations (RefRun); that fold, stretch after stretch, leaves
  the result buffer at the network of the launch memory's argument arrays (RFold), and no operation writes an argument.
-/
import proofs.«156270_j22093311771370_2_alg».proof.Proof.RFold

noncomputable section

namespace Cert.ReferenceIdeal.GnnValue

open Cert.ReferenceIdeal Cert.ReferenceIdeal.Gen Cert.ReferenceIdeal.HandRun
open Idealize.ShloMosaic Idealize.ShloMosaic.TcCoe Idealize.ShloMosaic.ValueIdx Idealize.ShloMosaic.StableHlo
open Idealize.SL Idealize.SL.Sem

/-- Every weakly fair execution of the idealized reference terminates; its result is the network of the arguments,
    and the arguments end as launched. -/
theorem run_net (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v79) = Gnn.net (m ((c.tc : Thread nD τ).loc main_arg0) : FVec Ideal S100000x128 .f32) (m ((c.tc : Thread nD τ).loc main_arg1) : IVec S2x1200000 32) (m ((c.tc : Thread nD τ).loc main_arg2) : FVec Ideal S128x256 .f32) (m ((c.tc : Thread nD τ).loc main_arg3) : FVec Ideal S256 .f32) (m ((c.tc : Thread nD τ).loc main_arg4) : FVec Ideal S256x64 .f32) (m ((c.tc : Thread nD τ).loc main_arg5) : FVec Ideal S64 .f32) (m ((c.tc : Thread nD τ).loc main_arg6) : FVec Ideal S3x64x64 .f32) (m ((c.tc : Thread nD τ).loc main_arg7) : FVec Ideal S3x64 .f32) (m ((c.tc : Thread nD τ).loc main_arg8) : FVec Ideal S64x256 .f32) (m ((c.tc : Thread nD τ).loc main_arg9) : FVec Ideal S256 .f32) (m ((c.tc : Thread nD τ).loc main_arg10) : FVec Ideal S256x40 .f32) (m ((c.tc : Thread nD τ).loc main_arg11) : FVec Ideal S40 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
      have k := args_kept m c
      ⟨(h c main_v79).trans ((all_eq_R5 m c main_v79).trans (GnnFold.R5_main_v79 m c)),
       (h c main_arg0).trans k.1, (h c main_arg1).trans k.2.1, (h c main_arg2).trans k.2.2.1, (h c main_arg3).trans k.2.2.2.1,
       (h c main_arg4).trans k.2.2.2.2.1, (h c main_arg5).trans k.2.2.2.2.2.1, (h c main_arg6).trans k.2.2.2.2.2.2.1,
       (h c main_arg7).trans k.2.2.2.2.2.2.2.1, (h c main_arg8).trans k.2.2.2.2.2.2.2.2.1, (h c main_arg9).trans k.2.2.2.2.2.2.2.2.2.1,
       (h c main_arg10).trans k.2.2.2.2.2.2.2.2.2.2.1, (h c main_arg11).trans k.2.2.2.2.2.2.2.2.2.2.2⟩)
    (run_all (F := Ideal) m ρ)

end Cert.ReferenceIdeal.GnnValue

end
-- ==== Proof.lean ====
/-
  The certificate: the Pallas message-passing network against its jnp reference.

  Both programs compute, from node features, an edge list and the layers' parameters, the log-softmax over 40 classes of
  a decoder applied to three rounds of neighbourhood sums of an encoder's output. The kernel program does the dense
  algebra in four pallas_calls, each over twenty-five blocks of 4000 nodes, with bf16 operands; the reference does it
  with whole-array host operations. On the extended reals a change of float format is the identity and a matrix product
  is the plain sum of products; every dense stage is row-wise, so a block of rows of the stage is the stage of the block
  of rows, and the twenty-five blocks tile the 100000 rows. The gather and scatter-add of the neighbourhood sum are the
  same host operations in both programs and are never opened. So both results are one function, `Gnn.net`, of the
  arguments (`algebraic`). No law used needs finiteness of the inputs: the precondition is never opened.

  The three frames: the two kernel programs' frames are generated; the reference's is its run with the result dropped.
  The idealization rewrote nothing, so `preserves` is `True`.
-/
import proofs.«156270_j22093311771370_2_alg».proof.Defs
import proofs.«156270_j22093311771370_2_alg».proof.Proof.Gen.Kernel
import proofs.«156270_j22093311771370_2_alg».proof.Proof.Gen.Kernel.Skeleton
import proofs.«156270_j22093311771370_2_alg».proof.Proof.Gen.Kernel.Launch
import proofs.«156270_j22093311771370_2_alg».proof.Proof.Gen.Kernel.Points
import proofs.«156270_j22093311771370_2_alg».proof.Proof.Gen.Kernel.Frame
import proofs.«156270_j22093311771370_2_alg».proof.Proof.Gen.KernelIdeal
import proofs.«156270_j22093311771370_2_alg».proof.Proof.Gen.KernelIdeal.Skeleton
import proofs.«156270_j22093311771370_2_alg».proof.Proof.Gen.KernelIdeal.Launch
import proofs.«156270_j22093311771370_2_alg».proof.Proof.Gen.KernelIdeal.Points
import proofs.«156270_j22093311771370_2_alg».proof.Proof.Gen.KernelIdeal.Frame
import proofs.«156270_j22093311771370_2_alg».proof.Proof.Gen.ReferenceIdeal
import proofs.«156270_j22093311771370_2_alg».proof.Proof.Gen.Pre_finite_inputs
import proofs.«156270_j22093311771370_2_alg».proof.Proof.KValue
import proofs.«156270_j22093311771370_2_alg».proof.Proof.RValue
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.GnnValue.run_net m ρ)

/-- From memories that agree on the arguments both idealized programs end with the network of the arguments as their
    result: one function of equal arguments. -/
theorem algebraic : Cert.algebraic_KernelIdeal_ReferenceIdeal := by
  intro m ρ m' ρ' _ hagree
  refine ⟨_, Cert.KernelIdeal.GnnValue.run_net m ρ, ?_⟩
  refine (θ_run Cert.ReferenceIdeal.defs _ _).mono (fun _ h c => ⟨(h c).1.trans ?_, (h c).2⟩)
    (Cert.ReferenceIdeal.GnnValue.run_net m' ρ')
  obtain ⟨e0, e1, e2, e3, e4, e5, e6, e7, e8, e9, e10, e11⟩ := hagree c
  rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
